-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v147)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v147) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v168) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S50000 : Shape := ⟨1, ![50000]⟩
abbrev S600000 : Shape := ⟨1, ![600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x21 : Shape := ⟨2, ![32, 21]⟩
abbrev S21 : Shape := ⟨1, ![21]⟩
abbrev S21x1 : Shape := ⟨2, ![21, 1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x21 : S_.BroadcastsInDim S32x21 (![] : Fin 0 → Fin S32x21.rank)
  reducesTo_S32x21_S_d0_1 : S32x21.ReducesTo [0, 1] S_
  bcast_S_S21 : S_.BroadcastsInDim S21 (![] : Fin 0 → Fin S21.rank)
  reducesTo_S21_S_d0 : S21.ReducesTo [0] S_
  bcast_S_S21x1 : S_.BroadcastsInDim S21x1 (![] : Fin 0 → Fin S21x1.rank)
  reducesTo_S21x1_S_d0_1 : S21x1.ReducesTo [0, 1] S_

variable [Facts]

def fn_part2 {F : FTy → Type} [FloatOps F] (main_arg10 : FVec F S21 .f32) (main_arg11 : FVec F S21x1 .f32) (main_v33 : IVec S_ 1) : IVec S_ 1 :=
  let main_v34 : FVec F S21 .f32 := Host.absf main_arg10
  let main_cst_12 : FVec F S_ .f32 := constant S_ .f32 0x7F800000#32
  let main_v35 : FVec F S21 .f32 := broadcastInDim S21 ![] bcast_S_S21 main_cst_12
  let main_v36 : IVec S21 1 := cmpf .olt main_v34 main_v35
  let main_c_13 : IVec S_ 1 := constantI S_ 1 1#1
  let main_v37 : IVec S_ 1 := (fun x v => Host.reduce IntOp.andi x v reducesTo_S21_S_d0 h_S_) main_v36 main_c_13
  let main_v38 : IVec S_ 1 := andi main_v33 main_v37
  let main_v39 : FVec F S21x1 .f32 := Host.absf main_arg11
  let main_cst_14 : FVec F S_ .f32 := constant S_ .f32 0x7F800000#32
  let main_v40 : FVec F S21x1 .f32 := broadcastInDim S21x1 ![] bcast_S_S21x1 main_cst_14
  let main_v41 : IVec S21x1 1 := cmpf .olt main_v39 main_v40
  let main_c_15 : IVec S_ 1 := constantI S_ 1 1#1
  let main_v42 : IVec S_ 1 := (fun x v => Host.reduce IntOp.andi x v reducesTo_S21x1_S_d0_1 h_S_) main_v41 main_c_15
  let main_v43 : IVec S_ 1 := andi main_v38 main_v42
  main_v43

def fn_part1 {F : FTy → Type} [FloatOps F] (main_arg7 : FVec F S64x32 .f32) (main_arg8 : FVec F S32 .f32) (main_arg9 : FVec F S32x21 .f32) (main_arg10 : FVec F S21 .f32) (main_arg11 : FVec F S21x1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg7
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg8
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x21 .f32 := Host.absf main_arg9
  let main_cst_10 : FVec F S_ .f32 := constant S_ .f32 0x7F800000#32
  let main_v30 : FVec F S32x21 .f32 := broadcastInDim S32x21 ![] bcast_S_S32x21 main_cst_10
  let main_v31 : IVec S32x21 1 := cmpf .olt main_v29 main_v30
  let main_c_11 : IVec S_ 1 := constantI S_ 1 1#1
  let main_v32 : IVec S_ 1 := (fun x v => Host.reduce IntOp.andi x v reducesTo_S32x21_S_d0_1 h_S_) main_v31 main_c_11
  let main_v33 : IVec S_ 1 := andi main_v28 main_v32
  fn_part2 (F := F) main_arg10 main_arg11 main_v33

def fn {F : FTy → Type} [FloatOps F] (main_arg0 : FVec F S100000x128 .f32) (main_arg1 : IVec S50000 32) (main_arg2 : IVec S600000 32) (main_arg3 : IVec S600000 32) (main_arg4 : FVec F S600000 .f32) (main_arg5 : FVec F S128x64 .f32) (main_arg6 : FVec F S64 .f32) (main_arg7 : FVec F S64x32 .f32) (main_arg8 : FVec F S32 .f32) (main_arg9 : FVec F S32x21 .f32) (main_arg10 : FVec F S21 .f32) (main_arg11 : FVec F S21x1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S600000 .f32 := Host.absf main_arg4
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S128x64 .f32 := Host.absf main_arg5
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg6
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg7 main_arg8 main_arg9 main_arg10 main_arg11 main_v13 main_v16
-- ==== Kernel.lean ====
abbrev S100000x128 : Shape := ⟨2, ![100000, 128]⟩
abbrev S50000 : Shape := ⟨1, ![50000]⟩
abbrev S600000 : Shape := ⟨1, ![600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x21 : Shape := ⟨2, ![32, 21]⟩
abbrev S21 : Shape := ⟨1, ![21]⟩
abbrev S21x1 : Shape := ⟨2, ![21, 1]⟩
abbrev S_ : Shape := ⟨0, ![]⟩
abbrev S600000x1 : Shape := ⟨2, ![600000, 1]⟩
abbrev S50000x1 : Shape := ⟨2, ![50000, 1]⟩
abbrev S50000x128 : Shape := ⟨2, ![50000, 128]⟩
abbrev S600000x128 : Shape := ⟨2, ![600000, 128]⟩
abbrev S100000x1 : Shape := ⟨2, ![100000, 1]⟩
abbrev S2000x128 : Shape := ⟨2, ![2000, 128]⟩
abbrev S2000x1 : Shape := ⟨2, ![2000, 1]⟩
abbrev S2000x64 : Shape := ⟨2, ![2000, 64]⟩
abbrev S1x64 : Shape := ⟨2, ![1, 64]⟩
abbrev S2000x32 : Shape := ⟨2, ![2000, 32]⟩
abbrev S1x32 : Shape := ⟨2, ![1, 32]⟩
abbrev S2000x21 : Shape := ⟨2, ![2000, 21]⟩
abbrev S1x21 : Shape := ⟨2, ![1, 21]⟩

abbrev nBuf : Space → Nat
  | .hbm => 199
  | .vmem => 11
  | .smem => 0
  | _ => 0

abbrev hbmTy0_0 (i : Nat) : BufTy := match i % 128 with
  | 0 => ⟨S100000x128, .f32⟩
  | 1 => ⟨S50000, .i32⟩
  | 2 => ⟨S600000, .i32⟩
  | 3 => ⟨S600000, .i32⟩
  | 4 => ⟨S600000, .f32⟩
  | 5 => ⟨S128x64, .f32⟩
  | 6 => ⟨S64, .f32⟩
  | 7 => ⟨S64x32, .f32⟩
  | 8 => ⟨S32, .f32⟩
  | 9 => ⟨S32x21, .f32⟩
  | 10 => ⟨S21, .f32⟩
  | 11 => ⟨S21x1, .f32⟩
  | 12 => ⟨S_, .f32⟩
  | 13 => ⟨S50000, .f32⟩
  | 14 => ⟨S600000x1, .i32⟩
  | 15 => ⟨S50000, .f32⟩
  | 16 => ⟨S_, .f32⟩
  | 17 => ⟨S50000, .f32⟩
  | 18 => ⟨S50000, .f32⟩
  | 19 => ⟨S50000, .f32⟩
  | 20 => ⟨S_, .i32⟩
  | 21 => ⟨S600000, .i32⟩
  | 22 => ⟨S600000, .i1⟩
  | 23 => ⟨S_, .i32⟩
  | 24 => ⟨S600000, .i32⟩
  | 25 => ⟨S600000, .i32⟩
  | 26 => ⟨S600000, .i32⟩
  | 27 => ⟨S600000x1, .i32⟩
  | 28 => ⟨S600000, .f32⟩
  | 29 => ⟨S600000, .f32⟩
  | 30 => ⟨S_, .i32⟩
  | 31 => ⟨S600000, .i32⟩
  | 32 => ⟨S600000, .i1⟩
  | 33 => ⟨S_, .i32⟩
  | 34 => ⟨S600000, .i32⟩
  | 35 => ⟨S600000, .i32⟩
  | 36 => ⟨S600000, .i32⟩
  | 37 => ⟨S600000x1, .i32⟩
  | 38 => ⟨S600000, .f32⟩
  | 39 => ⟨S600000, .f32⟩
  | 40 => ⟨S_, .i32⟩
  | 41 => ⟨S50000, .i32⟩
  | 42 => ⟨S50000, .i1⟩
  | 43 => ⟨S_, .i32⟩
  | 44 => ⟨S50000, .i32⟩
  | 45 => ⟨S50000, .i32⟩
  | 46 => ⟨S50000, .i32⟩
  | 47 => ⟨S50000x1, .i32⟩
  | 48 => ⟨S50000x128, .f32⟩
  | 49 => ⟨S_, .i32⟩
  | 50 => ⟨S600000, .i32⟩
  | 51 => ⟨S600000, .i1⟩
  | 52 => ⟨S_, .i32⟩
  | 53 => ⟨S600000, .i32⟩
  | 54 => ⟨S600000, .i32⟩
  | 55 => ⟨S600000, .i32⟩
  | 56 => ⟨S600000x1, .i32⟩
  | 57 => ⟨S600000x128, .f32⟩
  | 58 => ⟨S600000x1, .f32⟩
  | 59 => ⟨S600000x128, .f32⟩
  | 60 => ⟨S600000x128, .f32⟩
  | 61 => ⟨S_, .f32⟩
  | 62 => ⟨S50000x128, .f32⟩
  | 63 => ⟨S600000x1, .i32⟩
  | 64 => ⟨S50000x128, .f32⟩
  | 65 => ⟨S_, .i32⟩
  | 66 => ⟨S50000, .i32⟩
  | 67 => ⟨S50000, .i1⟩
  | 68 => ⟨S_, .i32⟩
  | 69 => ⟨S50000, .i32⟩
  | 70 => ⟨S50000, .i32⟩
  | 71 => ⟨S50000, .i32⟩
  | 72 => ⟨S50000x1, .i32⟩
  | 73 => ⟨S100000x128, .f32⟩
  | 74 => ⟨S_, .f32⟩
  | 75 => ⟨S50000, .f32⟩
  | 76 => ⟨S600000x1, .i32⟩
  | 77 => ⟨S50000, .f32⟩
  | 78 => ⟨S_, .f32⟩
  | 79 => ⟨S50000, .f32⟩
  | 80 => ⟨S50000, .f32⟩
  | 81 => ⟨S50000, .f32⟩
  | 82 => ⟨S_, .i32⟩
  | 83 => ⟨S600000, .i32⟩
  | 84 => ⟨S600000, .i1⟩
  | 85 => ⟨S_, .i32⟩
  | 86 => ⟨S600000, .i32⟩
  | 87 => ⟨S600000, .i32⟩
  | 88 => ⟨S600000, .i32⟩
  | 89 => ⟨S600000x1, .i32⟩
  | 90 => ⟨S600000, .f32⟩
  | 91 => ⟨S600000, .f32⟩
  | 92 => ⟨S_, .i32⟩
  | 93 => ⟨S600000, .i32⟩
  | 94 => ⟨S600000, .i1⟩
  | 95 => ⟨S_, .i32⟩
  | 96 => ⟨S600000, .i32⟩
  | 97 => ⟨S600000, .i32⟩
  | 98 => ⟨S600000, .i32⟩
  | 99 => ⟨S600000x1, .i32⟩
  | 100 => ⟨S600000, .f32⟩
  | 101 => ⟨S600000, .f32⟩
  | 102 => ⟨S_, .i32⟩
  | 103 => ⟨S50000, .i32⟩
  | 104 => ⟨S50000, .i1⟩
  | 105 => ⟨S_, .i32⟩
  | 106 => ⟨S50000, .i32⟩
  | 107 => ⟨S50000, .i32⟩
  | 108 => ⟨S50000, .i32⟩
  | 109 => ⟨S50000x1, .i32⟩
  | 110 => ⟨S50000x128, .f32⟩
  | 111 => ⟨S_, .i32⟩
  | 112 => ⟨S600000, .i32⟩
  | 113 => ⟨S600000, .i1⟩
  | 114 => ⟨S_, .i32⟩
  | 115 => ⟨S600000, .i32⟩
  | 116 => ⟨S600000, .i32⟩
  | 117 => ⟨S600000, .i32⟩
  | 118 => ⟨S600000x1, .i32⟩
  | 119 => ⟨S600000x128, .f32⟩
  | 120 => ⟨S600000x1, .f32⟩
  | 121 => ⟨S600000x128, .f32⟩
  | 122 => ⟨S600000x128, .f32⟩
  | 123 => ⟨S_, .f32⟩
  | 124 => ⟨S50000x128, .f32⟩
  | 125 => ⟨S600000x1, .i32⟩
  | 126 => ⟨S50000x128, .f32⟩
  | 127 => ⟨S_, .i32⟩
  | _ => ⟨S100000x128, .f32⟩

abbrev hbmTy0_1 (i : Nat) : BufTy := match i % 128 with
  | 0 => ⟨S50000, .i32⟩
  | 1 => ⟨S50000, .i1⟩
  | 2 => ⟨S_, .i32⟩
  | 3 => ⟨S50000, .i32⟩
  | 4 => ⟨S50000, .i32⟩
  | 5 => ⟨S50000, .i32⟩
  | 6 => ⟨S50000x1, .i32⟩
  | 7 => ⟨S100000x128, .f32⟩
  | 8 => ⟨S_, .f32⟩
  | 9 => ⟨S50000, .f32⟩
  | 10 => ⟨S600000x1, .i32⟩
  | 11 => ⟨S50000, .f32⟩
  | 12 => ⟨S_, .f32⟩
  | 13 => ⟨S50000, .f32⟩
  | 14 => ⟨S50000, .f32⟩
  | 15 => ⟨S50000, .f32⟩
  | 16 => ⟨S_, .i32⟩
  | 17 => ⟨S600000, .i32⟩
  | 18 => ⟨S600000, .i1⟩
  | 19 => ⟨S_, .i32⟩
  | 20 => ⟨S600000, .i32⟩
  | 21 => ⟨S600000, .i32⟩
  | 22 => ⟨S600000, .i32⟩
  | 23 => ⟨S600000x1, .i32⟩
  | 24 => ⟨S600000, .f32⟩
  | 25 => ⟨S600000, .f32⟩
  | 26 => ⟨S_, .i32⟩
  | 27 => ⟨S600000, .i32⟩
  | 28 => ⟨S600000, .i1⟩
  | 29 => ⟨S_, .i32⟩
  | 30 => ⟨S600000, .i32⟩
  | 31 => ⟨S600000, .i32⟩
  | 32 => ⟨S600000, .i32⟩
  | 33 => ⟨S600000x1, .i32⟩
  | 34 => ⟨S600000, .f32⟩
  | 35 => ⟨S600000, .f32⟩
  | 36 => ⟨S_, .i32⟩
  | 37 => ⟨S50000, .i32⟩
  | 38 => ⟨S50000, .i1⟩
  | 39 => ⟨S_, .i32⟩
  | 40 => ⟨S50000, .i32⟩
  | 41 => ⟨S50000, .i32⟩
  | 42 => ⟨S50000, .i32⟩
  | 43 => ⟨S50000x1, .i32⟩
  | 44 => ⟨S50000x128, .f32⟩
  | 45 => ⟨S_, .i32⟩
  | 46 => ⟨S600000, .i32⟩
  | 47 => ⟨S600000, .i1⟩
  | 48 => ⟨S_, .i32⟩
  | 49 => ⟨S600000, .i32⟩
  | 50 => ⟨S600000, .i32⟩
  | 51 => ⟨S600000, .i32⟩
  | 52 => ⟨S600000x1, .i32⟩
  | 53 => ⟨S600000x128, .f32⟩
  | 54 => ⟨S600000x1, .f32⟩
  | 55 => ⟨S600000x128, .f32⟩
  | 56 => ⟨S600000x128, .f32⟩
  | 57 => ⟨S_, .f32⟩
  | 58 => ⟨S50000x128, .f32⟩
  | 59 => ⟨S600000x1, .i32⟩
  | 60 => ⟨S50000x128, .f32⟩
  | 61 => ⟨S_, .i32⟩
  | 62 => ⟨S50000, .i32⟩
  | 63 => ⟨S50000, .i1⟩
  | 64 => ⟨S_, .i32⟩
  | 65 => ⟨S50000, .i32⟩
  | 66 => ⟨S50000, .i32⟩
  | 67 => ⟨S50000, .i32⟩
  | 68 => ⟨S50000x1, .i32⟩
  | 69 => ⟨S100000x128, .f32⟩
  | 70 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S64, .f32⟩
  | .local _ .vmem, ⟨4, _⟩ => ⟨S64x32, .f32⟩
  | .local _ .vmem, ⟨5, _⟩ => ⟨S32, .f32⟩
  | .local _ .vmem, ⟨6, _⟩ => ⟨S32x21, .f32⟩
  | .local _ .vmem, ⟨7, _⟩ => ⟨S21, .f32⟩
  | .local _ .vmem, ⟨8, _⟩ => ⟨S21x1, .f32⟩
  | .local _ .vmem, ⟨9, _⟩ => ⟨S2000x1, .f32⟩
  | .local _ .vmem, ⟨10, _⟩ => ⟨S2000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c : Ref sig .tc := ⟨.hbm, 20, rfl⟩
abbrev main_v6 : Ref sig .tc := ⟨.hbm, 21, rfl⟩
abbrev main_v7 : Ref sig .tc := ⟨.hbm, 22, rfl⟩
abbrev main_c_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_2 : Ref sig .tc := ⟨.hbm, 30, rfl⟩
abbrev main_v14 : Ref sig .tc := ⟨.hbm, 31, rfl⟩
abbrev main_v15 : Ref sig .tc := ⟨.hbm, 32, rfl⟩
abbrev main_c_3 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_6 : Ref sig .tc := ⟨.hbm, 49, rfl⟩
abbrev main_v29 : Ref sig .tc := ⟨.hbm, 50, rfl⟩
abbrev main_v30 : Ref sig .tc := ⟨.hbm, 51, rfl⟩
abbrev main_c_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_8 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_c_9 : Ref sig .tc := ⟨.hbm, 65, rfl⟩
abbrev main_v42 : Ref sig .tc := ⟨.hbm, 66, rfl⟩
abbrev main_v43 : Ref sig .tc := ⟨.hbm, 67, rfl⟩
abbrev main_c_10 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_11 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_12 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_c_13 : Ref sig .tc := ⟨.hbm, 82, rfl⟩
abbrev main_v55 : Ref sig .tc := ⟨.hbm, 83, rfl⟩
abbrev main_v56 : Ref sig .tc := ⟨.hbm, 84, rfl⟩
abbrev main_c_14 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_c_15 : Ref sig .tc := ⟨.hbm, 92, rfl⟩
abbrev main_v63 : Ref sig .tc := ⟨.hbm, 93, rfl⟩
abbrev main_v64 : Ref sig .tc := ⟨.hbm, 94, rfl⟩
abbrev main_c_16 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_c_17 : Ref sig .tc := ⟨.hbm, 102, rfl⟩
abbrev main_v71 : Ref sig .tc := ⟨.hbm, 103, rfl⟩
abbrev main_v72 : Ref sig .tc := ⟨.hbm, 104, rfl⟩
abbrev main_c_18 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_c_19 : Ref sig .tc := ⟨.hbm, 111, rfl⟩
abbrev main_v78 : Ref sig .tc := ⟨.hbm, 112, rfl⟩
abbrev main_v79 : Ref sig .tc := ⟨.hbm, 113, rfl⟩
abbrev main_c_20 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_21 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_c_22 : Ref sig .tc := ⟨.hbm, 127, rfl⟩
abbrev main_v91 : Ref sig .tc := ⟨.hbm, 128, rfl⟩
abbrev main_v92 : Ref sig .tc := ⟨.hbm, 129, rfl⟩
abbrev main_c_23 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_cst_24 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_cst_25 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_c_26 : Ref sig .tc := ⟨.hbm, 144, rfl⟩
abbrev main_v104 : Ref sig .tc := ⟨.hbm, 145, rfl⟩
abbrev main_v105 : Ref sig .tc := ⟨.hbm, 146, rfl⟩
abbrev main_c_27 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_c_28 : Ref sig .tc := ⟨.hbm, 154, rfl⟩
abbrev main_v112 : Ref sig .tc := ⟨.hbm, 155, rfl⟩
abbrev main_v113 : Ref sig .tc := ⟨.hbm, 156, rfl⟩
abbrev main_c_29 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_c_30 : Ref sig .tc := ⟨.hbm, 164, rfl⟩
abbrev main_v120 : Ref sig .tc := ⟨.hbm, 165, rfl⟩
abbrev main_v121 : Ref sig .tc := ⟨.hbm, 166, rfl⟩
abbrev main_c_31 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_c_32 : Ref sig .tc := ⟨.hbm, 173, rfl⟩
abbrev main_v127 : Ref sig .tc := ⟨.hbm, 174, rfl⟩
abbrev main_v128 : Ref sig .tc := ⟨.hbm, 175, rfl⟩
abbrev main_c_33 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_cst_34 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_c_35 : Ref sig .tc := ⟨.hbm, 189, rfl⟩
abbrev main_v140 : Ref sig .tc := ⟨.hbm, 190, rfl⟩
abbrev main_v141 : Ref sig .tc := ⟨.hbm, 191, rfl⟩
abbrev main_c_36 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x21 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S21 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S21x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S50000 : S_.BroadcastsInDim S50000 (![] : Fin 0 → Fin S50000.rank)
  bcast_S600000_S600000x1_0 : S600000.BroadcastsInDim S600000x1 (![0] : Fin 1 → Fin S600000x1.rank)
  bcast_S_S600000 : S_.BroadcastsInDim S600000 (![] : Fin 0 → Fin S600000.rank)
  bcast_S50000_S50000x1_0 : S50000.BroadcastsInDim S50000x1 (![0] : Fin 1 → Fin S50000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  broadcasts_S1x32_S2000x32 : S1x32.Broadcasts S2000x32
  inb_S32x21_S32x21_0_0 : ∀ a, (![0, 0] : Fin 2 → Nat) a + S32x21.size a ≤ S32x21.size a
  h_S32x21 : 0 < S32x21.numel
  inb_S21_S21_0 : ∀ a, (![0] : Fin 1 → Nat) a + S21.size a ≤ S21.size a
  h_S21 : 0 < S21.numel
  shapeCasts_S21_S1x21 : S21.ShapeCasts S1x21
  broadcasts_S1x21_S2000x21 : S1x21.Broadcasts S2000x21
  inb_S21x1_S21x1_0_0 : ∀ a, (![0, 0] : Fin 2 → Nat) a + S21x1.size a ≤ S21x1.size a
  h_S21x1 : 0 < S21x1.numel
  inb_S2000x1_S2000x1_0_0 : ∀ a, (![0, 0] : Fin 2 → Nat) a + S2000x1.size a ≤ S2000x1.size a
  h_S2000x1 : 0 < S2000x1.numel
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  gather_S100000x128_S50000x1_S50000x128_1_0_n_n_0_1_1128_wf : GatherDims.WF S100000x128 S50000x1 S50000x128 [1] [0] [] [0] [] 1 ![1, 128]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S100000x128_S50000x1_S50000x128_1_0_0_1_wf : ScatterDims.WF S100000x128 S50000x1 S50000x128 [1] [0] [0] 1
  dot_S2000x128_S128x64_S2000x64_1_0_0_1_n_n_wf : DotDims.WF S2000x128 S128x64 S2000x64 [1] [0] [0] [1] [] []
  dot_S2000x64_S64x32_S2000x32_1_0_0_1_n_n_wf : DotDims.WF S2000x64 S64x32 S2000x32 [1] [0] [0] [1] [] []
  dot_S2000x32_S32x21_S2000x21_1_0_0_1_n_n_wf : DotDims.WF S2000x32 S32x21 S2000x21 [1] [0] [0] [1] [] []
  dot_S2000x21_S21x1_S2000x1_1_0_0_1_n_n_wf : DotDims.WF S2000x21 S21x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x32.size a ≤ S64x32.size a
  hwx0_3 : ∀ i : grid0.Coords, EltTy.bits .f32 = 32 ∨ (Rect.block (s := S64x32) S64x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32.size a ≤ S32.size a
  hwx0_4 : ∀ i : grid0.Coords, EltTy.bits .f32 = 32 ∨ (Rect.block (s := S32) S32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x21.size a ≤ S32x21.size a
  hwx0_5 : ∀ i : grid0.Coords, EltTy.bits .f32 = 32 ∨ (Rect.block (s := S32x21) S32x21.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S21.size a ≤ S21.size a
  hwx0_6 : ∀ i : grid0.Coords, EltTy.bits .f32 = 32 ∨ (Rect.block (s := S21) S21.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S21x1.size a ≤ S21x1.size a
  hwx0_7 : ∀ i : grid0.Coords, EltTy.bits .f32 = 32 ∨ (Rect.block (s := S21x1) S21x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x1.size a ≤ S100000x1.size a
  hwx0_8 : ∀ i : grid0.Coords, EltTy.bits .f32 = 32 ∨ (Rect.block (s := S100000x1) S2000x1.size (cc0_transform_8 i) (hinb0_8 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def gather_S100000x128_S50000x1_S50000x128_1_0_n_n_0_1_1128 : GatherDims S100000x128 S50000x1 S50000x128 where
  offsetDims := [1]
  collapsedSliceDims := [0]
  operandBatchingDims := []
  startIndicesBatchingDims := []
  startIndexMap := [0]
  indexVectorDim := 1
  sliceSizes := ![1, 128]
  wf := gather_S100000x128_S50000x1_S50000x128_1_0_n_n_0_1_1128_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S100000x128_S50000x1_S50000x128_1_0_0_1 : ScatterDims S100000x128 S50000x1 S50000x128 where
  updateWindowDims := [1]
  insertedWindowDims := [0]
  scatterDimsToOperandDims := [0]
  indexVectorDim := 1
  wf := scatter_S100000x128_S50000x1_S50000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x32_S2000x32_1_0_0_1_n_n : DotDims S2000x64 S64x32 S2000x32 where
  lhsContracting := [1]
  rhsContracting := [0]
  lhsNonContracting := [0]
  rhsNonContracting := [1]
  lhsBatch := []
  rhsBatch := []
  wf := dot_S2000x64_S64x32_S2000x32_1_0_0_1_n_n_wf
def dot_S2000x32_S32x21_S2000x21_1_0_0_1_n_n : DotDims S2000x32 S32x21 S2000x21 where
  lhsContracting := [1]
  rhsContracting := [0]
  lhsNonContracting := [0]
  rhsNonContracting := [1]
  lhsBatch := []
  rhsBatch := []
  wf := dot_S2000x32_S32x21_S2000x21_1_0_0_1_n_n_wf
def dot_S2000x21_S21x1_S2000x1_1_0_0_1_n_n : DotDims S2000x21 S21x1 S2000x1 where
  lhsContracting := [1]
  rhsContracting := [0]
  lhsNonContracting := [0]
  rhsNonContracting := [1]
  lhsBatch := []
  rhsBatch := []
  wf := dot_S2000x21_S21x1_S2000x1_1_0_0_1_n_n_wf

abbrev win0_0 : Pipeline.Window sig grid0 :=
  Pipeline.Window.ofSpec (Memref.whole main_v146) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S64x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S32x21.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg10) S21.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg11) S21x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v147) S2000x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S100000x128 : Shape := ⟨2, ![100000, 128]⟩
abbrev S50000 : Shape := ⟨1, ![50000]⟩
abbrev S600000 : Shape := ⟨1, ![600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x21 : Shape := ⟨2, ![32, 21]⟩
abbrev S21 : Shape := ⟨1, ![21]⟩
abbrev S21x1 : Shape := ⟨2, ![21, 1]⟩
abbrev S_ : Shape := ⟨0, ![]⟩
abbrev S600000x1 : Shape := ⟨2, ![600000, 1]⟩
abbrev S50000x1 : Shape := ⟨2, ![50000, 1]⟩
abbrev S50000x128 : Shape := ⟨2, ![50000, 128]⟩
abbrev S600000x128 : Shape := ⟨2, ![600000, 128]⟩
abbrev S100000x64 : Shape := ⟨2, ![100000, 64]⟩
abbrev S1x64 : Shape := ⟨2, ![1, 64]⟩
abbrev S100000x32 : Shape := ⟨2, ![100000, 32]⟩
abbrev S1x32 : Shape := ⟨2, ![1, 32]⟩
abbrev S100000x21 : Shape := ⟨2, ![100000, 21]⟩
abbrev S1x21 : Shape := ⟨2, ![1, 21]⟩
abbrev S100000x1 : Shape := ⟨2, ![100000, 1]⟩

abbrev nBuf : Space → Nat
  | .hbm => 243
  | .vmem => 0
  | .smem => 0
  | _ => 0

abbrev hbmTy0_0 (i : Nat) : BufTy := match i % 128 with
  | 0 => ⟨S100000x128, .f32⟩
  | 1 => ⟨S50000, .i32⟩
  | 2 => ⟨S600000, .i32⟩
  | 3 => ⟨S600000, .i32⟩
  | 4 => ⟨S600000, .f32⟩
  | 5 => ⟨S128x64, .f32⟩
  | 6 => ⟨S64, .f32⟩
  | 7 => ⟨S64x32, .f32⟩
  | 8 => ⟨S32, .f32⟩
  | 9 => ⟨S32x21, .f32⟩
  | 10 => ⟨S21, .f32⟩
  | 11 => ⟨S21x1, .f32⟩
  | 12 => ⟨S_, .f32⟩
  | 13 => ⟨S50000, .f32⟩
  | 14 => ⟨S600000x1, .i32⟩
  | 15 => ⟨S50000, .f32⟩
  | 16 => ⟨S_, .f32⟩
  | 17 => ⟨S50000, .f32⟩
  | 18 => ⟨S50000, .f32⟩
  | 19 => ⟨S50000, .f32⟩
  | 20 => ⟨S_, .i32⟩
  | 21 => ⟨S600000, .i32⟩
  | 22 => ⟨S600000, .i1⟩
  | 23 => ⟨S_, .i32⟩
  | 24 => ⟨S600000, .i32⟩
  | 25 => ⟨S600000, .i32⟩
  | 26 => ⟨S600000, .i32⟩
  | 27 => ⟨S600000x1, .i32⟩
  | 28 => ⟨S600000, .f32⟩
  | 29 => ⟨S600000, .f32⟩
  | 30 => ⟨S_, .i32⟩
  | 31 => ⟨S600000, .i32⟩
  | 32 => ⟨S600000, .i1⟩
  | 33 => ⟨S_, .i32⟩
  | 34 => ⟨S600000, .i32⟩
  | 35 => ⟨S600000, .i32⟩
  | 36 => ⟨S600000, .i32⟩
  | 37 => ⟨S600000x1, .i32⟩
  | 38 => ⟨S600000, .f32⟩
  | 39 => ⟨S600000, .f32⟩
  | 40 => ⟨S_, .i32⟩
  | 41 => ⟨S50000, .i32⟩
  | 42 => ⟨S50000, .i1⟩
  | 43 => ⟨S_, .i32⟩
  | 44 => ⟨S50000, .i32⟩
  | 45 => ⟨S50000, .i32⟩
  | 46 => ⟨S50000, .i32⟩
  | 47 => ⟨S50000x1, .i32⟩
  | 48 => ⟨S50000x128, .f32⟩
  | 49 => ⟨S_, .i32⟩
  | 50 => ⟨S600000, .i32⟩
  | 51 => ⟨S600000, .i1⟩
  | 52 => ⟨S_, .i32⟩
  | 53 => ⟨S600000, .i32⟩
  | 54 => ⟨S600000, .i32⟩
  | 55 => ⟨S600000, .i32⟩
  | 56 => ⟨S600000x1, .i32⟩
  | 57 => ⟨S600000x128, .f32⟩
  | 58 => ⟨S600000x1, .f32⟩
  | 59 => ⟨S600000x128, .f32⟩
  | 60 => ⟨S600000x128, .f32⟩
  | 61 => ⟨S_, .f32⟩
  | 62 => ⟨S50000x128, .f32⟩
  | 63 => ⟨S600000x1, .i32⟩
  | 64 => ⟨S50000x128, .f32⟩
  | 65 => ⟨S_, .i32⟩
  | 66 => ⟨S50000, .i32⟩
  | 67 => ⟨S50000, .i1⟩
  | 68 => ⟨S_, .i32⟩
  | 69 => ⟨S50000, .i32⟩
  | 70 => ⟨S50000, .i32⟩
  | 71 => ⟨S50000, .i32⟩
  | 72 => ⟨S50000x1, .i32⟩
  | 73 => ⟨S100000x128, .f32⟩
  | 74 => ⟨S_, .f32⟩
  | 75 => ⟨S50000, .f32⟩
  | 76 => ⟨S600000x1, .i32⟩
  | 77 => ⟨S50000, .f32⟩
  | 78 => ⟨S_, .f32⟩
  | 79 => ⟨S50000, .f32⟩
  | 80 => ⟨S50000, .f32⟩
  | 81 => ⟨S50000, .f32⟩
  | 82 => ⟨S_, .i32⟩
  | 83 => ⟨S600000, .i32⟩
  | 84 => ⟨S600000, .i1⟩
  | 85 => ⟨S_, .i32⟩
  | 86 => ⟨S600000, .i32⟩
  | 87 => ⟨S600000, .i32⟩
  | 88 => ⟨S600000, .i32⟩
  | 89 => ⟨S600000x1, .i32⟩
  | 90 => ⟨S600000, .f32⟩
  | 91 => ⟨S600000, .f32⟩
  | 92 => ⟨S_, .i32⟩
  | 93 => ⟨S600000, .i32⟩
  | 94 => ⟨S600000, .i1⟩
  | 95 => ⟨S_, .i32⟩
  | 96 => ⟨S600000, .i32⟩
  | 97 => ⟨S600000, .i32⟩
  | 98 => ⟨S600000, .i32⟩
  | 99 => ⟨S600000x1, .i32⟩
  | 100 => ⟨S600000, .f32⟩
  | 101 => ⟨S600000, .f32⟩
  | 102 => ⟨S_, .i32⟩
  | 103 => ⟨S50000, .i32⟩
  | 104 => ⟨S50000, .i1⟩
  | 105 => ⟨S_, .i32⟩
  | 106 => ⟨S50000, .i32⟩
  | 107 => ⟨S50000, .i32⟩
  | 108 => ⟨S50000, .i32⟩
  | 109 => ⟨S50000x1, .i32⟩
  | 110 => ⟨S50000x128, .f32⟩
  | 111 => ⟨S_, .i32⟩
  | 112 => ⟨S600000, .i32⟩
  | 113 => ⟨S600000, .i1⟩
  | 114 => ⟨S_, .i32⟩
  | 115 => ⟨S600000, .i32⟩
  | 116 => ⟨S600000, .i32⟩
  | 117 => ⟨S600000, .i32⟩
  | 118 => ⟨S600000x1, .i32⟩
  | 119 => ⟨S600000x128, .f32⟩
  | 120 => ⟨S600000x1, .f32⟩
  | 121 => ⟨S600000x128, .f32⟩
  | 122 => ⟨S600000x128, .f32⟩
  | 123 => ⟨S_, .f32⟩
  | 124 => ⟨S50000x128, .f32⟩
  | 125 => ⟨S600000x1, .i32⟩
  | 126 => ⟨S50000x128, .f32⟩
  | 127 => ⟨S_, .i32⟩
  | _ => ⟨S100000x128, .f32⟩

abbrev hbmTy0_1 (i : Nat) : BufTy := match i % 128 with
  | 0 => ⟨S50000, .i32⟩
  | 1 => ⟨S50000, .i1⟩
  | 2 => ⟨S_, .i32⟩
  | 3 => ⟨S50000, .i32⟩
  | 4 => ⟨S50000, .i32⟩
  | 5 => ⟨S50000, .i32⟩
  | 6 => ⟨S50000x1, .i32⟩
  | 7 => ⟨S100000x128, .f32⟩
  | 8 => ⟨S_, .f32⟩
  | 9 => ⟨S50000, .f32⟩
  | 10 => ⟨S600000x1, .i32⟩
  | 11 => ⟨S50000, .f32⟩
  | 12 => ⟨S_, .f32⟩
  | 13 => ⟨S50000, .f32⟩
  | 14 => ⟨S50000, .f32⟩
  | 15 => ⟨S50000, .f32⟩
  | 16 => ⟨S_, .i32⟩
  | 17 => ⟨S600000, .i32⟩
  | 18 => ⟨S600000, .i1⟩
  | 19 => ⟨S_, .i32⟩
  | 20 => ⟨S600000, .i32⟩
  | 21 => ⟨S600000, .i32⟩
  | 22 => ⟨S600000, .i32⟩
  | 23 => ⟨S600000x1, .i32⟩
  | 24 => ⟨S600000, .f32⟩
  | 25 => ⟨S600000, .f32⟩
  | 26 => ⟨S_, .i32⟩
  | 27 => ⟨S600000, .i32⟩
  | 28 => ⟨S600000, .i1⟩
  | 29 => ⟨S_, .i32⟩
  | 30 => ⟨S600000, .i32⟩
  | 31 => ⟨S600000, .i32⟩
  | 32 => ⟨S600000, .i32⟩
  | 33 => ⟨S600000x1, .i32⟩
  | 34 => ⟨S600000, .f32⟩
  | 35 => ⟨S600000, .f32⟩
  | 36 => ⟨S_, .i32⟩
  | 37 => ⟨S50000, .i32⟩
  | 38 => ⟨S50000, .i1⟩
  | 39 => ⟨S_, .i32⟩
  | 40 => ⟨S50000, .i32⟩
  | 41 => ⟨S50000, .i32⟩
  | 42 => ⟨S50000, .i32⟩
  | 43 => ⟨S50000x1, .i32⟩
  | 44 => ⟨S50000x128, .f32⟩
  | 45 => ⟨S_, .i32⟩
  | 46 => ⟨S600000, .i32⟩
  | 47 => ⟨S600000, .i1⟩
  | 48 => ⟨S_, .i32⟩
  | 49 => ⟨S600000, .i32⟩
  | 50 => ⟨S600000, .i32⟩
  | 51 => ⟨S600000, .i32⟩
  | 52 => ⟨S600000x1, .i32⟩
  | 53 => ⟨S600000x128, .f32⟩
  | 54 => ⟨S600000x1, .f32⟩
  | 55 => ⟨S600000x128, .f32⟩
  | 56 => ⟨S600000x128, .f32⟩
  | 57 => ⟨S_, .f32⟩
  | 58 => ⟨S50000x128, .f32⟩
  | 59 => ⟨S600000x1, .i32⟩
  | 60 => ⟨S50000x128, .f32⟩
  | 61 => ⟨S_, .i32⟩
  | 62 => ⟨S50000, .i32⟩
  | 63 => ⟨S50000, .i1⟩
  | 64 => ⟨S_, .i32⟩
  | 65 => ⟨S50000, .i32⟩
  | 66 => ⟨S50000, .i32⟩
  | 67 => ⟨S50000, .i32⟩
  | 68 => ⟨S50000x1, .i32⟩
  | 69 => ⟨S100000x128, .f32⟩
  | 70 => ⟨S100000x64, .f32⟩
  | 71 => ⟨S1x64, .f32⟩
  | 72 => ⟨S100000x64, .f32⟩
  | 73 => ⟨S100000x64, .f32⟩
  | 74 => ⟨S_, .f32⟩
  | 75 => ⟨S_, .f32⟩
  | 76 => ⟨S100000x64, .f32⟩
  | 77 => ⟨S100000x64, .i1⟩
  | 78 => ⟨S_, .f32⟩
  | 79 => ⟨S100000x64, .f32⟩
  | 80 => ⟨S100000x64, .f32⟩
  | 81 => ⟨S100000x64, .f32⟩
  | 82 => ⟨S100000x32, .f32⟩
  | 83 => ⟨S1x32, .f32⟩
  | 84 => ⟨S100000x32, .f32⟩
  | 85 => ⟨S100000x32, .f32⟩
  | 86 => ⟨S_, .f32⟩
  | 87 => ⟨S_, .f32⟩
  | 88 => ⟨S100000x32, .f32⟩
  | 89 => ⟨S100000x32, .i1⟩
  | 90 => ⟨S_, .f32⟩
  | 91 => ⟨S100000x32, .f32⟩
  | 92 => ⟨S100000x32, .f32⟩
  | 93 => ⟨S100000x32, .f32⟩
  | 94 => ⟨S100000x21, .f32⟩
  | 95 => ⟨S1x21, .f32⟩
  | 96 => ⟨S100000x21, .f32⟩
  | 97 => ⟨S100000x21, .f32⟩
  | 98 => ⟨S_, .f32⟩
  | 99 => ⟨S_, .f32⟩
  | 100 => ⟨S100000x21, .f32⟩
  | 101 => ⟨S100000x21, .i1⟩
  | 102 => ⟨S_, .f32⟩
  | 103 => ⟨S100000x21, .f32⟩
  | 104 => ⟨S100000x21, .f32⟩
  | 105 => ⟨S100000x21, .f32⟩
  | 106 => ⟨S100000x1, .f32⟩
  | 107 => ⟨S100000x1, .f32⟩
  | 108 => ⟨S100000x1, .f32⟩
  | 109 => ⟨S_, .f32⟩
  | 110 => ⟨S100000x1, .f32⟩
  | 111 => ⟨S100000x1, .f32⟩
  | 112 => ⟨S_, .f32⟩
  | 113 => ⟨S100000x1, .f32⟩
  | 114 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c : Ref sig .tc := ⟨.hbm, 20, rfl⟩
abbrev main_v6 : Ref sig .tc := ⟨.hbm, 21, rfl⟩
abbrev main_v7 : Ref sig .tc := ⟨.hbm, 22, rfl⟩
abbrev main_c_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_2 : Ref sig .tc := ⟨.hbm, 30, rfl⟩
abbrev main_v14 : Ref sig .tc := ⟨.hbm, 31, rfl⟩
abbrev main_v15 : Ref sig .tc := ⟨.hbm, 32, rfl⟩
abbrev main_c_3 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_6 : Ref sig .tc := ⟨.hbm, 49, rfl⟩
abbrev main_v29 : Ref sig .tc := ⟨.hbm, 50, rfl⟩
abbrev main_v30 : Ref sig .tc := ⟨.hbm, 51, rfl⟩
abbrev main_c_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_8 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_c_9 : Ref sig .tc := ⟨.hbm, 65, rfl⟩
abbrev main_v42 : Ref sig .tc := ⟨.hbm, 66, rfl⟩
abbrev main_v43 : Ref sig .tc := ⟨.hbm, 67, rfl⟩
abbrev main_c_10 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_11 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_12 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_c_13 : Ref sig .tc := ⟨.hbm, 82, rfl⟩
abbrev main_v55 : Ref sig .tc := ⟨.hbm, 83, rfl⟩
abbrev main_v56 : Ref sig .tc := ⟨.hbm, 84, rfl⟩
abbrev main_c_14 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_c_15 : Ref sig .tc := ⟨.hbm, 92, rfl⟩
abbrev main_v63 : Ref sig .tc := ⟨.hbm, 93, rfl⟩
abbrev main_v64 : Ref sig .tc := ⟨.hbm, 94, rfl⟩
abbrev main_c_16 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_c_17 : Ref sig .tc := ⟨.hbm, 102, rfl⟩
abbrev main_v71 : Ref sig .tc := ⟨.hbm, 103, rfl⟩
abbrev main_v72 : Ref sig .tc := ⟨.hbm, 104, rfl⟩
abbrev main_c_18 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_c_19 : Ref sig .tc := ⟨.hbm, 111, rfl⟩
abbrev main_v78 : Ref sig .tc := ⟨.hbm, 112, rfl⟩
abbrev main_v79 : Ref sig .tc := ⟨.hbm, 113, rfl⟩
abbrev main_c_20 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_21 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_c_22 : Ref sig .tc := ⟨.hbm, 127, rfl⟩
abbrev main_v91 : Ref sig .tc := ⟨.hbm, 128, rfl⟩
abbrev main_v92 : Ref sig .tc := ⟨.hbm, 129, rfl⟩
abbrev main_c_23 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_cst_24 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_cst_25 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_c_26 : Ref sig .tc := ⟨.hbm, 144, rfl⟩
abbrev main_v104 : Ref sig .tc := ⟨.hbm, 145, rfl⟩
abbrev main_v105 : Ref sig .tc := ⟨.hbm, 146, rfl⟩
abbrev main_c_27 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_c_28 : Ref sig .tc := ⟨.hbm, 154, rfl⟩
abbrev main_v112 : Ref sig .tc := ⟨.hbm, 155, rfl⟩
abbrev main_v113 : Ref sig .tc := ⟨.hbm, 156, rfl⟩
abbrev main_c_29 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_c_30 : Ref sig .tc := ⟨.hbm, 164, rfl⟩
abbrev main_v120 : Ref sig .tc := ⟨.hbm, 165, rfl⟩
abbrev main_v121 : Ref sig .tc := ⟨.hbm, 166, rfl⟩
abbrev main_c_31 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_c_32 : Ref sig .tc := ⟨.hbm, 173, rfl⟩
abbrev main_v127 : Ref sig .tc := ⟨.hbm, 174, rfl⟩
abbrev main_v128 : Ref sig .tc := ⟨.hbm, 175, rfl⟩
abbrev main_c_33 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_cst_34 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_c_35 : Ref sig .tc := ⟨.hbm, 189, rfl⟩
abbrev main_v140 : Ref sig .tc := ⟨.hbm, 190, rfl⟩
abbrev main_v141 : Ref sig .tc := ⟨.hbm, 191, rfl⟩
abbrev main_c_36 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_cst_37 : Ref sig .tc := ⟨.hbm, 202, rfl⟩
abbrev main_call0_cst : Ref sig .tc := ⟨.hbm, 203, rfl⟩
abbrev main_call0_v0 : Ref sig .tc := ⟨.hbm, 204, rfl⟩
abbrev main_call0_v1 : Ref sig .tc := ⟨.hbm, 205, rfl⟩
abbrev main_call0_v2 : Ref sig .tc := ⟨.hbm, 206, rfl⟩
abbrev main_call0_v3 : Ref sig .tc := ⟨.hbm, 207, rfl⟩
abbrev main_call0_v4 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_cst_38 : Ref sig .tc := ⟨.hbm, 214, rfl⟩
abbrev main_call1_cst : Ref sig .tc := ⟨.hbm, 215, rfl⟩
abbrev main_call1_v0 : Ref sig .tc := ⟨.hbm, 216, rfl⟩
abbrev main_call1_v1 : Ref sig .tc := ⟨.hbm, 217, rfl⟩
abbrev main_call1_v2 : Ref sig .tc := ⟨.hbm, 218, rfl⟩
abbrev main_call1_v3 : Ref sig .tc := ⟨.hbm, 219, rfl⟩
abbrev main_call1_v4 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩
abbrev main_v159 : Ref sig .tc := ⟨.hbm, 224, rfl⟩
abbrev main_v160 : Ref sig .tc := ⟨.hbm, 225, rfl⟩
abbrev main_cst_39 : Ref sig .tc := ⟨.hbm, 226, rfl⟩
abbrev main_call2_cst : Ref sig .tc := ⟨.hbm, 227, rfl⟩
abbrev main_call2_v0 : Ref sig .tc := ⟨.hbm, 228, rfl⟩
abbrev main_call2_v1 : Ref sig .tc := ⟨.hbm, 229, rfl⟩
abbrev main_call2_v2 : Ref sig .tc := ⟨.hbm, 230, rfl⟩
abbrev main_call2_v3 : Ref sig .tc := ⟨.hbm, 231, rfl⟩
abbrev main_call2_v4 : Ref sig .tc := ⟨.hbm, 232, rfl⟩
abbrev main_v161 : Ref sig .tc := ⟨.hbm, 233, rfl⟩
abbrev main_v162 : Ref sig .tc := ⟨.hbm, 234, rfl⟩
abbrev main_v163 : Ref sig .tc := ⟨.hbm, 235, rfl⟩
abbrev main_v164 : Ref sig .tc := ⟨.hbm, 236, rfl⟩
abbrev main_cst_40 : Ref sig .tc := ⟨.hbm, 237, rfl⟩
abbrev main_v165 : Ref sig .tc := ⟨.hbm, 238, rfl⟩
abbrev main_v166 : Ref sig .tc := ⟨.hbm, 239, rfl⟩
abbrev main_cst_41 : Ref sig .tc := ⟨.hbm, 240, rfl⟩
abbrev main_v167 : Ref sig .tc := ⟨.hbm, 241, rfl⟩
abbrev main_v168 : Ref sig .tc := ⟨.hbm, 242, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S600000_S600000x1_0 : S600000.BroadcastsInDim S600000x1 (![0] : Fin 1 → Fin S600000x1.rank)
  bcast_S_S600000 : S_.BroadcastsInDim S600000 (![] : Fin 0 → Fin S600000.rank)
  bcast_S50000_S50000x1_0 : S50000.BroadcastsInDim S50000x1 (![0] : Fin 1 → Fin S50000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S21_S1x21_1 : S21.BroadcastsInDim S1x21 (![1] : Fin 1 → Fin S1x21.rank)
  bcast_S1x21_S100000x21_0_1 : S1x21.BroadcastsInDim S100000x21 (![0, 1] : Fin 2 → Fin S100000x21.rank)
  bcast_S_S100000x21 : S_.BroadcastsInDim S100000x21 (![] : Fin 0 → Fin S100000x21.rank)
  bcast_S_S100000x1 : S_.BroadcastsInDim S100000x1 (![] : Fin 0 → Fin S100000x1.rank)
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  gather_S100000x128_S50000x1_S50000x128_1_0_n_n_0_1_1128_wf : GatherDims.WF S100000x128 S50000x1 S50000x128 [1] [0] [] [0] [] 1 ![1, 128]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S100000x128_S50000x1_S50000x128_1_0_0_1_wf : ScatterDims.WF S100000x128 S50000x1 S50000x128 [1] [0] [0] 1
  dot_S100000x128_S128x64_S100000x64_1_0_0_1_n_n_wf : DotDims.WF S100000x128 S128x64 S100000x64 [1] [0] [0] [1] [] []
  dot_S100000x64_S64x32_S100000x32_1_0_0_1_n_n_wf : DotDims.WF S100000x64 S64x32 S100000x32 [1] [0] [0] [1] [] []
  dot_S100000x32_S32x21_S100000x21_1_0_0_1_n_n_wf : DotDims.WF S100000x32 S32x21 S100000x21 [1] [0] [0] [1] [] []
  dot_S100000x21_S21x1_S100000x1_1_0_0_1_n_n_wf : DotDims.WF S100000x21 S21x1 S100000x1 [1] [0] [0] [1] [] []

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def gather_S100000x128_S50000x1_S50000x128_1_0_n_n_0_1_1128 : GatherDims S100000x128 S50000x1 S50000x128 where
  offsetDims := [1]
  collapsedSliceDims := [0]
  operandBatchingDims := []
  startIndicesBatchingDims := []
  startIndexMap := [0]
  indexVectorDim := 1
  sliceSizes := ![1, 128]
  wf := gather_S100000x128_S50000x1_S50000x128_1_0_n_n_0_1_1128_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S100000x128_S50000x1_S50000x128_1_0_0_1 : ScatterDims S100000x128 S50000x1 S50000x128 where
  updateWindowDims := [1]
  insertedWindowDims := [0]
  scatterDimsToOperandDims := [0]
  indexVectorDim := 1
  wf := scatter_S100000x128_S50000x1_S50000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x21_S100000x21_1_0_0_1_n_n : DotDims S100000x32 S32x21 S100000x21 where
  lhsContracting := [1]
  rhsContracting := [0]
  lhsNonContracting := [0]
  rhsNonContracting := [1]
  lhsBatch := []
  rhsBatch := []
  wf := dot_S100000x32_S32x21_S100000x21_1_0_0_1_n_n_wf
def dot_S100000x21_S21x1_S100000x1_1_0_0_1_n_n : DotDims S100000x21 S21x1 S100000x1 where
  lhsContracting := [1]
  rhsContracting := [0]
  lhsNonContracting := [0]
  rhsNonContracting := [1]
  lhsBatch := []
  rhsBatch := []
  wf := dot_S100000x21_S21x1_S100000x1_1_0_0_1_n_n_wf

class Facts : Prop extends Facts₀ where

variable [Facts]
-- ==== Proof.LibPlainDot.lean ====
/-
  A rows-by-columns contraction read as a plain sum.

  Take operands of shapes [A, K] and [K, B] and a result of shape [A, B], with dimension numbers that say: no batch
  axes; the left operand keeps its axis 0 and the right its axis 1; axis 1 of the left is contracted against axis 0 of
  the right. The contraction's own index set is then a one-axis shape of extent K, and the sum over it of
  `x (left index) * y (right index)` at the result index (p, q) is `∑ k < K, x (p, k) * y (k, q)`: on its kept axis
  each operand reads the result's coordinate, on its contracted axis the contraction's one coordinate.

  Stated for ANY record with these dimension numbers and for any A, K, B, so the same lemma reads a matrix product
  of one block and a `dot_general` of a whole array. The extended reals enter only as the type the products are
  taken in: nothing here uses more than the sum's re-indexing along a bijection.
-/
import Idealize.ShloMosaic.Lib.ValueIdx
import Idealize.ShloMosaic.PureOps.Ideal.Laws

open scoped BigOperators

namespace Cert.PlainDot

open Idealize.ShloMosaic Idealize.ShloMosaic.ValueIdx

variable {A K B : Nat} (d : DotDims ⟨2, ![A, K]⟩ ⟨2, ![K, B]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate: with no batch axis, the
    left operand's one kept axis is the result's axis 0. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 1) the right operand's index is the result's column coordinate: the result's axes are
    the batch axes (none), then the left's kept axes (one), then the right's kept axes, so this one is axis 1. -/
theorem rhs_col (hlb : d.lhsBatch = []) (hln : d.lhsNonContracting = [0]) (hrb : d.rhsBatch = [])
    (hrn : d.rhsNonContracting = [1]) (j : (⟨2, ![A, B]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row `p` of the left and column `q` of the right. -/
theorem sum_eq (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : (⟨2, ![A, K]⟩ : Shape).Idx → EReal) (y : (⟨2, ![K, B]⟩ : Shape).Idx → EReal) (p : Fin A) (q : Fin B) :
    ∑ k : d.contr.Idx, x (d.lhsIdx (ix2 p q) k) * y (d.rhsIdx (ix2 p q) k) = ∑ k : Fin K, x (ix2 p k) * y (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact rhs_col d hlb hln hrb hrn _ _)
  rw [el, er]

end Cert.PlainDot
-- ==== Proof.LibDotSums.lean ====
/-
  Matrix products at the exact values, read entry by entry.

  For operands of shapes [A, K] and [K, B] whose dimension numbers say "no batch axes, contract axis 1 of the left
  against axis 0 of the right", both the in-kernel product accumulated into a zero tile and the host's `dot_general`
  have, at the entry (p, q), the value `∑ k < K, x (p, k) * y (k, q)`: over the extended reals neither carries a rounding
  or an order of summation, so the two are the same finite sum. The re-indexing of the contraction's own index set to
  `Fin K` is the rows-by-columns lemma for such records.
-/
import proofs.«106774_j69793218560048_1_alg».proof.Proof.LibPlainDot

open scoped BigOperators

namespace Cert.DotSums

open Idealize.ShloMosaic Idealize.ShloMosaic.ValueIdx

variable {A K B : Nat} (d : DotDims ⟨2, ![A, K]⟩ ⟨2, ![K, B]⟩ ⟨2, ![A, B]⟩)

/-- The in-kernel product into a zero accumulator, at (p, q): the plain sum along row p and column q. -/
theorem matmul_zero_ix2 {φ₁ φ₂ : FTy} (prec : Option ContractPrecision)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : FVec Ideal ⟨2, ![A, K]⟩ φ₁) (y : FVec Ideal ⟨2, ![K, B]⟩ φ₂) (p : Fin A) (q : Fin B) :
    FloatOps.matmul d prec x y (constant ⟨2, ![A, B]⟩ .f32 0x00000000#32) (ix2 p q)
      = ∑ k : Fin K, (x (ix2 p k) : EReal) * (y (ix2 k q) : EReal) :=
  (Ideal.matmul_constant_zero_apply d prec x y (ix2 p q)).trans
    (Cert.PlainDot.sum_eq d hlb hln hlc hrb hrn hrc hr hs x y p q)

/-- The host's `dot_general`, at (p, q): the same plain sum, whatever the schedule key. -/
theorem dotGeneral_ix2 {φ₁ φ₂ : FTy} (prec : Option ContractPrecision) (sched : HostSchedule)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : FVec Ideal ⟨2, ![A, K]⟩ φ₁) (y : FVec Ideal ⟨2, ![K, B]⟩ φ₂) (p : Fin A) (q : Fin B) :
    FloatOps.dotGeneral d prec sched x y (ix2 p q)
      = ∑ k : Fin K, (x (ix2 p k) : EReal) * (y (ix2 k q) : EReal) :=
  (Ideal.dotGeneral_apply d prec sched x y (ix2 p q)).trans
    (Cert.PlainDot.sum_eq d hlb hln hlc hrb hrn hrc hr hs x y p q)

end Cert.DotSums
-- ==== Proof.LibBiasRow.lean ====
/-
  A bias vector as a row, read at an index: a vector `[b]` placed as the one row of `[1, b]` reads its entry of the
  column; a row `[1, b]` repeated down `a` rows reads, at `(p, q)`, its entry `q`. (A `broadcast_in_dim` reads the
  operand's unit axes at coordinate zero and its other axes at the result's coordinate on the axis they are sent to.)
-/
import Idealize.ShloMosaic.Lib.ValueIdx
import Idealize.ShloMosaic.Lib.Pipeline.Value

noncomputable section

namespace Cert.BiasRow

open Idealize.ShloMosaic Idealize.ShloMosaic.ValueIdx

variable {α : Type}

/-- A vector `[b]` placed as the row of `[1, b]` reads, at `(u, q)`, its entry `q`. -/
theorem row_apply {b : ℕ} (x : (⟨1, ![b]⟩ : Shape).Idx → α) (h : (⟨1, ![b]⟩ : Shape).BroadcastsInDim ⟨2, ![1, b]⟩ ![1])
    (u : Fin 1) (q : Fin b) : broadcastInDim ⟨2, ![1, b]⟩ ![1] h x (ix2 u q) = x (ix1 q) := by
  refine broadcastInDim_apply ![1] h x (ix2 u q) (ix1 q) fun ax => ?_
  match ax with
  | ⟨0, _⟩ =>
    show q.val = if b = 1 then 0 else q.val
    split
    · have := q.isLt; omega
    · rfl

/-- A row `[1, b]` repeated down `a` rows reads, at `(p, q)`, the row's entry `q`. -/
theorem down_apply {a b : ℕ} (x : (⟨2, ![1, b]⟩ : Shape).Idx → α) (h : (⟨2, ![1, b]⟩ : Shape).BroadcastsInDim ⟨2, ![a, b]⟩ ![0, 1])
    (p : Fin a) (q : Fin b) : broadcastInDim ⟨2, ![a, b]⟩ ![0, 1] h x (ix2 p q) = x (ix2 (0 : Fin 1) q) := by
  refine broadcastInDim_apply ![0, 1] h x (ix2 p q) (ix2 (0 : Fin 1) q) fun ax => ?_
  match ax with
  | ⟨0, _⟩ =>
    show (0 : ℕ) = if (1 : ℕ) = 1 then 0 else p.val
    rw [if_pos rfl]
  | ⟨1, _⟩ =>
    show q.val = if b = 1 then 0 else q.val
    split
    · have := q.isLt; omega
    · rfl

end Cert.BiasRow

end
-- ==== Proof.LibDenseLayer.lean ====
/-
  A dense layer read entry by entry at the exact values, in the form a kernel tile computes it and in the form a host
  program computes it.

  Over the extended reals a float is an exact number and a change of float format is the identity, so:

    an affine layer   x · W + b   has, at row p and column q, the value  (∑ k, x (p, k) · W (k, q)) + b q,  whether the
      product is a matrix unit's product into a zero accumulator with the bias vector recast as a one-row matrix and
      repeated down the rows, or the host's general product with the bias placed by two broadcasts;

    a leaky rectifier   z ↦ if z ≥ 0 then z else slope · z   is decided entry by entry by the ordered comparison
      against the zero word, whether the zero and the slope are splat scalars (a tile) or rank-0 arrays broadcast over the
      shape (the host, where the slope arrives through a conversion to its own type, the identity);

    the logistic   z ↦ 1 / (1 + exp (−z))   is one function whether it is one operation (a tile) or the host's
      negate, exponential, add-one, divide-into-one spelt out, the word of 1 being the number 1.

  Every statement is for any shape extents, any dimension record with the rows-by-columns numbers, any operand formats.
-/
import proofs.«106774_j69793218560048_1_alg».proof.Proof.LibDotSums
import proofs.«106774_j69793218560048_1_alg».proof.Proof.LibBiasRow
import Idealize.ShloMosaic.Lib.ValueLayout

open scoped BigOperators

noncomputable section

namespace Cert.DenseLayer

open Idealize.ShloMosaic Idealize.ShloMosaic.ValueIdx

/-- Entry `q` of one row `h` sent through an affine layer: the row against column `q` of the weights, plus the
    bias's entry `q`. -/
def affine {K B : ℕ} (h : Fin K → EReal) (W : Fin K → Fin B → EReal) (b : Fin B → EReal) (q : Fin B) : EReal :=
  (∑ k : Fin K, h k * W k q) + b q

/-- The leaky rectifier with the slope of word `sl`: `z` where the ordered comparison `z ≥ 0` holds, the slope times
    `z` elsewhere. -/
def leaky (sl : BitVec 32) (z : EReal) : EReal :=
  Scalar.select (FloatOps.cmpf (F := Ideal) (φ := .f32) .oge z (Ideal.ofBits .f32 0x00000000#32)) z
    (Ideal.ofBits .f32 sl * z)

/-- The f32 word of one is the number one. -/
theorem one_word : Ideal.ofBits .f32 0x3F800000#32 = 1 := by
  simp [Ideal.ofBits, Ideal.ieee, -EReal.coe_mul]; norm_num

/-- A rank-0 array broadcast over any shape reads its one entry everywhere. (The map from the operand's axes to the
    result's has no axis to send; it is kept a variable so that any spelling of the empty map is matched.) -/
theorem scalar_apply {α : Type} {t : Shape} (dims : Fin (⟨0, ![]⟩ : Shape).rank → Fin t.rank)
    (x : (⟨0, ![]⟩ : Shape).Idx → α) (h : (⟨0, ![]⟩ : Shape).BroadcastsInDim t dims) (j : t.Idx) :
    broadcastInDim t dims h x j = x ix0 :=
  broadcastInDim_apply dims h x j ix0 (fun a => a.elim0)

section Affine

variable {A K B : ℕ} {φ₁ φ₂ : FTy} (d : DotDims ⟨2, ![A, K]⟩ ⟨2, ![K, B]⟩ ⟨2, ![A, B]⟩)
  (hlb : d.lhsBatch = []) (hln : d.lhsNonContracting = [0]) (hlc : d.lhsContracting = [1])
  (hrb : d.rhsBatch = []) (hrn : d.rhsNonContracting = [1]) (hrc : d.rhsContracting = [0])
  (hr : d.contr.rank = 1) (hs : d.contr.size ⟨0, by omega⟩ = K) (prec : Option ContractPrecision)
  (x : FVec Ideal ⟨2, ![A, K]⟩ φ₁) (w : FVec Ideal ⟨2, ![K, B]⟩ φ₂) (c : FVec Ideal ⟨1, ![B]⟩ .f32)

include hlb hln hlc hrb hrn hrc hr hs

/-- The tile form: the matrix unit's product into the zero tile, plus the bias recast `[B] → [1, B]` and repeated
    down the rows. -/
theorem tile_affine_apply (h1 : (⟨1, ![B]⟩ : Shape).ShapeCasts ⟨2, ![1, B]⟩)
    (h2 : (⟨2, ![1, B]⟩ : Shape).Broadcasts ⟨2, ![A, B]⟩) (p : Fin A) (q : Fin B) :
    addf (matmul d prec x w (constant ⟨2, ![A, B]⟩ .f32 0x00000000#32))
        (broadcastTo ⟨2, ![A, B]⟩ (shapeCast ⟨2, ![1, B]⟩ c h1) h2) (ix2 p q)
      = affine (fun k => x (ix2 p k)) (fun k q => w (ix2 k q)) (fun q => c (ix1 q)) q := by
  show FloatOps.matmul d prec x w (constant ⟨2, ![A, B]⟩ .f32 0x00000000#32) (ix2 p q)
      + broadcastTo ⟨2, ![A, B]⟩ (shapeCast ⟨2, ![1, B]⟩ c h1) h2 (ix2 p q) = _
  rw [Cert.DotSums.matmul_zero_ix2 d prec hlb hln hlc hrb hrn hrc hr hs x w p q, broadcastTo_1b_ab_apply,
    shapeCast_a_1a_apply]
  rfl

/-- The host form: the general product, plus the bias placed as the row of `[1, B]` and repeated down the rows by two
    broadcasts. -/
theorem host_affine_apply (h1 : (⟨1, ![B]⟩ : Shape).BroadcastsInDim ⟨2, ![1, B]⟩ ![1])
    (h2 : (⟨2, ![1, B]⟩ : Shape).BroadcastsInDim ⟨2, ![A, B]⟩ ![0, 1]) (p : Fin A) (q : Fin B) :
    addf (Host.dotGeneral d prec x w)
        (broadcastInDim ⟨2, ![A, B]⟩ ![0, 1] h2 (broadcastInDim ⟨2, ![1, B]⟩ ![1] h1 c)) (ix2 p q)
      = affine (fun k => x (ix2 p k)) (fun k q => w (ix2 k q)) (fun q => c (ix1 q)) q := by
  show FloatOps.dotGeneral d prec .single x w (ix2 p q)
      + broadcastInDim ⟨2, ![A, B]⟩ ![0, 1] h2 (broadcastInDim ⟨2, ![1, B]⟩ ![1] h1 c) (ix2 p q) = _
  rw [Cert.DotSums.dotGeneral_ix2 d prec .single hlb hln hlc hrb hrn hrc hr hs x w p q, Cert.BiasRow.down_apply,
    Cert.BiasRow.row_apply]
  rfl

/-- The last layer of a tile, with no bias: the matrix unit's product into the zero tile is the plain sum. -/
theorem tile_product_apply (p : Fin A) (q : Fin B) :
    matmul d prec x w (constant ⟨2, ![A, B]⟩ .f32 0x00000000#32) (ix2 p q) = ∑ k : Fin K, x (ix2 p k) * w (ix2 k q) :=
  Cert.DotSums.matmul_zero_ix2 d prec hlb hln hlc hrb hrn hrc hr hs x w p q

/-- The host's product with no bias likewise. -/
theorem host_product_apply (p : Fin A) (q : Fin B) :
    Host.dotGeneral d prec x w (ix2 p q) = ∑ k : Fin K, x (ix2 p k) * w (ix2 k q) :=
  Cert.DotSums.dotGeneral_ix2 d prec .single hlb hln hlc hrb hrn hrc hr hs x w p q

end Affine

/-- The tile form of the leaky rectifier: the zero and the slope are scalars splat over the tile. -/
theorem tile_leaky_apply {t : Shape} (sl : BitVec 32) (v : FVec Ideal t .f32) (j : t.Idx) :
    select (cmpf .oge v (broadcast t (Scalar.ofBits (F := Ideal) .f32 0x00000000#32))) v
      (mulf (broadcast t (Scalar.ofBits (F := Ideal) .f32 sl)) v) j = leaky sl (v j) := rfl

/-- The host form of the leaky rectifier: the zero and the slope are rank-0 arrays broadcast over the shape, the slope
    first converted to its own type. -/
theorem host_leaky_apply {t : Shape} (sl : BitVec 32) (v : FVec Ideal t .f32)
    (dims : Fin (⟨0, ![]⟩ : Shape).rank → Fin t.rank) (h0 : (⟨0, ![]⟩ : Shape).BroadcastsInDim t dims) (j : t.Idx) :
    select (cmpf .oge v (broadcastInDim t dims h0 (constant (F := Ideal) ⟨0, ![]⟩ .f32 0x00000000#32))) v
      (mulf (broadcastInDim t dims h0 (id (constant (F := Ideal) ⟨0, ![]⟩ .f32 sl))) v) j = leaky sl (v j) := by
  show Scalar.select (FloatOps.cmpf (F := Ideal) (φ := .f32) .oge (v j)
      (broadcastInDim t dims h0 (constant (F := Ideal) ⟨0, ![]⟩ .f32 0x00000000#32) j)) (v j)
      (broadcastInDim t dims h0 (id (constant (F := Ideal) ⟨0, ![]⟩ .f32 sl)) j * v j) = _
  rw [scalar_apply, scalar_apply]
  rfl

/-- The tile's logistic is the logistic of the entry. -/
theorem tile_logistic_apply {t : Shape} (v : FVec Ideal t .f32) (j : t.Idx) :
    logistic v j = Ideal.logistic (v j) := rfl

/-- The host's logistic spelt out, `1 / (1 + exp (−z))` with both ones rank-0 arrays broadcast over the shape, is the
    logistic of the entry. -/
theorem host_logistic_apply {t : Shape} (v : FVec Ideal t .f32) (dims : Fin (⟨0, ![]⟩ : Shape).rank → Fin t.rank)
    (h0 : (⟨0, ![]⟩ : Shape).BroadcastsInDim t dims) (j : t.Idx) :
    Host.divf (broadcastInDim t dims h0 (constant (F := Ideal) ⟨0, ![]⟩ .f32 0x3F800000#32))
      (addf (broadcastInDim t dims h0 (constant (F := Ideal) ⟨0, ![]⟩ .f32 0x3F800000#32)) (Host.exp (Host.negf v))) j
      = Ideal.logistic (v j) := by
  show Ideal.div (broadcastInDim t dims h0 (constant (F := Ideal) ⟨0, ![]⟩ .f32 0x3F800000#32) j)
      (broadcastInDim t dims h0 (constant (F := Ideal) ⟨0, ![]⟩ .f32 0x3F800000#32) j + Ideal.exp (-(v j))) = _
  rw [scalar_apply]
  show Ideal.div (Ideal.ofBits .f32 0x3F800000#32) (Ideal.ofBits .f32 0x3F800000#32 + Ideal.exp (-(v j))) = _
  rw [one_word]
  rfl

end Cert.DenseLayer

end
-- ==== Proof.HeadSpec.lean ====
/-
  The dense prediction head as one function of the node-feature array and the weights, entry by entry.

  A row `x` of 128 features goes through three affine layers, 128 → 64 → 32 → 21, each followed by the leaky rectifier
  of slope 0.01 (the f32 nearest to it, the same word in both programs), then through a last product with a 21 × 1 matrix
  and the logistic:

      out = σ( ℓ(ℓ(ℓ(x · W1 + b1) · W2 + b2) · W3 + b3) · W4 ),   ℓ the leaky rectifier, σ the logistic.

  Row `r` of the result depends on row `r` of the feature array alone, so the function is stated for a feature array of
  any number of rows: a block of rows of the array goes to the same rows of the result.
-/
import proofs.«106774_j69793218560048_1_alg».proof.Proof.LibDenseLayer

open scoped BigOperators

noncomputable section

namespace Cert.Head

open Idealize.ShloMosaic Idealize.ShloMosaic.ValueIdx Cert.DenseLayer

/-- The rectifier's slope: the f32 word of 0.01. -/
abbrev slope : BitVec 32 := 0x3C23D70A#32

/-- One row of features through the head. -/
def rowOut (x : Fin 128 → EReal) (W1 : Fin 128 → Fin 64 → EReal) (b1 : Fin 64 → EReal) (W2 : Fin 64 → Fin 32 → EReal)
    (b2 : Fin 32 → EReal) (W3 : Fin 32 → Fin 21 → EReal) (b3 : Fin 21 → EReal) (W4 : Fin 21 → Fin 1 → EReal) : EReal :=
  Ideal.logistic (∑ k : Fin 21,
    leaky slope (affine (fun j => leaky slope (affine (fun i => leaky slope (affine x W1 b1 i)) W2 b2 j)) W3 b3 k) * W4 k 0)

/-- Row `r` of an `[N, 128]` feature array through the head, the weights given as arrays. -/
def head {N : ℕ} (X : (⟨2, ![N, 128]⟩ : Shape).Idx → EReal) (W1 : (⟨2, ![128, 64]⟩ : Shape).Idx → EReal)
    (b1 : (⟨1, ![64]⟩ : Shape).Idx → EReal) (W2 : (⟨2, ![64, 32]⟩ : Shape).Idx → EReal)
    (b2 : (⟨1, ![32]⟩ : Shape).Idx → EReal) (W3 : (⟨2, ![32, 21]⟩ : Shape).Idx → EReal)
    (b3 : (⟨1, ![21]⟩ : Shape).Idx → EReal) (W4 : (⟨2, ![21, 1]⟩ : Shape).Idx → EReal) (r : Fin N) : EReal :=
  rowOut (fun k => X (ix2 r k)) (fun k q => W1 (ix2 k q)) (fun q => b1 (ix1 q)) (fun k q => W2 (ix2 k q))
    (fun q => b2 (ix1 q)) (fun k q => W3 (ix2 k q)) (fun q => b3 (ix1 q)) (fun k q => W4 (ix2 k q))

/-- The head reads one row of the features: two arrays that agree on a row give the same entry. -/
theorem head_congr {N N' : ℕ} (X : (⟨2, ![N, 128]⟩ : Shape).Idx → EReal) (X' : (⟨2, ![N', 128]⟩ : Shape).Idx → EReal)
    (W1 : (⟨2, ![128, 64]⟩ : Shape).Idx → EReal) (b1 : (⟨1, ![64]⟩ : Shape).Idx → EReal)
    (W2 : (⟨2, ![64, 32]⟩ : Shape).Idx → EReal) (b2 : (⟨1, ![32]⟩ : Shape).Idx → EReal)
    (W3 : (⟨2, ![32, 21]⟩ : Shape).Idx → EReal) (b3 : (⟨1, ![21]⟩ : Shape).Idx → EReal)
    (W4 : (⟨2, ![21, 1]⟩ : Shape).Idx → EReal) (r : Fin N) (r' : Fin N')
    (h : ∀ k : Fin 128, X (ix2 r k) = X' (ix2 r' k)) :
    head X W1 b1 W2 b2 W3 b3 W4 r = head X' W1 b1 W2 b2 W3 b3 W4 r' := by
  unfold head
  rw [funext h]

/-- The whole `[N, 1]` result array: entry `(r, 0)` is row `r` through the head. -/
def headArr {N : ℕ} (X : (⟨2, ![N, 128]⟩ : Shape).Idx → EReal) (W1 : (⟨2, ![128, 64]⟩ : Shape).Idx → EReal)
    (b1 : (⟨1, ![64]⟩ : Shape).Idx → EReal) (W2 : (⟨2, ![64, 32]⟩ : Shape).Idx → EReal)
    (b2 : (⟨1, ![32]⟩ : Shape).Idx → EReal) (W3 : (⟨2, ![32, 21]⟩ : Shape).Idx → EReal)
    (b3 : (⟨1, ![21]⟩ : Shape).Idx → EReal) (W4 : (⟨2, ![21, 1]⟩ : Shape).Idx → EReal) :
    (⟨2, ![N, 1]⟩ : Shape).Idx → EReal :=
  fun i => head X W1 b1 W2 b2 W3 b3 W4 (i 0)

theorem headArr_apply {N : ℕ} (X : (⟨2, ![N, 128]⟩ : Shape).Idx → EReal) (W1 : (⟨2, ![128, 64]⟩ : Shape).Idx → EReal)
    (b1 : (⟨1, ![64]⟩ : Shape).Idx → EReal) (W2 : (⟨2, ![64, 32]⟩ : Shape).Idx → EReal)
    (b2 : (⟨1, ![32]⟩ : Shape).Idx → EReal) (W3 : (⟨2, ![32, 21]⟩ : Shape).Idx → EReal)
    (b3 : (⟨1, ![21]⟩ : Shape).Idx → EReal) (W4 : (⟨2, ![21, 1]⟩ : Shape).Idx → EReal) (r : Fin N) (u : Fin 1) :
    headArr X W1 b1 W2 b2 W3 b3 W4 (ix2 r u) = head X W1 b1 W2 b2 W3 b3 W4 r := rfl

end Cert.Head

end
-- ==== Proof.KernelHead.lean ====
/-
  What the kernel's body stores, entry by entry.

  At one grid point the body loads a block of 2000 rows of the node-feature array and the whole weights, and stores a
  2000 × 1 block: each format change the identity, each matrix product a plain sum (the accumulator is the zero tile),
  each bias a row repeated down the block, the rectifier and the logistic entry by entry. Row `p` of what it stores is
  therefore row `p` of the loaded block sent through the head.
-/
import proofs.«106774_j69793218560048_1_alg».proof.Proof.Gen.KernelIdeal.Skeleton
import proofs.«106774_j69793218560048_1_alg».proof.Proof.HeadSpec
import Idealize.ShloMosaic.Lib.Pipeline.Value

open scoped BigOperators

noncomputable section

namespace Cert.KernelIdeal.HeadValue

open Cert.KernelIdeal Cert.KernelIdeal.Gen Idealize.ShloMosaic Idealize.ShloMosaic.ValueIdx Cert.DenseLayer Cert.Head

variable (x0 : FVec Ideal S2000x128 .f32) (w1 : FVec Ideal S128x64 .f32) (c1 : FVec Ideal S64 .f32)
  (w2 : FVec Ideal S64x32 .f32) (c2 : FVec Ideal S32 .f32) (w3 : FVec Ideal S32x21 .f32) (c3 : FVec Ideal S21 .f32)
  (w4 : FVec Ideal S21x1 .f32)

/-- The third layer's output before its rectifier, at row `p` and column `q`: the block's row `p` through two
    rectified affine layers and a third affine layer. -/
theorem third_layer_apply (p : Fin 2000) (q : Fin 21) :
    k0_pay2 (F := Ideal) x0 w1 c1 w2 c2 w3 c3 (ix2 p q)
      = affine (fun j => leaky slope (affine (fun i => leaky slope
            (affine (fun k => x0 (ix2 p k)) (fun k q => w1 (ix2 k q)) (fun q => c1 (ix1 q)) i))
          (fun k q => w2 (ix2 k q)) (fun q => c2 (ix1 q)) j))
        (fun k q => w3 (ix2 k q)) (fun q => c3 (ix1 q)) q := by
  unfold k0_pay2
  simp only [tile_affine_apply dot_S2000x32_S32x21_S2000x21_1_0_0_1_n_n rfl rfl rfl rfl rfl rfl rfl rfl,
    tile_affine_apply dot_S2000x64_S64x32_S2000x32_1_0_0_1_n_n rfl rfl rfl rfl rfl rfl rfl rfl,
    tile_affine_apply dot_S2000x128_S128x64_S2000x64_1_0_0_1_n_n rfl rfl rfl rfl rfl rfl rfl rfl,
    tile_leaky_apply, truncf_apply, shapeCast_self]

/-- The stored block at `(p, u)`: row `p` of the loaded feature block through the head. -/
theorem stored_apply (p : Fin 2000) (u : Fin 1) :
    k0_pay1 (F := Ideal) (k0_pay2 (F := Ideal) x0 w1 c1 w2 c2 w3 c3) (k0_pay3 (F := Ideal) x0 w1 c1 w2 c2 w3 c3) (k0_pay4 (F := Ideal)) w4 (ix2 p u)
      = head x0 w1 c1 w2 c2 w3 c3 w4 p := by
  obtain rfl : u = 0 := Subsingleton.elim _ _
  unfold k0_pay1 k0_pay3 k0_pay4 head rowOut
  simp only [tile_logistic_apply, tile_product_apply dot_S2000x21_S21x1_S2000x1_1_0_0_1_n_n rfl rfl rfl rfl rfl rfl rfl rfl,
    tile_leaky_apply, truncf_apply, third_layer_apply]

/-- The same at any index of the stored block. -/
theorem stored_at (j : S2000x1.Idx) :
    k0_pay1 (F := Ideal) (k0_pay2 (F := Ideal) x0 w1 c1 w2 c2 w3 c3) (k0_pay3 (F := Ideal) x0 w1 c1 w2 c2 w3 c3) (k0_pay4 (F := Ideal)) w4 j
      = head x0 w1 c1 w2 c2 w3 c3 w4 (j 0) := by
  obtain ⟨p, u, rfl⟩ : ∃ (p : Fin 2000) (u : Fin 1), j = ix2 p u := ⟨j 0, j 1, eq_ix2 j⟩
  exact stored_apply x0 w1 c1 w2 c2 w3 c3 w4 p u

end Cert.KernelIdeal.HeadValue

end
-- ==== Proof.KernelBlocks.lean ====
/-
  The grid's bookkeeping for the kernel's result array, before any array is read.

  The grid has 50 points. The feature window and the result window move together, 2000 rows per point, and every
  weight window stays at block 0, so each weight block is the whole weight array. These facts are decided over the 50
  points; beside them, the arithmetic of block coordinates over plain naturals, and that the head sees its arrays only
  entry by entry.
-/
import proofs.«106774_j69793218560048_1_alg».proof.Proof.Gen.KernelIdeal.Value
import proofs.«106774_j69793218560048_1_alg».proof.Proof.KernelHead

noncomputable section

namespace Cert.KernelIdeal.ArrayValue

open Cert.KernelIdeal Cert.KernelIdeal.Gen Idealize.ShloMosaic Idealize.ShloMosaic.TcCoe Idealize.SL.Sem
open Idealize.ShloMosaic.ValueIdx Cert.Head
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl
theorem zeros1 : (![0] : Fin 1 → Nat) = fun _ => 0 := funext fun a => by fin_cases a; rfl

/-- The result array as one function: the head of the node-feature array as the region finds it (what the host
    operations before the region left) and of the weights as launched. -/
abbrev out (c : Dev nD) : S100000x1.Idx → EReal :=
  headArr (N := 100000) (V m c main_v146) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-! ## The blocks' arithmetic, over plain naturals -/

/-- At block index zero an element's coordinate in the array is its coordinate in the block. -/
theorem at_block_zero (i s v : ℕ) (h : i = 0) : i * s + 1 * v = v := by subst h; omega

/-- Two windows at the same block index put an element at the same coordinate. -/
theorem at_same_block (i i' s v : ℕ) (h : i = i') : i * s + 1 * v = i' * s + 1 * v := by subst h; rfl

/-- Row `r` lies in the block of 2000 rows whose index is `r / 2000`. -/
theorem row_in_block (q r : ℕ) (h : q = r / 2000) : q * 2000 ≤ r ∧ r < q * 2000 + 2000 := by subst h; omega

/-- The one column lies in column block 0. -/
theorem col_in_block (q v : ℕ) (h : q = 0) (hv : v < 1) : q * 1 ≤ v ∧ v < q * 1 + 1 := by subst h; omega

/-- The printed index maps, decided over the 50 points, window by window: the feature window moves with the result
    window along the rows and stays at column block 0; every weight window stays at block 0. -/
theorem idx_feature : ∀ t : Fin cfg0.N,
    win0_0.index t (0 : Fin 2) = win0_8.index t (0 : Fin 2) ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 1) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 1) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 1) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)

/-- Every row block of the result is some point's. -/
theorem idx_onto : ∀ q0 : Fin 50, ∃ t : Fin cfg0.N, win0_8.index t = ![q0.val, 0] :=
  (by decide +kernel : ∀ q0 : Fin 50, ∃ t : Fin grid0.N, win0_8.index t = ![q0.val, 0])

/-- The head depends on its arrays only through their entries: arrays that agree entry by entry (the features, on the
    one row read) give the same value. -/
theorem head_of_eq {N N' : ℕ} (X : (⟨2, ![N, 128]⟩ : Shape).Idx → EReal) (X' : (⟨2, ![N', 128]⟩ : Shape).Idx → EReal)
    (W1 W1' : (⟨2, ![128, 64]⟩ : Shape).Idx → EReal) (b1 b1' : (⟨1, ![64]⟩ : Shape).Idx → EReal)
    (W2 W2' : (⟨2, ![64, 32]⟩ : Shape).Idx → EReal) (b2 b2' : (⟨1, ![32]⟩ : Shape).Idx → EReal)
    (W3 W3' : (⟨2, ![32, 21]⟩ : Shape).Idx → EReal) (b3 b3' : (⟨1, ![21]⟩ : Shape).Idx → EReal)
    (W4 W4' : (⟨2, ![21, 1]⟩ : Shape).Idx → EReal) (r : Fin N) (r' : Fin N')
    (hX : ∀ k : Fin 128, X (ix2 r k) = X' (ix2 r' k)) (h1 : ∀ y, W1 y = W1' y) (h2 : ∀ y, b1 y = b1' y)
    (h3 : ∀ y, W2 y = W2' y) (h4 : ∀ y, b2 y = b2' y) (h5 : ∀ y, W3 y = W3' y) (h6 : ∀ y, b3 y = b3' y)
    (h7 : ∀ y, W4 y = W4' y) :
    head X W1 b1 W2 b2 W3 b3 W4 r = head X' W1' b1' W2' b2' W3' b3' W4' r' := by
  obtain rfl : W1 = W1' := funext h1
  obtain rfl : b1 = b1' := funext h2
  obtain rfl : W2 = W2' := funext h3
  obtain rfl : b2 = b2' := funext h4
  obtain rfl : W3 = W3' := funext h5
  obtain rfl : b3 = b3' := funext h6
  obtain rfl : W4 = W4' := funext h7
  exact head_congr X X' W1 b1 W2 b2 W3 b3 W4 r r' hX

end Cert.KernelIdeal.ArrayValue

end
-- ==== Proof.KernelWeightsA.lean ====
/-
  Weight windows 1 and 2 (first layer's matrix and bias): the index map sends every grid point to block 0 and the block is as large as the array, so an
  element's coordinate in the array is its coordinate in the block, and the block read back is the array as launched
  (no host operation before the region writes a weight).
-/
import proofs.«106774_j69793218560048_1_alg».proof.Proof.KernelBlocks

noncomputable section

namespace Cert.KernelIdeal.ArrayValue

open Cert.KernelIdeal Cert.KernelIdeal.Gen Idealize.ShloMosaic Idealize.ShloMosaic.TcCoe Idealize.SL.Sem
open Idealize.ShloMosaic.ValueIdx Cert.Head
open Idealize.ShloMosaic.Pipeline (Dat)

variable (m : (ℓ : Loc nD τ sig) → Buf (Elt Ideal) ℓ) (ρ : Dev nD → PrngReg)

/-- Window 1 stages the whole of its array at every point: its block read back is the array as launched. -/
theorem whole1 (c : Dev nD) (t : Fin cfg0.N) (y : S128x64.Idx) : iblk m c 1 t y = m ((c : Thread nD τ).loc main_arg5) y := by
  obtain ⟨e0, e1⟩ := idx1 t
  show V m c main_arg5 (((cfg0.win 1).blk t).view.emb y) = _
  have h : ((cfg0.win 1).blk t).view.emb y = y := by
    funext a; apply Fin.ext
    match a with
    | ⟨0, _⟩ => show win0_1.index t (0 : Fin 2) * 128 + 1 * (y 0).val = (y 0).val; exact at_block_zero _ _ _ e0
    | ⟨1, _⟩ => show win0_1.index t (1 : Fin 2) * 64 + 1 * (y 1).val = (y 1).val; exact at_block_zero _ _ _ e1
  rw [h]
  exact congrFun (V_main_arg5 m c) y

/-- Window 2 stages the whole of its array at every point: its block read back is the array as launched. -/
theorem whole2 (c : Dev nD) (t : Fin cfg0.N) (y : S64.Idx) : iblk m c 2 t y = m ((c : Thread nD τ).loc main_arg6) y := by
  have e0 := idx2 t
  show V m c main_arg6 (((cfg0.win 2).blk t).view.emb y) = _
  have h : ((cfg0.win 2).blk t).view.emb y = y := by
    funext a; apply Fin.ext
    match a with
    | ⟨0, _⟩ => show win0_2.index t (0 : Fin 1) * 64 + 1 * (y 0).val = (y 0).val; exact at_block_zero _ _ _ e0
  rw [h]
  exact congrFun (V_main_arg6 m c) y

end Cert.KernelIdeal.ArrayValue

end
-- ==== Proof.KernelWeightsB.lean ====
/-
  Weight windows 3 and 4 (second layer's matrix and bias): the index map sends every grid point to block 0 and the block is as large as the array, so an
  element's coordinate in the array is its coordinate in the block, and the block read back is the array as launched
  (no host operation before the region writes a weight).
-/
import proofs.«106774_j69793218560048_1_alg».proof.Proof.KernelBlocks

noncomputable section

namespace Cert.KernelIdeal.ArrayValue

open Cert.KernelIdeal Cert.KernelIdeal.Gen Idealize.ShloMosaic Idealize.ShloMosaic.TcCoe Idealize.SL.Sem
open Idealize.ShloMosaic.ValueIdx Cert.Head
open Idealize.ShloMosaic.Pipeline (Dat)

variable (m : (ℓ : Loc nD τ sig) → Buf (Elt Ideal) ℓ) (ρ : Dev nD → PrngReg)

/-- Window 3 stages the whole of its array at every point: its block read back is the array as launched. -/
theorem whole3 (c : Dev nD) (t : Fin cfg0.N) (y : S64x32.Idx) : iblk m c 3 t y = m ((c : Thread nD τ).loc main_arg7) y := by
  obtain ⟨e0, e1⟩ := idx3 t
  show V m c main_arg7 (((cfg0.win 3).blk t).view.emb y) = _
  have h : ((cfg0.win 3).blk t).view.emb y = y := by
    funext a; apply Fin.ext
    match a with
    | ⟨0, _⟩ => show win0_3.index t (0 : Fin 2) * 64 + 1 * (y 0).val = (y 0).val; exact at_block_zero _ _ _ e0
    | ⟨1, _⟩ => show win0_3.index t (1 : Fin 2) * 32 + 1 * (y 1).val = (y 1).val; exact at_block_zero _ _ _ e1
  rw [h]
  exact congrFun (V_main_arg7 m c) y

/-- Window 4 stages the whole of its array at every point: its block read back is the array as launched. -/
theorem whole4 (c : Dev nD) (t : Fin cfg0.N) (y : S32.Idx) : iblk m c 4 t y = m ((c : Thread nD τ).loc main_arg8) y := by
  have e0 := idx4 t
  show V m c main_arg8 (((cfg0.win 4).blk t).view.emb y) = _
  have h : ((cfg0.win 4).blk t).view.emb y = y := by
    funext a; apply Fin.ext
    match a with
    | ⟨0, _⟩ => show win0_4.index t (0 : Fin 1) * 32 + 1 * (y 0).val = (y 0).val; exact at_block_zero _ _ _ e0
  rw [h]
  exact congrFun (V_main_arg8 m c) y

end Cert.KernelIdeal.ArrayValue

end
-- ==== Proof.KernelWeightsC.lean ====
/-
  Weight windows 5 and 6 (third layer's matrix and bias): the index map sends every grid point to block 0 and the block is as large as the array, so an
  element's coordinate in the array is its coordinate in the block, and the block read back is the array as launched
  (no host operation before the region writes a weight).
-/
import proofs.«106774_j69793218560048_1_alg».proof.Proof.KernelBlocks

noncomputable section

namespace Cert.KernelIdeal.ArrayValue

open Cert.KernelIdeal Cert.KernelIdeal.Gen Idealize.ShloMosaic Idealize.ShloMosaic.TcCoe Idealize.SL.Sem
open Idealize.ShloMosaic.ValueIdx Cert.Head
open Idealize.ShloMosaic.Pipeline (Dat)

variable (m : (ℓ : Loc nD τ sig) → Buf (Elt Ideal) ℓ) (ρ : Dev nD → PrngReg)

/-- Window 5 stages the whole of its array at every point: its block read back is the array as launched. -/
theorem whole5 (c : Dev nD) (t : Fin cfg0.N) (y : S32x21.Idx) : iblk m c 5 t y = m ((c : Thread nD τ).loc main_arg9) y := by
  obtain ⟨e0, e1⟩ := idx5 t
  show V m c main_arg9 (((cfg0.win 5).blk t).view.emb y) = _
  have h : ((cfg0.win 5).blk t).view.emb y = y := by
    funext a; apply Fin.ext
    match a with
    | ⟨0, _⟩ => show win0_5.index t (0 : Fin 2) * 32 + 1 * (y 0).val = (y 0).val; exact at_block_zero _ _ _ e0
    | ⟨1, _⟩ => show win0_5.index t (1 : Fin 2) * 21 + 1 * (y 1).val = (y 1).val; exact at_block_zero _ _ _ e1
  rw [h]
  exact congrFun (V_main_arg9 m c) y

/-- Window 6 stages the whole of its array at every point: its block read back is the array as launched. -/
theorem whole6 (c : Dev nD) (t : Fin cfg0.N) (y : S21.Idx) : iblk m c 6 t y = m ((c : Thread nD τ).loc main_arg10) y := by
  have e0 := idx6 t
  show V m c main_arg10 (((cfg0.win 6).blk t).view.emb y) = _
  have h : ((cfg0.win 6).blk t).view.emb y = y := by
    funext a; apply Fin.ext
    match a with
    | ⟨0, _⟩ => show win0_6.index t (0 : Fin 1) * 21 + 1 * (y 0).val = (y 0).val; exact at_block_zero _ _ _ e0
  rw [h]
  exact congrFun (V_main_arg10 m c) y

end Cert.KernelIdeal.ArrayValue

end
-- ==== Proof.KernelWeightsD.lean ====
/-
  Weight window 7 (the last layer's column): the index map sends every grid point to block 0 and the block is as large as the array, so an
  element's coordinate in the array is its coordinate in the block, and the block read back is the array as launched
  (no host operation before the region writes a weight).
-/
import proofs.«106774_j69793218560048_1_alg».proof.Proof.KernelBlocks

noncomputable section

namespace Cert.KernelIdeal.ArrayValue

open Cert.KernelIdeal Cert.KernelIdeal.Gen Idealize.ShloMosaic Idealize.ShloMosaic.TcCoe Idealize.SL.Sem
open Idealize.ShloMosaic.ValueIdx Cert.Head
open Idealize.ShloMosaic.Pipeline (Dat)

variable (m : (ℓ : Loc nD τ sig) → Buf (Elt Ideal) ℓ) (ρ : Dev nD → PrngReg)

/-- Window 7 stages the whole of its array at every point: its block read back is the array as launched. -/
theorem whole7 (c : Dev nD) (t : Fin cfg0.N) (y : S21x1.Idx) : iblk m c 7 t y = m ((c : Thread nD τ).loc main_arg11) y := by
  obtain ⟨e0, e1⟩ := idx7 t
  show V m c main_arg11 (((cfg0.win 7).blk t).view.emb y) = _
  have h : ((cfg0.win 7).blk t).view.emb y = y := by
    funext a; apply Fin.ext
    match a with
    | ⟨0, _⟩ => show win0_7.index t (0 : Fin 2) * 21 + 1 * (y 0).val = (y 0).val; exact at_block_zero _ _ _ e0
    | ⟨1, _⟩ => show win0_7.index t (1 : Fin 2) * 1 + 1 * (y 1).val = (y 1).val; exact at_block_zero _ _ _ e1
  rw [h]
  exact congrFun (V_main_arg11 m c) y

end Cert.KernelIdeal.ArrayValue

end
-- ==== Proof.KernelFeatureRow.lean ====
/-
  The feature window against the result window: at point `t` both sit at the same row block and the feature window at
  column block 0, so row `p` of the loaded feature block is row `2000·t + p` of the feature array, the row at which
  the result's block puts its own row `p`.
-/
import proofs.«106774_j69793218560048_1_alg».proof.Proof.KernelBlocks

noncomputable section

namespace Cert.KernelIdeal.ArrayValue

open Cert.KernelIdeal Cert.KernelIdeal.Gen Idealize.ShloMosaic Idealize.ShloMosaic.TcCoe Idealize.SL.Sem
open Idealize.ShloMosaic.ValueIdx Cert.Head
open Idealize.ShloMosaic.Pipeline (Dat)

variable (m : (ℓ : Loc nD τ sig) → Buf (Elt Ideal) ℓ) (ρ : Dev nD → PrngReg)

/-- Row `p` of the result's block at point `t` is row `(block index) · 2000 + p` of the result array. -/
theorem result_row (t : Fin cfg0.N) (j : S2000x1.Idx) :
    ((((cfg0.win 8).blk t).view.emb j) 0).val = win0_8.index t (0 : Fin 2) * 2000 + 1 * (j 0).val := rfl

/-- Where the feature window's block at `t` puts its entry `(p, k)`: at `(r, k)`, `r` the row at which the result's
    block at `t` puts its row `p`. -/
theorem feature_idx (t : Fin cfg0.N) (p : Fin 2000) (r : Fin 100000) (k : Fin 128)
    (hr : r.val = win0_8.index t (0 : Fin 2) * 2000 + 1 * p.val) :
    ((cfg0.win 0).blk t).view.emb (ix2 p k : S2000x128.Idx) = (ix2 r k : S100000x128.Idx) := by
  obtain ⟨e0, e1⟩ := idx_feature t
  funext a; apply Fin.ext
  match a with
  | ⟨0, _⟩ => show win0_0.index t (0 : Fin 2) * 2000 + 1 * p.val = r.val; rw [hr]; exact at_same_block _ _ _ _ e0
  | ⟨1, _⟩ => show win0_0.index t (1 : Fin 2) * 128 + 1 * k.val = k.val; exact at_block_zero _ _ _ e1

/-- The feature window's block at `t`, read off any array of the features' shape, holds at `x` the array's entry where
    the block puts `x`. -/
theorem read_features (A : S100000x128.Idx → EReal) (t : Fin cfg0.N) (x : S2000x128.Idx) :
    ((cfg0.win 0).blk t).view.read (Elt Ideal) A x = A (((cfg0.win 0).blk t).view.emb x) := rfl

/-- Row `p` of point `t`'s feature block is row `r` of the feature array, `r` the row at which the result's block
    at `t` puts its own row `p`. -/
theorem feature_row (c : Dev nD) (t : Fin cfg0.N) (p : Fin 2000) (r : Fin 100000) (k : Fin 128)
    (hr : r.val = win0_8.index t (0 : Fin 2) * 2000 + 1 * p.val) :
    iblk m c 0 t (ix2 p k : S2000x128.Idx) = V m c main_v146 (ix2 r k : S100000x128.Idx) := by
  unfold iblk
  exact (read_features (V m c main_v146) t (ix2 p k)).trans (congrArg (V m c main_v146) (feature_idx t p r k hr))

end Cert.KernelIdeal.ArrayValue

end
-- ==== Proof.KernelStored.lean ====
/-
  What one grid point stores, before it is read as a function of the arrays: the body's one store fills the whole
  `2000 × 1` staging block with its payload, a term of the eight loaded blocks (each load takes a whole block), and the
  block is written back uncut. Beside it, reading the result window's block off an array, entry by entry.
-/
import proofs.«106774_j69793218560048_1_alg».proof.Proof.KernelBlocks

noncomputable section

namespace Cert.KernelIdeal.ArrayValue

open Cert.KernelIdeal Cert.KernelIdeal.Gen Idealize.ShloMosaic Idealize.ShloMosaic.TcCoe Idealize.SL.Sem
open Idealize.ShloMosaic.ValueIdx Cert.Head
open Idealize.ShloMosaic.Pipeline (Dat)

variable (m : (ℓ : Loc nD τ sig) → Buf (Elt Ideal) ℓ) (ρ : Dev nD → PrngReg)

/-- Point `t` writes back the body's payload of the eight loaded blocks. -/
theorem stored_block (c : Dev nD) (t : Fin cfg0.N) :
    (dats m 0 c).flushed 8 t = (cfg0.win 8).cut (grid0.coords t) (k0_pay1 (F := Ideal) (k0_pay2 (F := Ideal) (iblk m c 0 t) (iblk m c 1 t) (iblk m c 2 t) (iblk m c 3 t) (iblk m c 4 t) (iblk m c 5 t) (iblk m c 6 t)) (k0_pay3 (F := Ideal) (iblk m c 0 t) (iblk m c 1 t) (iblk m c 2 t) (iblk m c 3 t) (iblk m c 4 t) (iblk m c 5 t) (iblk m c 6 t)) (k0_pay4 (F := Ideal)) (iblk m c 7 t)) := by
  rw [Value.flushed8]
  unfold out0_8
  rw [View.canon_unit_zero zeros2]
  simp only [View.ld_unit_zero (S := S2000x128) zeros2, View.ld_unit_zero (S := S128x64) zeros2,
    View.ld_unit_zero (S := S64) zeros1, View.ld_unit_zero (S := S64x32) zeros2, View.ld_unit_zero (S := S32) zeros1,
    View.ld_unit_zero (S := S32x21) zeros2, View.ld_unit_zero (S := S21) zeros1, View.ld_unit_zero (S := S21x1) zeros2]

/-- The result window's block is written back whole: entry `j` of what is written is entry `j` of the staging block. -/
theorem cut_apply (Y : S2000x1.Idx → EReal) (t : Fin cfg0.N) (j : S2000x1.Idx) :
    (cfg0.win 8).cut (grid0.coords t) Y j = Y j := rfl

/-- The result window's block at `t`, read off any array of the result's shape, holds at `j` the array's entry where
    the block puts `j`. -/
theorem read_result (G : S100000x1.Idx → EReal) (t : Fin cfg0.N) (j : S2000x1.Idx) :
    ((cfg0.win 8).blk t).view.read (Elt Ideal) G j = G (((cfg0.win 8).blk t).view.emb j) := rfl

end Cert.KernelIdeal.ArrayValue

end
-- ==== Proof.KernelFlushed.lean ====
/-
  What one grid point writes back. Point `t` stores, at row `p` of its `2000 × 1` block, row `p` of the loaded feature
  block through the head with the loaded weights. The loaded weights are the weight arrays, and row `p` of the loaded
  feature block is the row of the feature array at which the result's block puts its row `p`; so the stored block is
  block `t` of the one whole-array function, the head of the feature array row by row.
-/
import proofs.«106774_j69793218560048_1_alg».proof.Proof.KernelBlocks
import proofs.«106774_j69793218560048_1_alg».proof.Proof.KernelWeightsA
import proofs.«106774_j69793218560048_1_alg».proof.Proof.KernelWeightsB
import proofs.«106774_j69793218560048_1_alg».proof.Proof.KernelWeightsC
import proofs.«106774_j69793218560048_1_alg».proof.Proof.KernelWeightsD
import proofs.«106774_j69793218560048_1_alg».proof.Proof.KernelFeatureRow
import proofs.«106774_j69793218560048_1_alg».proof.Proof.KernelStored

noncomputable section

namespace Cert.KernelIdeal.ArrayValue

open Cert.KernelIdeal Cert.KernelIdeal.Gen Idealize.ShloMosaic Idealize.ShloMosaic.TcCoe Idealize.SL.Sem
open Idealize.ShloMosaic.ValueIdx Cert.Head
open Idealize.ShloMosaic.Pipeline (Dat)

variable (m : (ℓ : Loc nD τ sig) → Buf (Elt Ideal) ℓ) (ρ : Dev nD → PrngReg)

/-- Entry `i` of the whole-array function is row `i 0` of the feature array through the head. -/
theorem out_apply (c : Dev nD) (i : S100000x1.Idx) :
    out m c i = head (N := 100000) (V m c main_v146) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (i 0) := rfl

/-- WHAT POINT `t` WRITES BACK is block `t` of the one function `out`. -/
theorem flushed_eq (c : Dev nD) (t : Fin cfg0.N) :
    (dats m 0 c).flushed 8 t = ((cfg0.win 8).blk t).view.read (Elt Ideal) (out m c) := by
  refine (stored_block m c t).trans ?_
  refine funext fun (j : S2000x1.Idx) => ?_
  refine (cut_apply _ t j).trans ?_
  refine Eq.trans ?_ (read_result (out m c) t j).symm
  refine Eq.trans ?_ (out_apply m c (((cfg0.win 8).blk t).view.emb j)).symm
  refine (HeadValue.stored_at (iblk m c 0 t) (iblk m c 1 t) (iblk m c 2 t) (iblk m c 3 t) (iblk m c 4 t) (iblk m c 5 t) (iblk m c 6 t) (iblk m c 7 t) j).trans ?_
  exact head_of_eq (iblk m c 0 t) (V m c main_v146) (iblk m c 1 t) (m ((c : Thread nD τ).loc main_arg5)) (iblk m c 2 t) (m ((c : Thread nD τ).loc main_arg6)) (iblk m c 3 t) (m ((c : Thread nD τ).loc main_arg7))
    (iblk m c 4 t) (m ((c : Thread nD τ).loc main_arg8)) (iblk m c 5 t) (m ((c : Thread nD τ).loc main_arg9)) (iblk m c 6 t) (m ((c : Thread nD τ).loc main_arg10)) (iblk m c 7 t) (m ((c : Thread nD τ).loc main_arg11))
    (j 0) ((((cfg0.win 8).blk t).view.emb j) 0)
    (fun k => feature_row m c t (j 0) ((((cfg0.win 8).blk t).view.emb j) 0) k (result_row t j)) (whole1 m c t) (whole2 m c t) (whole3 m c t)
    (whole4 m c t) (whole5 m c t) (whole6 m c t) (whole7 m c t)

end Cert.KernelIdeal.ArrayValue

end
-- ==== Proof.KernelCover.lean ====
/-
  The 50 blocks of the result window cover the `100000 × 1` result: a block is the box of 2000 rows and the one column
  at its block index, and row `r` lies in the block whose row index is `r / 2000`, which some grid point has.
-/
import proofs.«106774_j69793218560048_1_alg».proof.Proof.KernelBlocks

noncomputable section

namespace Cert.KernelIdeal.ArrayValue

open Cert.KernelIdeal Cert.KernelIdeal.Gen Idealize.ShloMosaic Idealize.ShloMosaic.TcCoe Idealize.SL.Sem
open Idealize.ShloMosaic.ValueIdx Cert.Head
open Idealize.ShloMosaic.Pipeline (Dat)

variable (m : (ℓ : Loc nD τ sig) → Buf (Elt Ideal) ℓ) (ρ : Dev nD → PrngReg)

/-- An index of the result is in point `t`'s block iff each coordinate is in the block's range on its axis. -/
theorem mem_blk (t : Fin cfg0.N) (i : S100000x1.Idx) :
    i ∈ ((cfg0.win 8).blk t).view.set ↔ ∀ a : Fin 2, win0_8.index t a * S2000x1.size a ≤ (i a).val ∧ (i a).val < win0_8.index t a * S2000x1.size a + S2000x1.size a := by
  show i ∈ ((View.whole main_v147).slice (win0_8.rect t)).set ↔ _
  rw [View.set_slice_whole, Rect.mem_set_unit]
  exact Iff.rfl

/-- The 50 blocks cover the result: row `r` is in the block of the point whose row block is `r / 2000`. -/
theorem cover (i : S100000x1.Idx) : ∃ t : Fin cfg0.N, (cfg0.win 8).flush t = true ∧ i ∈ ((cfg0.win 8).blk t).view.set := by
  have hi0 : (i 0).val < 100000 := (i 0).isLt
  have hi1 : (i 1).val < 1 := (i 1).isLt
  obtain ⟨t, ht⟩ := idx_onto ⟨(i 0).val / 2000, by omega⟩
  have q0 : win0_8.index t (0 : Fin 2) = (i 0).val / 2000 := congrFun ht 0
  have q1 : win0_8.index t (1 : Fin 2) = 0 := congrFun ht 1
  refine ⟨t, flush0_8 t, ?_⟩
  rw [mem_blk]
  intro a
  match a with
  | ⟨0, _⟩ => show win0_8.index t (0 : Fin 2) * 2000 ≤ (i 0).val ∧ (i 0).val < win0_8.index t (0 : Fin 2) * 2000 + 2000; exact row_in_block _ _ q0
  | ⟨1, _⟩ => show win0_8.index t (1 : Fin 2) * 1 ≤ (i 1).val ∧ (i 1).val < win0_8.index t (1 : Fin 2) * 1 + 1; exact col_in_block _ _ q1 hi1

end Cert.KernelIdeal.ArrayValue

end
-- ==== Proof.KernelArray.lean ====
/-
  From what each grid point stores to the kernel's whole result array.

  The grid has 50 points. Point `t` loads rows `2000·t … 2000·t + 1999` of the node-feature array (all 128 columns)
  and the whole of every weight array, and writes back rows `2000·t … 2000·t + 1999` of the `100000 × 1` result. What
  it stores at row `p` is row `p` of its feature block through the head, that is row `2000·t + p` of the feature
  array through the head: every point writes a block of ONE whole-array function, and the 50 blocks cover the result
  (row `r` lies in the block of point `r / 2000`). So after the run the result array is that function.
-/
import proofs.«106774_j69793218560048_1_alg».proof.Proof.KernelFlushed
import proofs.«106774_j69793218560048_1_alg».proof.Proof.KernelCover

noncomputable section

namespace Cert.KernelIdeal.ArrayValue

open Cert.KernelIdeal Cert.KernelIdeal.Gen Idealize.ShloMosaic Idealize.ShloMosaic.TcCoe Idealize.SL.Sem
open Idealize.ShloMosaic.ValueIdx Cert.Head
open Idealize.ShloMosaic.Pipeline (Dat)

variable (m : (ℓ : Loc nD τ sig) → Buf (Elt Ideal) ℓ) (ρ : Dev nD → PrngReg)

/-- THE RESULT ARRAY after the run is `out`. -/
theorem final (c : Dev nD) : (dats m 0 c).arrAt 8 cfg0.N = out m c :=
  (dats m 0 c).arrAt_eq_of_cover 8 (out m c) (fun t _ => flushed_eq m c t) (fun i => cover i)

/-- The kernel's run, read: the result array is the head of the feature array as the region finds it and of the weights
    as launched; the arguments are unchanged. -/
theorem run : θ_run defs (onTc (τ := τ) (main (F := Ideal))) ⟨m, fun _ => 0, ρ⟩ fun r => ∀ c : Dev nD,
      r.2.mem ((c : Thread nD τ).loc main_v147) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final m c), (h c).2⟩) (Value.run_blocks m ρ)

end Cert.KernelIdeal.ArrayValue

end
-- ==== Proof.RefOps.lean ====
/- The reference program's @main as lists of its host operations, in order: pre0, pre1, pre2, pre3 are the
   operations up to the array the dense head reads (three rounds of normalised neighbour sums over the edge list),
   headOps the head's (four affine layers, the leaky rectifier after the first three, the logistic at the end),
   each outlined function's operations listed where it is called. Beside each list, that its operations touch the
   TensorCore's references only. -/
import proofs.«106774_j69793218560048_1_alg».proof.Proof.Gen.ReferenceIdeal
import Idealize.ShloMosaic.Lib.StableHlo.Run

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- 60 operations of @main, in order. -/
abbrev pre0 : List (HloOp τ sig (Elt F)) :=
  [ StableHlo.nullary main_cst (constant S_ .f32 0x00000000#32),
    StableHlo.unary main_cst main_v0 (broadcastInDim S50000 ![] bcast_S_S50000 : (⟨S_, .f32⟩ : BufTy).Contents (Elt F) → (⟨S50000, .f32⟩ : BufTy).Contents (Elt F)),
    StableHlo.unary main_arg2 main_v1 (broadcastInDim S600000x1 ![0] bcast_S600000_S600000x1_0 : (⟨S600000, .i32⟩ : BufTy).Contents (Elt F) → (⟨S600000x1, .i32⟩ : BufTy).Contents (Elt F)),
    StableHlo.ternary main_v0 main_v1 main_arg4 main_v2 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    StableHlo.nullary main_cst_0 (constant S_ .f32 0x322BCC77#32),
    StableHlo.unary main_cst_0 main_v3 (broadcastInDim S50000 ![] bcast_S_S50000 : (⟨S_, .f32⟩ : BufTy).Contents (Elt F) → (⟨S50000, .f32⟩ : BufTy).Contents (Elt F)),
    StableHlo.binary main_v2 main_v3 main_v4 (addf : (⟨S50000, .f32⟩ : BufTy).Contents (Elt F) → (⟨S50000, .f32⟩ : BufTy).Contents (Elt F) → (⟨S50000, .f32⟩ : BufTy).Contents (Elt F)),
    StableHlo.unary main_v4 main_v5 (Host.rsqrt : (⟨S50000, .f32⟩ : BufTy).Contents (Elt F) → (⟨S50000, .f32⟩ : BufTy).Contents (Elt F)),
    StableHlo.nullary main_c (constantI S_ 32 0#32),
    StableHlo.unary main_c main_v6 (broadcastInDim S600000 ![] bcast_S_S600000 : (⟨S_, .i32⟩ : BufTy).Contents (Elt F) → (⟨S600000, .i32⟩ : BufTy).Contents (Elt F)),
    StableHlo.binary main_arg2 main_v6 main_v7 (cmpi .slt : (⟨S600000, .i32⟩ : BufTy).Contents (Elt F) → (⟨S600000, .i32⟩ : BufTy).Contents (Elt F) → (⟨S600000, .i1⟩ : BufTy).Contents (Elt F)),
    StableHlo.nullary main_c_1 (constantI S_ 32 50000#32),
    StableHlo.unary main_c_1 main_v8 (broadcastInDim S600000 ![] bcast_S_S600000 : (⟨S_, .i32⟩ : BufTy).Contents (Elt F) → (⟨S600000, .i32⟩ : BufTy).Contents (Elt F)),
    StableHlo.binary main_arg2 main_v8 main_v9 (addi : (⟨S600000, .i32⟩ : BufTy).Contents (Elt F) → (⟨S600000, .i32⟩ : BufTy).Contents (Elt F) → (⟨S600000, .i32⟩ : BufTy).Contents (Elt F)),
    StableHlo.ternary main_v7 main_v9 main_arg2 main_v10 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v10 main_v11 (broadcastInDim S600000x1 ![0] bcast_S600000_S600000x1_0 : (⟨S600000, .i32⟩ : BufTy).Contents (Elt F) → (⟨S600000x1, .i32⟩ : BufTy).Contents (Elt F)),
    StableHlo.binary main_v5 main_v11 main_v12 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    StableHlo.binary main_arg4 main_v12 main_v13 (mulf : (⟨S600000, .f32⟩ : BufTy).Contents (Elt F) → (⟨S600000, .f32⟩ : BufTy).Contents (Elt F) → (⟨S600000, .f32⟩ : BufTy).Contents (Elt F)),
    StableHlo.nullary main_c_2 (constantI S_ 32 0#32),
    StableHlo.unary main_c_2 main_v14 (broadcastInDim S600000 ![] bcast_S_S600000 : (⟨S_, .i32⟩ : BufTy).Contents (Elt F) → (⟨S600000, .i32⟩ : BufTy).Contents (Elt F)),
    StableHlo.binary main_arg3 main_v14 main_v15 (cmpi .slt : (⟨S600000, .i32⟩ : BufTy).Contents (Elt F) → (⟨S600000, .i32⟩ : BufTy).Contents (Elt F) → (⟨S600000, .i1⟩ : BufTy).Contents (Elt F)),
    StableHlo.nullary main_c_3 (constantI S_ 32 50000#32),
    StableHlo.unary main_c_3 main_v16 (broadcastInDim S600000 ![] bcast_S_S600000 : (⟨S_, .i32⟩ : BufTy).Contents (Elt F) → (⟨S600000, .i32⟩ : BufTy).Contents (Elt F)),
    StableHlo.binary main_arg3 main_v16 main_v17 (addi : (⟨S600000, .i32⟩ : BufTy).Contents (Elt F) → (⟨S600000, .i32⟩ : BufTy).Contents (Elt F) → (⟨S600000, .i32⟩ : BufTy).Contents (Elt F)),
    StableHlo.ternary main_v15 main_v17 main_arg3 main_v18 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v18 main_v19 (broadcastInDim S600000x1 ![0] bcast_S600000_S600000x1_0 : (⟨S600000, .i32⟩ : BufTy).Contents (Elt F) → (⟨S600000x1, .i32⟩ : BufTy).Contents (Elt F)),
    StableHlo.binary main_v5 main_v19 main_v20 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    StableHlo.binary main_v13 main_v20 main_v21 (mulf : (⟨S600000, .f32⟩ : BufTy).Contents (Elt F) → (⟨S600000, .f32⟩ : BufTy).Contents (Elt F) → (⟨S600000, .f32⟩ : BufTy).Contents (Elt F)),
    StableHlo.nullary main_c_4 (constantI S_ 32 0#32),
    StableHlo.unary main_c_4 main_v22 (broadcastInDim S50000 ![] bcast_S_S50000 : (⟨S_, .i32⟩ : BufTy).Contents (Elt F) → (⟨S50000, .i32⟩ : BufTy).Contents (Elt F)),
    StableHlo.binary main_arg1 main_v22 main_v23 (cmpi .slt : (⟨S50000, .i32⟩ : BufTy).Contents (Elt F) → (⟨S50000, .i32⟩ : BufTy).Contents (Elt F) → (⟨S50000, .i1⟩ : BufTy).Contents (Elt F)),
    StableHlo.nullary main_c_5 (constantI S_ 32 100000#32),
    StableHlo.unary main_c_5 main_v24 (broadcastInDim S50000 ![] bcast_S_S50000 : (⟨S_, .i32⟩ : BufTy).Contents (Elt F) → (⟨S50000, .i32⟩ : BufTy).Contents (Elt F)),
    StableHlo.binary main_arg1 main_v24 main_v25 (addi : (⟨S50000, .i32⟩ : BufTy).Contents (Elt F) → (⟨S50000, .i32⟩ : BufTy).Contents (Elt F) → (⟨S50000, .i32⟩ : BufTy).Contents (Elt F)),
    StableHlo.ternary main_v23 main_v25 main_arg1 main_v26 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v26 main_v27 (broadcastInDim S50000x1 ![0] bcast_S50000_S50000x1_0 : (⟨S50000, .i32⟩ : BufTy).Contents (Elt F) → (⟨S50000x1, .i32⟩ : BufTy).Contents (Elt F)),
    StableHlo.binary main_arg0 main_v27 main_v28 ((fun x i => Host.gather gather_S100000x128_S50000x1_S50000x128_1_0_n_n_0_1_1128 x i) : (⟨S100000x128, .f32⟩ : BufTy).Contents (Elt F) → (⟨S50000x1, .i32⟩ : BufTy).Contents (Elt F) → (⟨S50000x128, .f32⟩ : BufTy).Contents (Elt F)),
    StableHlo.nullary main_c_6 (constantI S_ 32 0#32),
    StableHlo.unary main_c_6 main_v29 (broadcastInDim S600000 ![] bcast_S_S600000 : (⟨S_, .i32⟩ : BufTy).Contents (Elt F) → (⟨S600000, .i32⟩ : BufTy).Contents (Elt F)),
    StableHlo.binary main_arg3 main_v29 main_v30 (cmpi .slt : (⟨S600000, .i32⟩ : BufTy).Contents (Elt F) → (⟨S600000, .i32⟩ : BufTy).Contents (Elt F) → (⟨S600000, .i1⟩ : BufTy).Contents (Elt F)),
    StableHlo.nullary main_c_7 (constantI S_ 32 50000#32),
    StableHlo.unary main_c_7 main_v31 (broadcastInDim S600000 ![] bcast_S_S600000 : (⟨S_, .i32⟩ : BufTy).Contents (Elt F) → (⟨S600000, .i32⟩ : BufTy).Contents (Elt F)),
    StableHlo.binary main_arg3 main_v31 main_v32 (addi : (⟨S600000, .i32⟩ : BufTy).Contents (Elt F) → (⟨S600000, .i32⟩ : BufTy).Contents (Elt F) → (⟨S600000, .i32⟩ : BufTy).Contents (Elt F)),
    StableHlo.ternary main_v30 main_v32 main_arg3 main_v33 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v33 main_v34 (broadcastInDim S600000x1 ![0] bcast_S600000_S600000x1_0 : (⟨S600000, .i32⟩ : BufTy).Contents (Elt F) → (⟨S600000x1, .i32⟩ : BufTy).Contents (Elt F)),
    StableHlo.binary main_v28 main_v34 main_v35 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.unary main_v21 main_v36 (broadcastInDim S600000x1 ![0] bcast_S600000_S600000x1_0 : (⟨S600000, .f32⟩ : BufTy).Contents (Elt F) → (⟨S600000x1, .f32⟩ : BufTy).Contents (Elt F)),
    StableHlo.unary main_v36 main_v37 (broadcastInDim S600000x128 ![0, 1] bcast_S600000x1_S600000x128_0_1 : (⟨S600000x1, .f32⟩ : BufTy).Contents (Elt F) → (⟨S600000x128, .f32⟩ : BufTy).Contents (Elt F)),
    StableHlo.binary main_v35 main_v37 main_v38 (mulf : (⟨S600000x128, .f32⟩ : BufTy).Contents (Elt F) → (⟨S600000x128, .f32⟩ : BufTy).Contents (Elt F) → (⟨S600000x128, .f32⟩ : BufTy).Contents (Elt F)),
    StableHlo.nullary main_cst_8 (constant S_ .f32 0x00000000#32),
    StableHlo.unary main_cst_8 main_v39 (broadcastInDim S50000x128 ![] bcast_S_S50000x128 : (⟨S_, .f32⟩ : BufTy).Contents (Elt F) → (⟨S50000x128, .f32⟩ : BufTy).Contents (Elt F)),
    StableHlo.unary main_arg2 main_v40 (broadcastInDim S600000x1 ![0] bcast_S600000_S600000x1_0 : (⟨S600000, .i32⟩ : BufTy).Contents (Elt F) → (⟨S600000x1, .i32⟩ : BufTy).Contents (Elt F)),
    StableHlo.ternary main_v39 main_v40 main_v38 main_v41 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.nullary main_c_9 (constantI S_ 32 0#32),
    StableHlo.unary main_c_9 main_v42 (broadcastInDim S50000 ![] bcast_S_S50000 : (⟨S_, .i32⟩ : BufTy).Contents (Elt F) → (⟨S50000, .i32⟩ : BufTy).Contents (Elt F)),
    StableHlo.binary main_arg1 main_v42 main_v43 (cmpi .slt : (⟨S50000, .i32⟩ : BufTy).Contents (Elt F) → (⟨S50000, .i32⟩ : BufTy).Contents (Elt F) → (⟨S50000, .i1⟩ : BufTy).Contents (Elt F)),
    StableHlo.nullary main_c_10 (constantI S_ 32 100000#32),
    StableHlo.unary main_c_10 main_v44 (broadcastInDim S50000 ![] bcast_S_S50000 : (⟨S_, .i32⟩ : BufTy).Contents (Elt F) → (⟨S50000, .i32⟩ : BufTy).Contents (Elt F)),
    StableHlo.binary main_arg1 main_v44 main_v45 (addi : (⟨S50000, .i32⟩ : BufTy).Contents (Elt F) → (⟨S50000, .i32⟩ : BufTy).Contents (Elt F) → (⟨S50000, .i32⟩ : BufTy).Contents (Elt F)),
    StableHlo.ternary main_v43 main_v45 main_arg1 main_v46 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)) ]

theorem pre0_sub : (pre0 : List (HloOp τ sig (Elt F))).Forall fun op => op.bufs ⊆ tcRefs τ sig :=
  ⟨nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub ..⟩

/-- 60 operations of @main, in order. -/
abbrev pre1 : List (HloOp τ sig (Elt F)) :=
  [ StableHlo.unary main_v46 main_v47 (broadcastInDim S50000x1 ![0] bcast_S50000_S50000x1_0 : (⟨S50000, .i32⟩ : BufTy).Contents (Elt F) → (⟨S50000x1, .i32⟩ : BufTy).Contents (Elt F)),
    StableHlo.ternary main_arg0 main_v47 main_v41 main_v48 ((fun x i u => Host.scatter scatter_S100000x128_S50000x1_S50000x128_1_0_0_1 (fun _ b => b) x i u) : (⟨S100000x128, .f32⟩ : BufTy).Contents (Elt F) → (⟨S50000x1, .i32⟩ : BufTy).Contents (Elt F) → (⟨S50000x128, .f32⟩ : BufTy).Contents (Elt F) → (⟨S100000x128, .f32⟩ : BufTy).Contents (Elt F)),
    StableHlo.nullary main_cst_11 (constant S_ .f32 0x00000000#32),
    StableHlo.unary main_cst_11 main_v49 (broadcastInDim S50000 ![] bcast_S_S50000 : (⟨S_, .f32⟩ : BufTy).Contents (Elt F) → (⟨S50000, .f32⟩ : BufTy).Contents (Elt F)),
    StableHlo.unary main_arg2 main_v50 (broadcastInDim S600000x1 ![0] bcast_S600000_S600000x1_0 : (⟨S600000, .i32⟩ : BufTy).Contents (Elt F) → (⟨S600000x1, .i32⟩ : BufTy).Contents (Elt F)),
    StableHlo.ternary main_v49 main_v50 main_arg4 main_v51 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    StableHlo.nullary main_cst_12 (constant S_ .f32 0x322BCC77#32),
    StableHlo.unary main_cst_12 main_v52 (broadcastInDim S50000 ![] bcast_S_S50000 : (⟨S_, .f32⟩ : BufTy).Contents (Elt F) → (⟨S50000, .f32⟩ : BufTy).Contents (Elt F)),
    StableHlo.binary main_v51 main_v52 main_v53 (addf : (⟨S50000, .f32⟩ : BufTy).Contents (Elt F) → (⟨S50000, .f32⟩ : BufTy).Contents (Elt F) → (⟨S50000, .f32⟩ : BufTy).Contents (Elt F)),
    StableHlo.unary main_v53 main_v54 (Host.rsqrt : (⟨S50000, .f32⟩ : BufTy).Contents (Elt F) → (⟨S50000, .f32⟩ : BufTy).Contents (Elt F)),
    StableHlo.nullary main_c_13 (constantI S_ 32 0#32),
    StableHlo.unary main_c_13 main_v55 (broadcastInDim S600000 ![] bcast_S_S600000 : (⟨S_, .i32⟩ : BufTy).Contents (Elt F) → (⟨S600000, .i32⟩ : BufTy).Contents (Elt F)),
    StableHlo.binary main_arg2 main_v55 main_v56 (cmpi .slt : (⟨S600000, .i32⟩ : BufTy).Contents (Elt F) → (⟨S600000, .i32⟩ : BufTy).Contents (Elt F) → (⟨S600000, .i1⟩ : BufTy).Contents (Elt F)),
    StableHlo.nullary main_c_14 (constantI S_ 32 50000#32),
    StableHlo.unary main_c_14 main_v57 (broadcastInDim S600000 ![] bcast_S_S600000 : (⟨S_, .i32⟩ : BufTy).Contents (Elt F) → (⟨S600000, .i32⟩ : BufTy).Contents (Elt F)),
    StableHlo.binary main_arg2 main_v57 main_v58 (addi : (⟨S600000, .i32⟩ : BufTy).Contents (Elt F) → (⟨S600000, .i32⟩ : BufTy).Contents (Elt F) → (⟨S600000, .i32⟩ : BufTy).Contents (Elt F)),
    StableHlo.ternary main_v56 main_v58 main_arg2 main_v59 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v59 main_v60 (broadcastInDim S600000x1 ![0] bcast_S600000_S600000x1_0 : (⟨S600000, .i32⟩ : BufTy).Contents (Elt F) → (⟨S600000x1, .i32⟩ : BufTy).Contents (Elt F)),
    StableHlo.binary main_v54 main_v60 main_v61 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    StableHlo.binary main_arg4 main_v61 main_v62 (mulf : (⟨S600000, .f32⟩ : BufTy).Contents (Elt F) → (⟨S600000, .f32⟩ : BufTy).Contents (Elt F) → (⟨S600000, .f32⟩ : BufTy).Contents (Elt F)),
    StableHlo.nullary main_c_15 (constantI S_ 32 0#32),
    StableHlo.unary main_c_15 main_v63 (broadcastInDim S600000 ![] bcast_S_S600000 : (⟨S_, .i32⟩ : BufTy).Contents (Elt F) → (⟨S600000, .i32⟩ : BufTy).Contents (Elt F)),
    StableHlo.binary main_arg3 main_v63 main_v64 (cmpi .slt : (⟨S600000, .i32⟩ : BufTy).Contents (Elt F) → (⟨S600000, .i32⟩ : BufTy).Contents (Elt F) → (⟨S600000, .i1⟩ : BufTy).Contents (Elt F)),
    StableHlo.nullary main_c_16 (constantI S_ 32 50000#32),
    StableHlo.unary main_c_16 main_v65 (broadcastInDim S600000 ![] bcast_S_S600000 : (⟨S_, .i32⟩ : BufTy).Contents (Elt F) → (⟨S600000, .i32⟩ : BufTy).Contents (Elt F)),
    StableHlo.binary main_arg3 main_v65 main_v66 (addi : (⟨S600000, .i32⟩ : BufTy).Contents (Elt F) → (⟨S600000, .i32⟩ : BufTy).Contents (Elt F) → (⟨S600000, .i32⟩ : BufTy).Contents (Elt F)),
    StableHlo.ternary main_v64 main_v66 main_arg3 main_v67 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v67 main_v68 (broadcastInDim S600000x1 ![0] bcast_S600000_S600000x1_0 : (⟨S600000, .i32⟩ : BufTy).Contents (Elt F) → (⟨S600000x1, .i32⟩ : BufTy).Contents (Elt F)),
    StableHlo.binary main_v54 main_v68 main_v69 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    StableHlo.binary main_v62 main_v69 main_v70 (mulf : (⟨S600000, .f32⟩ : BufTy).Contents (Elt F) → (⟨S600000, .f32⟩ : BufTy).Contents (Elt F) → (⟨S600000, .f32⟩ : BufTy).Contents (Elt F)),
    StableHlo.nullary main_c_17 (constantI S_ 32 0#32),
    StableHlo.unary main_c_17 main_v71 (broadcastInDim S50000 ![] bcast_S_S50000 : (⟨S_, .i32⟩ : BufTy).Contents (Elt F) → (⟨S50000, .i32⟩ : BufTy).Contents (Elt F)),
    StableHlo.binary main_arg1 main_v71 main_v72 (cmpi .slt : (⟨S50000, .i32⟩ : BufTy).Contents (Elt F) → (⟨S50000, .i32⟩ : BufTy).Contents (Elt F) → (⟨S50000, .i1⟩ : BufTy).Contents (Elt F)),
    StableHlo.nullary main_c_18 (constantI S_ 32 100000#32),
    StableHlo.unary main_c_18 main_v73 (broadcastInDim S50000 ![] bcast_S_S50000 : (⟨S_, .i32⟩ : BufTy).Contents (Elt F) → (⟨S50000, .i32⟩ : BufTy).Contents (Elt F)),
    StableHlo.binary main_arg1 main_v73 main_v74 (addi : (⟨S50000, .i32⟩ : BufTy).Contents (Elt F) → (⟨S50000, .i32⟩ : BufTy).Contents (Elt F) → (⟨S50000, .i32⟩ : BufTy).Contents (Elt F)),
    StableHlo.ternary main_v72 main_v74 main_arg1 main_v75 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v75 main_v76 (broadcastInDim S50000x1 ![0] bcast_S50000_S50000x1_0 : (⟨S50000, .i32⟩ : BufTy).Contents (Elt F) → (⟨S50000x1, .i32⟩ : BufTy).Contents (Elt F)),
    StableHlo.binary main_v48 main_v76 main_v77 ((fun x i => Host.gather gather_S100000x128_S50000x1_S50000x128_1_0_n_n_0_1_1128 x i) : (⟨S100000x128, .f32⟩ : BufTy).Contents (Elt F) → (⟨S50000x1, .i32⟩ : BufTy).Contents (Elt F) → (⟨S50000x128, .f32⟩ : BufTy).Contents (Elt F)),
    StableHlo.nullary main_c_19 (constantI S_ 32 0#32),
    StableHlo.unary main_c_19 main_v78 (broadcastInDim S600000 ![] bcast_S_S600000 : (⟨S_, .i32⟩ : BufTy).Contents (Elt F) → (⟨S600000, .i32⟩ : BufTy).Contents (Elt F)),
    StableHlo.binary main_arg3 main_v78 main_v79 (cmpi .slt : (⟨S600000, .i32⟩ : BufTy).Contents (Elt F) → (⟨S600000, .i32⟩ : BufTy).Contents (Elt F) → (⟨S600000, .i1⟩ : BufTy).Contents (Elt F)),
    StableHlo.nullary main_c_20 (constantI S_ 32 50000#32),
    StableHlo.unary main_c_20 main_v80 (broadcastInDim S600000 ![] bcast_S_S600000 : (⟨S_, .i32⟩ : BufTy).Contents (Elt F) → (⟨S600000, .i32⟩ : BufTy).Contents (Elt F)),
    StableHlo.binary main_arg3 main_v80 main_v81 (addi : (⟨S600000, .i32⟩ : BufTy).Contents (Elt F) → (⟨S600000, .i32⟩ : BufTy).Contents (Elt F) → (⟨S600000, .i32⟩ : BufTy).Contents (Elt F)),
    StableHlo.ternary main_v79 main_v81 main_arg3 main_v82 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v82 main_v83 (broadcastInDim S600000x1 ![0] bcast_S600000_S600000x1_0 : (⟨S600000, .i32⟩ : BufTy).Contents (Elt F) → (⟨S600000x1, .i32⟩ : BufTy).Contents (Elt F)),
    StableHlo.binary main_v77 main_v83 main_v84 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.unary main_v70 main_v85 (broadcastInDim S600000x1 ![0] bcast_S600000_S600000x1_0 : (⟨S600000, .f32⟩ : BufTy).Contents (Elt F) → (⟨S600000x1, .f32⟩ : BufTy).Contents (Elt F)),
    StableHlo.unary main_v85 main_v86 (broadcastInDim S600000x128 ![0, 1] bcast_S600000x1_S600000x128_0_1 : (⟨S600000x1, .f32⟩ : BufTy).Contents (Elt F) → (⟨S600000x128, .f32⟩ : BufTy).Contents (Elt F)),
    StableHlo.binary main_v84 main_v86 main_v87 (mulf : (⟨S600000x128, .f32⟩ : BufTy).Contents (Elt F) → (⟨S600000x128, .f32⟩ : BufTy).Contents (Elt F) → (⟨S600000x128, .f32⟩ : BufTy).Contents (Elt F)),
    StableHlo.nullary main_cst_21 (constant S_ .f32 0x00000000#32),
    StableHlo.unary main_cst_21 main_v88 (broadcastInDim S50000x128 ![] bcast_S_S50000x128 : (⟨S_, .f32⟩ : BufTy).Contents (Elt F) → (⟨S50000x128, .f32⟩ : BufTy).Contents (Elt F)),
    StableHlo.unary main_arg2 main_v89 (broadcastInDim S600000x1 ![0] bcast_S600000_S600000x1_0 : (⟨S600000, .i32⟩ : BufTy).Contents (Elt F) → (⟨S600000x1, .i32⟩ : BufTy).Contents (Elt F)),
    StableHlo.ternary main_v88 main_v89 main_v87 main_v90 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.nullary main_c_22 (constantI S_ 32 0#32),
    StableHlo.unary main_c_22 main_v91 (broadcastInDim S50000 ![] bcast_S_S50000 : (⟨S_, .i32⟩ : BufTy).Contents (Elt F) → (⟨S50000, .i32⟩ : BufTy).Contents (Elt F)),
    StableHlo.binary main_arg1 main_v91 main_v92 (cmpi .slt : (⟨S50000, .i32⟩ : BufTy).Contents (Elt F) → (⟨S50000, .i32⟩ : BufTy).Contents (Elt F) → (⟨S50000, .i1⟩ : BufTy).Contents (Elt F)),
    StableHlo.nullary main_c_23 (constantI S_ 32 100000#32),
    StableHlo.unary main_c_23 main_v93 (broadcastInDim S50000 ![] bcast_S_S50000 : (⟨S_, .i32⟩ : BufTy).Contents (Elt F) → (⟨S50000, .i32⟩ : BufTy).Contents (Elt F)) ]

theorem pre1_sub : (pre1 : List (HloOp τ sig (Elt F))).Forall fun op => op.bufs ⊆ tcRefs τ sig :=
  ⟨unary_bufs_sub .., ternary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub ..⟩

/-- 60 operations of @main, in order. -/
abbrev pre2 : List (HloOp τ sig (Elt F)) :=
  [ StableHlo.binary main_arg1 main_v93 main_v94 (addi : (⟨S50000, .i32⟩ : BufTy).Contents (Elt F) → (⟨S50000, .i32⟩ : BufTy).Contents (Elt F) → (⟨S50000, .i32⟩ : BufTy).Contents (Elt F)),
    StableHlo.ternary main_v92 main_v94 main_arg1 main_v95 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v95 main_v96 (broadcastInDim S50000x1 ![0] bcast_S50000_S50000x1_0 : (⟨S50000, .i32⟩ : BufTy).Contents (Elt F) → (⟨S50000x1, .i32⟩ : BufTy).Contents (Elt F)),
    StableHlo.ternary main_v48 main_v96 main_v90 main_v97 ((fun x i u => Host.scatter scatter_S100000x128_S50000x1_S50000x128_1_0_0_1 (fun _ b => b) x i u) : (⟨S100000x128, .f32⟩ : BufTy).Contents (Elt F) → (⟨S50000x1, .i32⟩ : BufTy).Contents (Elt F) → (⟨S50000x128, .f32⟩ : BufTy).Contents (Elt F) → (⟨S100000x128, .f32⟩ : BufTy).Contents (Elt F)),
    StableHlo.nullary main_cst_24 (constant S_ .f32 0x00000000#32),
    StableHlo.unary main_cst_24 main_v98 (broadcastInDim S50000 ![] bcast_S_S50000 : (⟨S_, .f32⟩ : BufTy).Contents (Elt F) → (⟨S50000, .f32⟩ : BufTy).Contents (Elt F)),
    StableHlo.unary main_arg2 main_v99 (broadcastInDim S600000x1 ![0] bcast_S600000_S600000x1_0 : (⟨S600000, .i32⟩ : BufTy).Contents (Elt F) → (⟨S600000x1, .i32⟩ : BufTy).Contents (Elt F)),
    StableHlo.ternary main_v98 main_v99 main_arg4 main_v100 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    StableHlo.nullary main_cst_25 (constant S_ .f32 0x322BCC77#32),
    StableHlo.unary main_cst_25 main_v101 (broadcastInDim S50000 ![] bcast_S_S50000 : (⟨S_, .f32⟩ : BufTy).Contents (Elt F) → (⟨S50000, .f32⟩ : BufTy).Contents (Elt F)),
    StableHlo.binary main_v100 main_v101 main_v102 (addf : (⟨S50000, .f32⟩ : BufTy).Contents (Elt F) → (⟨S50000, .f32⟩ : BufTy).Contents (Elt F) → (⟨S50000, .f32⟩ : BufTy).Contents (Elt F)),
    StableHlo.unary main_v102 main_v103 (Host.rsqrt : (⟨S50000, .f32⟩ : BufTy).Contents (Elt F) → (⟨S50000, .f32⟩ : BufTy).Contents (Elt F)),
    StableHlo.nullary main_c_26 (constantI S_ 32 0#32),
    StableHlo.unary main_c_26 main_v104 (broadcastInDim S600000 ![] bcast_S_S600000 : (⟨S_, .i32⟩ : BufTy).Contents (Elt F) → (⟨S600000, .i32⟩ : BufTy).Contents (Elt F)),
    StableHlo.binary main_arg2 main_v104 main_v105 (cmpi .slt : (⟨S600000, .i32⟩ : BufTy).Contents (Elt F) → (⟨S600000, .i32⟩ : BufTy).Contents (Elt F) → (⟨S600000, .i1⟩ : BufTy).Contents (Elt F)),
    StableHlo.nullary main_c_27 (constantI S_ 32 50000#32),
    StableHlo.unary main_c_27 main_v106 (broadcastInDim S600000 ![] bcast_S_S600000 : (⟨S_, .i32⟩ : BufTy).Contents (Elt F) → (⟨S600000, .i32⟩ : BufTy).Contents (Elt F)),
    StableHlo.binary main_arg2 main_v106 main_v107 (addi : (⟨S600000, .i32⟩ : BufTy).Contents (Elt F) → (⟨S600000, .i32⟩ : BufTy).Contents (Elt F) → (⟨S600000, .i32⟩ : BufTy).Contents (Elt F)),
    StableHlo.ternary main_v105 main_v107 main_arg2 main_v108 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v108 main_v109 (broadcastInDim S600000x1 ![0] bcast_S600000_S600000x1_0 : (⟨S600000, .i32⟩ : BufTy).Contents (Elt F) → (⟨S600000x1, .i32⟩ : BufTy).Contents (Elt F)),
    StableHlo.binary main_v103 main_v109 main_v110 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    StableHlo.binary main_arg4 main_v110 main_v111 (mulf : (⟨S600000, .f32⟩ : BufTy).Contents (Elt F) → (⟨S600000, .f32⟩ : BufTy).Contents (Elt F) → (⟨S600000, .f32⟩ : BufTy).Contents (Elt F)),
    StableHlo.nullary main_c_28 (constantI S_ 32 0#32),
    StableHlo.unary main_c_28 main_v112 (broadcastInDim S600000 ![] bcast_S_S600000 : (⟨S_, .i32⟩ : BufTy).Contents (Elt F) → (⟨S600000, .i32⟩ : BufTy).Contents (Elt F)),
    StableHlo.binary main_arg3 main_v112 main_v113 (cmpi .slt : (⟨S600000, .i32⟩ : BufTy).Contents (Elt F) → (⟨S600000, .i32⟩ : BufTy).Contents (Elt F) → (⟨S600000, .i1⟩ : BufTy).Contents (Elt F)),
    StableHlo.nullary main_c_29 (constantI S_ 32 50000#32),
    StableHlo.unary main_c_29 main_v114 (broadcastInDim S600000 ![] bcast_S_S600000 : (⟨S_, .i32⟩ : BufTy).Contents (Elt F) → (⟨S600000, .i32⟩ : BufTy).Contents (Elt F)),
    StableHlo.binary main_arg3 main_v114 main_v115 (addi : (⟨S600000, .i32⟩ : BufTy).Contents (Elt F) → (⟨S600000, .i32⟩ : BufTy).Contents (Elt F) → (⟨S600000, .i32⟩ : BufTy).Contents (Elt F)),
    StableHlo.ternary main_v113 main_v115 main_arg3 main_v116 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v116 main_v117 (broadcastInDim S600000x1 ![0] bcast_S600000_S600000x1_0 : (⟨S600000, .i32⟩ : BufTy).Contents (Elt F) → (⟨S600000x1, .i32⟩ : BufTy).Contents (Elt F)),
    StableHlo.binary main_v103 main_v117 main_v118 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    StableHlo.binary main_v111 main_v118 main_v119 (mulf : (⟨S600000, .f32⟩ : BufTy).Contents (Elt F) → (⟨S600000, .f32⟩ : BufTy).Contents (Elt F) → (⟨S600000, .f32⟩ : BufTy).Contents (Elt F)),
    StableHlo.nullary main_c_30 (constantI S_ 32 0#32),
    StableHlo.unary main_c_30 main_v120 (broadcastInDim S50000 ![] bcast_S_S50000 : (⟨S_, .i32⟩ : BufTy).Contents (Elt F) → (⟨S50000, .i32⟩ : BufTy).Contents (Elt F)),
    StableHlo.binary main_arg1 main_v120 main_v121 (cmpi .slt : (⟨S50000, .i32⟩ : BufTy).Contents (Elt F) → (⟨S50000, .i32⟩ : BufTy).Contents (Elt F) → (⟨S50000, .i1⟩ : BufTy).Contents (Elt F)),
    StableHlo.nullary main_c_31 (constantI S_ 32 100000#32),
    StableHlo.unary main_c_31 main_v122 (broadcastInDim S50000 ![] bcast_S_S50000 : (⟨S_, .i32⟩ : BufTy).Contents (Elt F) → (⟨S50000, .i32⟩ : BufTy).Contents (Elt F)),
    StableHlo.binary main_arg1 main_v122 main_v123 (addi : (⟨S50000, .i32⟩ : BufTy).Contents (Elt F) → (⟨S50000, .i32⟩ : BufTy).Contents (Elt F) → (⟨S50000, .i32⟩ : BufTy).Contents (Elt F)),
    StableHlo.ternary main_v121 main_v123 main_arg1 main_v124 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v124 main_v125 (broadcastInDim S50000x1 ![0] bcast_S50000_S50000x1_0 : (⟨S50000, .i32⟩ : BufTy).Contents (Elt F) → (⟨S50000x1, .i32⟩ : BufTy).Contents (Elt F)),
    StableHlo.binary main_v97 main_v125 main_v126 ((fun x i => Host.gather gather_S100000x128_S50000x1_S50000x128_1_0_n_n_0_1_1128 x i) : (⟨S100000x128, .f32⟩ : BufTy).Contents (Elt F) → (⟨S50000x1, .i32⟩ : BufTy).Contents (Elt F) → (⟨S50000x128, .f32⟩ : BufTy).Contents (Elt F)),
    StableHlo.nullary main_c_32 (constantI S_ 32 0#32),
    StableHlo.unary main_c_32 main_v127 (broadcastInDim S600000 ![] bcast_S_S600000 : (⟨S_, .i32⟩ : BufTy).Contents (Elt F) → (⟨S600000, .i32⟩ : BufTy).Contents (Elt F)),
    StableHlo.binary main_arg3 main_v127 main_v128 (cmpi .slt : (⟨S600000, .i32⟩ : BufTy).Contents (Elt F) → (⟨S600000, .i32⟩ : BufTy).Contents (Elt F) → (⟨S600000, .i1⟩ : BufTy).Contents (Elt F)),
    StableHlo.nullary main_c_33 (constantI S_ 32 50000#32),
    StableHlo.unary main_c_33 main_v129 (broadcastInDim S600000 ![] bcast_S_S600000 : (⟨S_, .i32⟩ : BufTy).Contents (Elt F) → (⟨S600000, .i32⟩ : BufTy).Contents (Elt F)),
    StableHlo.binary main_arg3 main_v129 main_v130 (addi : (⟨S600000, .i32⟩ : BufTy).Contents (Elt F) → (⟨S600000, .i32⟩ : BufTy).Contents (Elt F) → (⟨S600000, .i32⟩ : BufTy).Contents (Elt F)),
    StableHlo.ternary main_v128 main_v130 main_arg3 main_v131 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v131 main_v132 (broadcastInDim S600000x1 ![0] bcast_S600000_S600000x1_0 : (⟨S600000, .i32⟩ : BufTy).Contents (Elt F) → (⟨S600000x1, .i32⟩ : BufTy).Contents (Elt F)),
    StableHlo.binary main_v126 main_v132 main_v133 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.unary main_v119 main_v134 (broadcastInDim S600000x1 ![0] bcast_S600000_S600000x1_0 : (⟨S600000, .f32⟩ : BufTy).Contents (Elt F) → (⟨S600000x1, .f32⟩ : BufTy).Contents (Elt F)),
    StableHlo.unary main_v134 main_v135 (broadcastInDim S600000x128 ![0, 1] bcast_S600000x1_S600000x128_0_1 : (⟨S600000x1, .f32⟩ : BufTy).Contents (Elt F) → (⟨S600000x128, .f32⟩ : BufTy).Contents (Elt F)),
    StableHlo.binary main_v133 main_v135 main_v136 (mulf : (⟨S600000x128, .f32⟩ : BufTy).Contents (Elt F) → (⟨S600000x128, .f32⟩ : BufTy).Contents (Elt F) → (⟨S600000x128, .f32⟩ : BufTy).Contents (Elt F)),
    StableHlo.nullary main_cst_34 (constant S_ .f32 0x00000000#32),
    StableHlo.unary main_cst_34 main_v137 (broadcastInDim S50000x128 ![] bcast_S_S50000x128 : (⟨S_, .f32⟩ : BufTy).Contents (Elt F) → (⟨S50000x128, .f32⟩ : BufTy).Contents (Elt F)),
    StableHlo.unary main_arg2 main_v138 (broadcastInDim S600000x1 ![0] bcast_S600000_S600000x1_0 : (⟨S600000, .i32⟩ : BufTy).Contents (Elt F) → (⟨S600000x1, .i32⟩ : BufTy).Contents (Elt F)),
    StableHlo.ternary main_v137 main_v138 main_v136 main_v139 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.nullary main_c_35 (constantI S_ 32 0#32),
    StableHlo.unary main_c_35 main_v140 (broadcastInDim S50000 ![] bcast_S_S50000 : (⟨S_, .i32⟩ : BufTy).Contents (Elt F) → (⟨S50000, .i32⟩ : BufTy).Contents (Elt F)),
    StableHlo.binary main_arg1 main_v140 main_v141 (cmpi .slt : (⟨S50000, .i32⟩ : BufTy).Contents (Elt F) → (⟨S50000, .i32⟩ : BufTy).Contents (Elt F) → (⟨S50000, .i1⟩ : BufTy).Contents (Elt F)) ]

theorem pre2_sub : (pre2 : List (HloOp τ sig (Elt F))).Forall fun op => op.bufs ⊆ tcRefs τ sig :=
  ⟨binary_bufs_sub .., ternary_bufs_sub .., unary_bufs_sub .., ternary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub ..⟩

/-- 6 operations of @main, in order. -/
abbrev pre3 : List (HloOp τ sig (Elt F)) :=
  [ StableHlo.nullary main_c_36 (constantI S_ 32 100000#32),
    StableHlo.unary main_c_36 main_v142 (broadcastInDim S50000 ![] bcast_S_S50000 : (⟨S_, .i32⟩ : BufTy).Contents (Elt F) → (⟨S50000, .i32⟩ : BufTy).Contents (Elt F)),
    StableHlo.binary main_arg1 main_v142 main_v143 (addi : (⟨S50000, .i32⟩ : BufTy).Contents (Elt F) → (⟨S50000, .i32⟩ : BufTy).Contents (Elt F) → (⟨S50000, .i32⟩ : BufTy).Contents (Elt F)),
    StableHlo.ternary main_v141 main_v143 main_arg1 main_v144 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v144 main_v145 (broadcastInDim S50000x1 ![0] bcast_S50000_S50000x1_0 : (⟨S50000, .i32⟩ : BufTy).Contents (Elt F) → (⟨S50000x1, .i32⟩ : BufTy).Contents (Elt F)),
    StableHlo.ternary main_v97 main_v145 main_v139 main_v146 ((fun x i u => Host.scatter scatter_S100000x128_S50000x1_S50000x128_1_0_0_1 (fun _ b => b) x i u) : (⟨S100000x128, .f32⟩ : BufTy).Contents (Elt F) → (⟨S50000x1, .i32⟩ : BufTy).Contents (Elt F) → (⟨S50000x128, .f32⟩ : BufTy).Contents (Elt F) → (⟨S100000x128, .f32⟩ : BufTy).Contents (Elt F)) ]

theorem pre3_sub : (pre3 : List (HloOp τ sig (Elt F))).Forall fun op => op.bufs ⊆ tcRefs τ sig :=
  ⟨nullary_bufs_sub .., unary_bufs_sub .., binary_bufs_sub .., ternary_bufs_sub .., unary_bufs_sub .., ternary_bufs_sub ..⟩

/-- 45 operations of @main, in order. -/
abbrev headOps : List (HloOp τ sig (Elt F)) :=
  [ StableHlo.binary main_v146 main_arg5 main_v147 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg6 main_v148 (broadcastInDim S1x64 ![1] bcast_S64_S1x64_1 : (⟨S64, .f32⟩ : BufTy).Contents (Elt F) → (⟨S1x64, .f32⟩ : BufTy).Contents (Elt F)),
    StableHlo.unary main_v148 main_v149 (broadcastInDim S100000x64 ![0, 1] bcast_S1x64_S100000x64_0_1 : (⟨S1x64, .f32⟩ : BufTy).Contents (Elt F) → (⟨S100000x64, .f32⟩ : BufTy).Contents (Elt F)),
    StableHlo.binary main_v147 main_v149 main_v150 (addf : (⟨S100000x64, .f32⟩ : BufTy).Contents (Elt F) → (⟨S100000x64, .f32⟩ : BufTy).Contents (Elt F) → (⟨S100000x64, .f32⟩ : BufTy).Contents (Elt F)),
    StableHlo.nullary main_cst_37 (constant S_ .f32 0x3C23D70A#32),
    StableHlo.TRef.nullary main_call0.cst (constant S_ .f32 0x00000000#32),
    StableHlo.TRef.unary main_call0.cst main_call0.v0 (broadcastInDim S100000x64 ![] bcast_S_S100000x64),
    StableHlo.TRef.binary (.of main_v150) main_call0.v0 main_call0.v1 (cmpf .oge),
    StableHlo.TRef.unary (.of main_cst_37) main_call0.v2 id,
    StableHlo.TRef.unary main_call0.v2 main_call0.v3 (broadcastInDim S100000x64 ![] bcast_S_S100000x64),
    StableHlo.TRef.binary main_call0.v3 (.of main_v150) main_call0.v4 mulf,
    StableHlo.TRef.ternary main_call0.v1 (.of main_v150) main_call0.v4 main_call0.call0.v0 select,
    StableHlo.binary main_v151 main_arg7 main_v152 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    StableHlo.unary main_arg8 main_v153 (broadcastInDim S1x32 ![1] bcast_S32_S1x32_1 : (⟨S32, .f32⟩ : BufTy).Contents (Elt F) → (⟨S1x32, .f32⟩ : BufTy).Contents (Elt F)),
    StableHlo.unary main_v153 main_v154 (broadcastInDim S100000x32 ![0, 1] bcast_S1x32_S100000x32_0_1 : (⟨S1x32, .f32⟩ : BufTy).Contents (Elt F) → (⟨S100000x32, .f32⟩ : BufTy).Contents (Elt F)),
    StableHlo.binary main_v152 main_v154 main_v155 (addf : (⟨S100000x32, .f32⟩ : BufTy).Contents (Elt F) → (⟨S100000x32, .f32⟩ : BufTy).Contents (Elt F) → (⟨S100000x32, .f32⟩ : BufTy).Contents (Elt F)),
    StableHlo.nullary main_cst_38 (constant S_ .f32 0x3C23D70A#32),
    StableHlo.TRef.nullary main_call1.cst (constant S_ .f32 0x00000000#32),
    StableHlo.TRef.unary main_call1.cst main_call1.v0 (broadcastInDim S100000x32 ![] bcast_S_S100000x32),
    StableHlo.TRef.binary (.of main_v155) main_call1.v0 main_call1.v1 (cmpf .oge),
    StableHlo.TRef.unary (.of main_cst_38) main_call1.v2 id,
    StableHlo.TRef.unary main_call1.v2 main_call1.v3 (broadcastInDim S100000x32 ![] bcast_S_S100000x32),
    StableHlo.TRef.binary main_call1.v3 (.of main_v155) main_call1.v4 mulf,
    StableHlo.TRef.ternary main_call1.v1 (.of main_v155) main_call1.v4 main_call1.call0.v0 select,
    StableHlo.binary main_v156 main_arg9 main_v157 ((fun l r => Host.dotGeneral dot_S100000x32_S32x21_S100000x21_1_0_0_1_n_n none l r) : (⟨S100000x32, .f32⟩ : BufTy).Contents (Elt F) → (⟨S32x21, .f32⟩ : BufTy).Contents (Elt F) → (⟨S100000x21, .f32⟩ : BufTy).Contents (Elt F)),
    StableHlo.unary main_arg10 main_v158 (broadcastInDim S1x21 ![1] bcast_S21_S1x21_1 : (⟨S21, .f32⟩ : BufTy).Contents (Elt F) → (⟨S1x21, .f32⟩ : BufTy).Contents (Elt F)),
    StableHlo.unary main_v158 main_v159 (broadcastInDim S100000x21 ![0, 1] bcast_S1x21_S100000x21_0_1 : (⟨S1x21, .f32⟩ : BufTy).Contents (Elt F) → (⟨S100000x21, .f32⟩ : BufTy).Contents (Elt F)),
    StableHlo.binary main_v157 main_v159 main_v160 (addf : (⟨S100000x21, .f32⟩ : BufTy).Contents (Elt F) → (⟨S100000x21, .f32⟩ : BufTy).Contents (Elt F) → (⟨S100000x21, .f32⟩ : BufTy).Contents (Elt F)),
    StableHlo.nullary main_cst_39 (constant S_ .f32 0x3C23D70A#32),
    StableHlo.TRef.nullary main_call2.cst (constant S_ .f32 0x00000000#32),
    StableHlo.TRef.unary main_call2.cst main_call2.v0 (broadcastInDim S100000x21 ![] bcast_S_S100000x21),
    StableHlo.TRef.binary (.of main_v160) main_call2.v0 main_call2.v1 (cmpf .oge),
    StableHlo.TRef.unary (.of main_cst_39) main_call2.v2 id,
    StableHlo.TRef.unary main_call2.v2 main_call2.v3 (broadcastInDim S100000x21 ![] bcast_S_S100000x21),
    StableHlo.TRef.binary main_call2.v3 (.of main_v160) main_call2.v4 mulf,
    StableHlo.TRef.ternary main_call2.v1 (.of main_v160) main_call2.v4 main_call2.call0.v0 select,
    StableHlo.binary main_v161 main_arg11 main_v162 ((fun l r => Host.dotGeneral dot_S100000x21_S21x1_S100000x1_1_0_0_1_n_n none l r) : (⟨S100000x21, .f32⟩ : BufTy).Contents (Elt F) → (⟨S21x1, .f32⟩ : BufTy).Contents (Elt F) → (⟨S100000x1, .f32⟩ : BufTy).Contents (Elt F)),
    StableHlo.unary main_v162 main_v163 (Host.negf : (⟨S100000x1, .f32⟩ : BufTy).Contents (Elt F) → (⟨S100000x1, .f32⟩ : BufTy).Contents (Elt F)),
    StableHlo.unary main_v163 main_v164 (Host.exp : (⟨S100000x1, .f32⟩ : BufTy).Contents (Elt F) → (⟨S100000x1, .f32⟩ : BufTy).Contents (Elt F)),
    StableHlo.nullary main_cst_40 (constant S_ .f32 0x3F800000#32),
    StableHlo.unary main_cst_40 main_v165 (broadcastInDim S100000x1 ![] bcast_S_S100000x1 : (⟨S_, .f32⟩ : BufTy).Contents (Elt F) → (⟨S100000x1, .f32⟩ : BufTy).Contents (Elt F)),
    StableHlo.binary main_v165 main_v164 main_v166 (addf : (⟨S100000x1, .f32⟩ : BufTy).Contents (Elt F) → (⟨S100000x1, .f32⟩ : BufTy).Contents (Elt F) → (⟨S100000x1, .f32⟩ : BufTy).Contents (Elt F)),
    StableHlo.nullary main_cst_41 (constant S_ .f32 0x3F800000#32),
    StableHlo.unary main_cst_41 main_v167 (broadcastInDim S100000x1 ![] bcast_S_S100000x1 : (⟨S_, .f32⟩ : BufTy).Contents (Elt F) → (⟨S100000x1, .f32⟩ : BufTy).Contents (Elt F)),
    StableHlo.binary main_v167 main_v166 main_v168 (Host.divf : (⟨S100000x1, .f32⟩ : BufTy).Contents (Elt F) → (⟨S100000x1, .f32⟩ : BufTy).Contents (Elt F) → (⟨S100000x1, .f32⟩ : BufTy).Contents (Elt F)) ]

theorem headOps_sub : (headOps : List (HloOp τ sig (Elt F))).Forall fun op => op.bufs ⊆ tcRefs τ sig :=
  ⟨binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., nullary_bufs_sub .., unary_bufs_sub .., binary_bufs_sub .., nullary_bufs_sub .., unary_bufs_sub .., binary_bufs_sub ..⟩

end Cert.ReferenceIdeal.RefRun

end
-- ==== Proof.RefRun.lean ====
/-
  The reference program's run, read back as a fold of its host operations.

  The program is a straight line of host operations: a long first stretch (three rounds of the normalised neighbour
  sum over the edge list) that ends in the node-feature array, then a dense head that reads that array and the
  weights. Every weakly fair execution terminates, and each buffer ends at the fold of the operations over the launch
  contents. The fold is stated in two steps, the head's operations applied to the contents the first stretch leaves, so
  that the head can be read entry by entry without ever opening the first stretch.
-/
import proofs.«106774_j69793218560048_1_alg».proof.Proof.RefOps
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first stretch: every operation up to the node-feature array the head reads. -/
abbrev preOps : List (HloOp τ sig (Elt F)) := pre0 ++ (pre1 ++ (pre2 ++ pre3))

/-- The last window of the program: the end of the first stretch, then the head. -/
abbrev ops3 : List (HloOp τ sig (Elt F)) := pre3 ++ headOps

/-- The whole program's operations, in order. -/
abbrev ops : List (HloOp τ sig (Elt F)) := pre0 ++ (pre1 ++ (pre2 ++ ops3))

set_option maxRecDepth 8192 in
theorem main_part0_eq (c : Dev nD) : main_part0 (F := F) c = seq pre0 := rfl
set_option maxRecDepth 8192 in
theorem main_part1_eq (c : Dev nD) : main_part1 (F := F) c = seq pre1 := rfl
set_option maxRecDepth 8192 in
theorem main_part2_eq (c : Dev nD) : main_part2 (F := F) c = seq pre2 := rfl

set_option maxRecDepth 8192 in
/-- The last window is its operations run in order: the outlined functions unfolded where they are called, both sides
    are one chain of steps once sequencing is re-associated. -/
theorem main_part3_eq (c : Dev nD) : main_part3 (F := F) c = seq ops3 := by
  simp only [ops3, pre3, headOps, List.cons_append, List.nil_append, main_part3, fn_leaky_relu.body, fn_leaky_relu_0.body,
    fn_leaky_relu_2.body, fn_where.body, fn_where_1.body, fn_where_3.body, seq, bind_assoc, pure_bind]

/-- The program is its operations run in order. -/
theorem main_eq (c : Dev nD) : main (F := F) c = seq ops := by
  simp only [ops, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, ops3, List.mem_append] at h
    rcases h with h | h | h | h | h
    exacts [List.forall_iff_forall_mem.mp pre0_sub op h, List.forall_iff_forall_mem.mp pre1_sub op h,
      List.forall_iff_forall_mem.mp pre2_sub op h, List.forall_iff_forall_mem.mp pre3_sub op h,
      List.forall_iff_forall_mem.mp headOps_sub op h]

/-- The fold over the whole program is the head's fold over what the first stretch leaves. -/
theorem after_ops (V : Valuation τ sig (Elt F)) : after ops V = after headOps (after preOps V) := by
  simp only [ops, ops3, preOps, after_append]

/-- On every device, from any memory with zero counters: every weakly fair execution of the program terminates with
    each buffer at the head's fold over what the first stretch leaves of the launch contents. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after headOps (after preOps (launchContents m c)) (Proc.devRef .tc b) :=
  (θ_run defs _ _).mono (fun _ h c b => (h c b).trans (by rw [after_ops]))
    (run_seq scopedRefs_eq scopedSems_eq defs main (fun _ => ops) main_eq (fun _ => ops_sub) m ρ)

end Cert.ReferenceIdeal.RefRun

end
-- ==== Proof.LibTypedRef.lean ====
/-
  A buffer reference that carries the type of the tensor value it holds moves contents between "the value's type" and
  "the buffer's own type" along the equation between the two. Going one way and then back is the identity, for any
  such reference: the two transports are along an equation and its inverse.
-/
import Idealize.ShloMosaic.Lib.StableHlo

namespace Cert.TypedRef

open Idealize.ShloMosaic Idealize.ShloMosaic.StableHlo

/-- To the buffer's type and back is the identity. -/
theorem ofBuf_toBuf {sig : RefSig} {T : BufTy} {Val : EltTy → Type} (x : TRef sig T) (v : T.Contents Val) :
    x.ofBuf (x.toBuf v) = v := by
  unfold TRef.ofBuf TRef.toBuf
  simp

end Cert.TypedRef
-- ==== Proof.RefHead.lean ====
/-
  The reference's dense head, read entry by entry.

  After the node-feature array the reference applies, on the host, four general matrix products, three biases placed
  by broadcasts, three leaky rectifiers (an outlined function: compare with zero, scale by the slope, select) and the
  logistic spelt as `1 / (1 + exp (−z))`. Composed, these are one term of the feature array and the weights; at the
  exact values its entry `(r, 0)` is row `r` of the feature array through the head.
-/
import proofs.«106774_j69793218560048_1_alg».proof.Proof.RefRun
import proofs.«106774_j69793218560048_1_alg».proof.Proof.HeadSpec
import proofs.«106774_j69793218560048_1_alg».proof.Proof.LibTypedRef

open scoped BigOperators

noncomputable section

namespace Cert.ReferenceIdeal.HeadValue

open Cert.ReferenceIdeal Cert.ReferenceIdeal.Gen Cert.ReferenceIdeal.RefRun
open Idealize.ShloMosaic Idealize.ShloMosaic.TcCoe Idealize.SL.Sem Idealize.ShloMosaic.StableHlo
open Idealize.ShloMosaic.ValueIdx Cert.DenseLayer Cert.Head

/-- The head's operations composed: the result array as a term of the feature array and the weights. -/
def hostHead (X : FVec Ideal S100000x128 .f32) (W1 : FVec Ideal S128x64 .f32) (b1 : FVec Ideal S64 .f32)
    (W2 : FVec Ideal S64x32 .f32) (b2 : FVec Ideal S32 .f32) (W3 : FVec Ideal S32x21 .f32) (b3 : FVec Ideal S21 .f32)
    (W4 : FVec Ideal S21x1 .f32) : FVec Ideal S100000x1 .f32 :=
  let z1 : FVec Ideal S100000x64 .f32 := addf (Host.dotGeneral dot_S100000x128_S128x64_S100000x64_1_0_0_1_n_n none X W1)
    (broadcastInDim S100000x64 ![0, 1] bcast_S1x64_S100000x64_0_1 (broadcastInDim S1x64 ![1] bcast_S64_S1x64_1 b1))
  let a1 : FVec Ideal S100000x64 .f32 := (select (cmpf .oge z1 (broadcastInDim S100000x64 ![] bcast_S_S100000x64 (constant (F := Ideal) S_ .f32 0x00000000#32))) z1 (mulf (broadcastInDim S100000x64 ![] bcast_S_S100000x64 (id (constant (F := Ideal) S_ .f32 0x3C23D70A#32))) z1))
  let z2 : FVec Ideal S100000x32 .f32 := addf (Host.dotGeneral dot_S100000x64_S64x32_S100000x32_1_0_0_1_n_n none a1 W2)
    (broadcastInDim S100000x32 ![0, 1] bcast_S1x32_S100000x32_0_1 (broadcastInDim S1x32 ![1] bcast_S32_S1x32_1 b2))
  let a2 : FVec Ideal S100000x32 .f32 := (select (cmpf .oge z2 (broadcastInDim S100000x32 ![] bcast_S_S100000x32 (constant (F := Ideal) S_ .f32 0x00000000#32))) z2 (mulf (broadcastInDim S100000x32 ![] bcast_S_S100000x32 (id (constant (F := Ideal) S_ .f32 0x3C23D70A#32))) z2))
  let z3 : FVec Ideal S100000x21 .f32 := addf (Host.dotGeneral dot_S100000x32_S32x21_S100000x21_1_0_0_1_n_n none a2 W3)
    (broadcastInDim S100000x21 ![0, 1] bcast_S1x21_S100000x21_0_1 (broadcastInDim S1x21 ![1] bcast_S21_S1x21_1 b3))
  let a3 : FVec Ideal S100000x21 .f32 := (select (cmpf .oge z3 (broadcastInDim S100000x21 ![] bcast_S_S100000x21 (constant (F := Ideal) S_ .f32 0x00000000#32))) z3 (mulf (broadcastInDim S100000x21 ![] bcast_S_S100000x21 (id (constant (F := Ideal) S_ .f32 0x3C23D70A#32))) z3))
  let z4 : FVec Ideal S100000x1 .f32 := Host.dotGeneral dot_S100000x21_S21x1_S100000x1_1_0_0_1_n_n none a3 W4
  Host.divf (broadcastInDim S100000x1 ![] bcast_S_S100000x1 (constant (F := Ideal) S_ .f32 0x3F800000#32))
    (addf (broadcastInDim S100000x1 ![] bcast_S_S100000x1 (constant (F := Ideal) S_ .f32 0x3F800000#32)) (Host.exp (Host.negf z4)))

/-- Entry `(r, u)` of the composed term is row `r` of the feature array through the head. -/
theorem hostHead_apply (X : FVec Ideal S100000x128 .f32) (W1 : FVec Ideal S128x64 .f32) (b1 : FVec Ideal S64 .f32)
    (W2 : FVec Ideal S64x32 .f32) (b2 : FVec Ideal S32 .f32) (W3 : FVec Ideal S32x21 .f32) (b3 : FVec Ideal S21 .f32)
    (W4 : FVec Ideal S21x1 .f32) (r : Fin 100000) (u : Fin 1) :
    hostHead X W1 b1 W2 b2 W3 b3 W4 (ix2 r u) = head X W1 b1 W2 b2 W3 b3 W4 r := by
  obtain rfl : u = 0 := Subsingleton.elim _ _
  unfold hostHead head rowOut
  simp only [host_logistic_apply, host_leaky_apply,
    host_product_apply dot_S100000x21_S21x1_S100000x1_1_0_0_1_n_n rfl rfl rfl rfl rfl rfl rfl rfl,
    host_affine_apply dot_S100000x32_S32x21_S100000x21_1_0_0_1_n_n rfl rfl rfl rfl rfl rfl rfl rfl,
    host_affine_apply dot_S100000x64_S64x32_S100000x32_1_0_0_1_n_n rfl rfl rfl rfl rfl rfl rfl rfl,
    host_affine_apply dot_S100000x128_S128x64_S100000x64_1_0_0_1_n_n rfl rfl rfl rfl rfl rfl rfl rfl]

/-- The composed term is the head's result array. -/
theorem hostHead_eq (X : FVec Ideal S100000x128 .f32) (W1 : FVec Ideal S128x64 .f32) (b1 : FVec Ideal S64 .f32)
    (W2 : FVec Ideal S64x32 .f32) (b2 : FVec Ideal S32 .f32) (W3 : FVec Ideal S32x21 .f32) (b3 : FVec Ideal S21 .f32)
    (W4 : FVec Ideal S21x1 .f32) : hostHead X W1 b1 W2 b2 W3 b3 W4 = headArr (N := 100000) X W1 b1 W2 b2 W3 b3 W4 := by
  funext j
  obtain ⟨r, u, rfl⟩ : ∃ (r : Fin 100000) (u : Fin 1), j = ix2 r u := ⟨j 0, j 1, eq_ix2 j⟩
  exact hostHead_apply X W1 b1 W2 b2 W3 b3 W4 r u

attribute [local irreducible] Ideal.matmul in
set_option maxRecDepth 16384 in
set_option maxHeartbeats 2000000 in
/-- The head's operations, folded over any contents, leave the composed term of the feature array and the weights as
    those contents hold them. -/
theorem after_head (W : Valuation τ sig (Elt Ideal)) :
    after (headOps (F := Ideal)) W (main_v168 : DevRef τ sig)
      = hostHead (W (main_v146 : DevRef τ sig)) (W (main_arg5 : DevRef τ sig)) (W (main_arg6 : DevRef τ sig)) (W (main_arg7 : DevRef τ sig)) (W (main_arg8 : DevRef τ sig)) (W (main_arg9 : DevRef τ sig)) (W (main_arg10 : DevRef τ sig)) (W (main_arg11 : DevRef τ sig)) := by
  simp only [headOps]
  after_results_simp
  simp only [Cert.TypedRef.ofBuf_toBuf]
  rfl

end Cert.ReferenceIdeal.HeadValue

end
-- ==== Proof.RefKept.lean ====
/-
  The reference's argument arrays are never written.

  Every host operation of the reference writes a buffer of its own, none of them an argument of the program; so
  through the first stretch of operations, and through the dense head's, each argument array keeps its launch contents.
  (One statement per argument and stretch: the operation's written buffer is compared with the argument, operation by
  operation.)
-/
import proofs.«106774_j69793218560048_1_alg».proof.Proof.RefRun

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## Through the first stretch -/

theorem pre_kept_arg0 (V : Valuation τ sig (Elt F)) :
    after (preOps (F := F)) V (main_arg0 : DevRef τ sig) = V (main_arg0 : DevRef τ sig) :=
  after_of_forall_not_mem (b := Proc.devRef .tc main_arg0) _ _ (List.forall_iff_forall_mem.mp (by
    simp only [preOps, pre0, pre1, pre2, pre3, List.cons_append, List.nil_append, List.Forall, nullary_writes, unary_writes, binary_writes,
      ternary_writes, Finset.mem_singleton]
    repeat' apply And.intro
    all_goals exact devRef_ne_of_ne (by decide)))

theorem pre_kept_arg1 (V : Valuation τ sig (Elt F)) :
    after (preOps (F := F)) V (main_arg1 : DevRef τ sig) = V (main_arg1 : DevRef τ sig) :=
  after_of_forall_not_mem (b := Proc.devRef .tc main_arg1) _ _ (List.forall_iff_forall_mem.mp (by
    simp only [preOps, pre0, pre1, pre2, pre3, List.cons_append, List.nil_append, List.Forall, nullary_writes, unary_writes, binary_writes,
      ternary_writes, Finset.mem_singleton]
    repeat' apply And.intro
    all_goals exact devRef_ne_of_ne (by decide)))

theorem pre_kept_arg2 (V : Valuation τ sig (Elt F)) :
    after (preOps (F := F)) V (main_arg2 : DevRef τ sig) = V (main_arg2 : DevRef τ sig) :=
  after_of_forall_not_mem (b := Proc.devRef .tc main_arg2) _ _ (List.forall_iff_forall_mem.mp (by
    simp only [preOps, pre0, pre1, pre2, pre3, List.cons_append, List.nil_append, List.Forall, nullary_writes, unary_writes, binary_writes,
      ternary_writes, Finset.mem_singleton]
    repeat' apply And.intro
    all_goals exact devRef_ne_of_ne (by decide)))

theorem pre_kept_arg3 (V : Valuation τ sig (Elt F)) :
    after (preOps (F := F)) V (main_arg3 : DevRef τ sig) = V (main_arg3 : DevRef τ sig) :=
  after_of_forall_not_mem (b := Proc.devRef .tc main_arg3) _ _ (List.forall_iff_forall_mem.mp (by
    simp only [preOps, pre0, pre1, pre2, pre3, List.cons_append, List.nil_append, List.Forall, nullary_writes, unary_writes, binary_writes,
      ternary_writes, Finset.mem_singleton]
    repeat' apply And.intro
    all_goals exact devRef_ne_of_ne (by decide)))

theorem pre_kept_arg4 (V : Valuation τ sig (Elt F)) :
    after (preOps (F := F)) V (main_arg4 : DevRef τ sig) = V (main_arg4 : DevRef τ sig) :=
  after_of_forall_not_mem (b := Proc.devRef .tc main_arg4) _ _ (List.forall_iff_forall_mem.mp (by
    simp only [preOps, pre0, pre1, pre2, pre3, List.cons_append, List.nil_append, List.Forall, nullary_writes, unary_writes, binary_writes,
      ternary_writes, Finset.mem_singleton]
    repeat' apply And.intro
    all_goals exact devRef_ne_of_ne (by decide)))

theorem pre_kept_arg5 (V : Valuation τ sig (Elt F)) :
    after (preOps (F := F)) V (main_arg5 : DevRef τ sig) = V (main_arg5 : DevRef τ sig) :=
  after_of_forall_not_mem (b := Proc.devRef .tc main_arg5) _ _ (List.forall_iff_forall_mem.mp (by
    simp only [preOps, pre0, pre1, pre2, pre3, List.cons_append, List.nil_append, List.Forall, nullary_writes, unary_writes, binary_writes,
      ternary_writes, Finset.mem_singleton]
    repeat' apply And.intro
    all_goals exact devRef_ne_of_ne (by decide)))

theorem pre_kept_arg6 (V : Valuation τ sig (Elt F)) :
    after (preOps (F := F)) V (main_arg6 : DevRef τ sig) = V (main_arg6 : DevRef τ sig) :=
  after_of_forall_not_mem (b := Proc.devRef .tc main_arg6) _ _ (List.forall_iff_forall_mem.mp (by
    simp only [preOps, pre0, pre1, pre2, pre3, List.cons_append, List.nil_append, List.Forall, nullary_writes, unary_writes, binary_writes,
      ternary_writes, Finset.mem_singleton]
    repeat' apply And.intro
    all_goals exact devRef_ne_of_ne (by decide)))

theorem pre_kept_arg7 (V : Valuation τ sig (Elt F)) :
    after (preOps (F := F)) V (main_arg7 : DevRef τ sig) = V (main_arg7 : DevRef τ sig) :=
  after_of_forall_not_mem (b := Proc.devRef .tc main_arg7) _ _ (List.forall_iff_forall_mem.mp (by
    simp only [preOps, pre0, pre1, pre2, pre3, List.cons_append, List.nil_append, List.Forall, nullary_writes, unary_writes, binary_writes,
      ternary_writes, Finset.mem_singleton]
    repeat' apply And.intro
    all_goals exact devRef_ne_of_ne (by decide)))

theorem pre_kept_arg8 (V : Valuation τ sig (Elt F)) :
    after (preOps (F := F)) V (main_arg8 : DevRef τ sig) = V (main_arg8 : DevRef τ sig) :=
  after_of_forall_not_mem (b := Proc.devRef .tc main_arg8) _ _ (List.forall_iff_forall_mem.mp (by
    simp only [preOps, pre0, pre1, pre2, pre3, List.cons_append, List.nil_append, List.Forall, nullary_writes, unary_writes, binary_writes,
      ternary_writes, Finset.mem_singleton]
    repeat' apply And.intro
    all_goals exact devRef_ne_of_ne (by decide)))

theorem pre_kept_arg9 (V : Valuation τ sig (Elt F)) :
    after (preOps (F := F)) V (main_arg9 : DevRef τ sig) = V (main_arg9 : DevRef τ sig) :=
  after_of_forall_not_mem (b := Proc.devRef .tc main_arg9) _ _ (List.forall_iff_forall_mem.mp (by
    simp only [preOps, pre0, pre1, pre2, pre3, List.cons_append, List.nil_append, List.Forall, nullary_writes, unary_writes, binary_writes,
      ternary_writes, Finset.mem_singleton]
    repeat' apply And.intro
    all_goals exact devRef_ne_of_ne (by decide)))

theorem pre_kept_arg10 (V : Valuation τ sig (Elt F)) :
    after (preOps (F := F)) V (main_arg10 : DevRef τ sig) = V (main_arg10 : DevRef τ sig) :=
  after_of_forall_not_mem (b := Proc.devRef .tc main_arg10) _ _ (List.forall_iff_forall_mem.mp (by
    simp only [preOps, pre0, pre1, pre2, pre3, List.cons_append, List.nil_append, List.Forall, nullary_writes, unary_writes, binary_writes,
      ternary_writes, Finset.mem_singleton]
    repeat' apply And.intro
    all_goals exact devRef_ne_of_ne (by decide)))

theorem pre_kept_arg11 (V : Valuation τ sig (Elt F)) :
    after (preOps (F := F)) V (main_arg11 : DevRef τ sig) = V (main_arg11 : DevRef τ sig) :=
  after_of_forall_not_mem (b := Proc.devRef .tc main_arg11) _ _ (List.forall_iff_forall_mem.mp (by
    simp only [preOps, pre0, pre1, pre2, pre3, List.cons_append, List.nil_append, List.Forall, nullary_writes, unary_writes, binary_writes,
      ternary_writes, Finset.mem_singleton]
    repeat' apply And.intro
    all_goals exact devRef_ne_of_ne (by decide)))

/-! ## Through the dense head -/

theorem head_kept_arg0 (V : Valuation τ sig (Elt F)) :
    after (headOps (F := F)) V (main_arg0 : DevRef τ sig) = V (main_arg0 : DevRef τ sig) :=
  after_of_forall_not_mem (b := Proc.devRef .tc main_arg0) _ _ (List.forall_iff_forall_mem.mp (by
    simp only [headOps, List.cons_append, List.nil_append, List.Forall, nullary_writes, unary_writes, binary_writes,
      ternary_writes, Finset.mem_singleton]
    repeat' apply And.intro
    all_goals exact devRef_ne_of_ne (by decide)))

theorem head_kept_arg1 (V : Valuation τ sig (Elt F)) :
    after (headOps (F := F)) V (main_arg1 : DevRef τ sig) = V (main_arg1 : DevRef τ sig) :=
  after_of_forall_not_mem (b := Proc.devRef .tc main_arg1) _ _ (List.forall_iff_forall_mem.mp (by
    simp only [headOps, List.cons_append, List.nil_append, List.Forall, nullary_writes, unary_writes, binary_writes,
      ternary_writes, Finset.mem_singleton]
    repeat' apply And.intro
    all_goals exact devRef_ne_of_ne (by decide)))

theorem head_kept_arg2 (V : Valuation τ sig (Elt F)) :
    after (headOps (F := F)) V (main_arg2 : DevRef τ sig) = V (main_arg2 : DevRef τ sig) :=
  after_of_forall_not_mem (b := Proc.devRef .tc main_arg2) _ _ (List.forall_iff_forall_mem.mp (by
    simp only [headOps, List.cons_append, List.nil_append, List.Forall, nullary_writes, unary_writes, binary_writes,
      ternary_writes, Finset.mem_singleton]
    repeat' apply And.intro
    all_goals exact devRef_ne_of_ne (by decide)))

theorem head_kept_arg3 (V : Valuation τ sig (Elt F)) :
    after (headOps (F := F)) V (main_arg3 : DevRef τ sig) = V (main_arg3 : DevRef τ sig) :=
  after_of_forall_not_mem (b := Proc.devRef .tc main_arg3) _ _ (List.forall_iff_forall_mem.mp (by
    simp only [headOps, List.cons_append, List.nil_append, List.Forall, nullary_writes, unary_writes, binary_writes,
      ternary_writes, Finset.mem_singleton]
    repeat' apply And.intro
    all_goals exact devRef_ne_of_ne (by decide)))

theorem head_kept_arg4 (V : Valuation τ sig (Elt F)) :
    after (headOps (F := F)) V (main_arg4 : DevRef τ sig) = V (main_arg4 : DevRef τ sig) :=
  after_of_forall_not_mem (b := Proc.devRef .tc main_arg4) _ _ (List.forall_iff_forall_mem.mp (by
    simp only [headOps, List.cons_append, List.nil_append, List.Forall, nullary_writes, unary_writes, binary_writes,
      ternary_writes, Finset.mem_singleton]
    repeat' apply And.intro
    all_goals exact devRef_ne_of_ne (by decide)))

theorem head_kept_arg5 (V : Valuation τ sig (Elt F)) :
    after (headOps (F := F)) V (main_arg5 : DevRef τ sig) = V (main_arg5 : DevRef τ sig) :=
  after_of_forall_not_mem (b := Proc.devRef .tc main_arg5) _ _ (List.forall_iff_forall_mem.mp (by
    simp only [headOps, List.cons_append, List.nil_append, List.Forall, nullary_writes, unary_writes, binary_writes,
      ternary_writes, Finset.mem_singleton]
    repeat' apply And.intro
    all_goals exact devRef_ne_of_ne (by decide)))

theorem head_kept_arg6 (V : Valuation τ sig (Elt F)) :
    after (headOps (F := F)) V (main_arg6 : DevRef τ sig) = V (main_arg6 : DevRef τ sig) :=
  after_of_forall_not_mem (b := Proc.devRef .tc main_arg6) _ _ (List.forall_iff_forall_mem.mp (by
    simp only [headOps, List.cons_append, List.nil_append, List.Forall, nullary_writes, unary_writes, binary_writes,
      ternary_writes, Finset.mem_singleton]
    repeat' apply And.intro
    all_goals exact devRef_ne_of_ne (by decide)))

theorem head_kept_arg7 (V : Valuation τ sig (Elt F)) :
    after (headOps (F := F)) V (main_arg7 : DevRef τ sig) = V (main_arg7 : DevRef τ sig) :=
  after_of_forall_not_mem (b := Proc.devRef .tc main_arg7) _ _ (List.forall_iff_forall_mem.mp (by
    simp only [headOps, List.cons_append, List.nil_append, List.Forall, nullary_writes, unary_writes, binary_writes,
      ternary_writes, Finset.mem_singleton]
    repeat' apply And.intro
    all_goals exact devRef_ne_of_ne (by decide)))

theorem head_kept_arg8 (V : Valuation τ sig (Elt F)) :
    after (headOps (F := F)) V (main_arg8 : DevRef τ sig) = V (main_arg8 : DevRef τ sig) :=
  after_of_forall_not_mem (b := Proc.devRef .tc main_arg8) _ _ (List.forall_iff_forall_mem.mp (by
    simp only [headOps, List.cons_append, List.nil_append, List.Forall, nullary_writes, unary_writes, binary_writes,
      ternary_writes, Finset.mem_singleton]
    repeat' apply And.intro
    all_goals exact devRef_ne_of_ne (by decide)))

theorem head_kept_arg9 (V : Valuation τ sig (Elt F)) :
    after (headOps (F := F)) V (main_arg9 : DevRef τ sig) = V (main_arg9 : DevRef τ sig) :=
  after_of_forall_not_mem (b := Proc.devRef .tc main_arg9) _ _ (List.forall_iff_forall_mem.mp (by
    simp only [headOps, List.cons_append, List.nil_append, List.Forall, nullary_writes, unary_writes, binary_writes,
      ternary_writes, Finset.mem_singleton]
    repeat' apply And.intro
    all_goals exact devRef_ne_of_ne (by decide)))

theorem head_kept_arg10 (V : Valuation τ sig (Elt F)) :
    after (headOps (F := F)) V (main_arg10 : DevRef τ sig) = V (main_arg10 : DevRef τ sig) :=
  after_of_forall_not_mem (b := Proc.devRef .tc main_arg10) _ _ (List.forall_iff_forall_mem.mp (by
    simp only [headOps, List.cons_append, List.nil_append, List.Forall, nullary_writes, unary_writes, binary_writes,
      ternary_writes, Finset.mem_singleton]
    repeat' apply And.intro
    all_goals exact devRef_ne_of_ne (by decide)))

theorem head_kept_arg11 (V : Valuation τ sig (Elt F)) :
    after (headOps (F := F)) V (main_arg11 : DevRef τ sig) = V (main_arg11 : DevRef τ sig) :=
  after_of_forall_not_mem (b := Proc.devRef .tc main_arg11) _ _ (List.forall_iff_forall_mem.mp (by
    simp only [headOps, List.cons_append, List.nil_append, List.Forall, nullary_writes, unary_writes, binary_writes,
      ternary_writes, Finset.mem_singleton]
    repeat' apply And.intro
    all_goals exact devRef_ne_of_ne (by decide)))

end Cert.ReferenceIdeal.RefRun

end
-- ==== Proof.Features.lean ====
/-
  The node-feature array the dense head reads is the same in the two programs.

  Both programs compute it on the host by the same 186 operations of the same arguments (three rounds of: degrees by a
  scatter-add of the edge weights, their inverse square roots gathered at both ends of every edge, the selected rows'
  features gathered along the edges, scaled, scatter-added by destination and written back at the selected rows). Read as
  one composed term of the argument arrays the two are the same term, so they agree as soon as the arguments do; nothing
  inside the term is ever evaluated.
-/
import proofs.«106774_j69793218560048_1_alg».proof.Proof.Gen.KernelIdeal.Launch
import proofs.«106774_j69793218560048_1_alg».proof.Proof.RefRun
import Idealize.ShloMosaic.PureOps.Ideal

noncomputable section

namespace Cert.Features

open Idealize.ShloMosaic Idealize.ShloMosaic.TcCoe Idealize.SL.Sem Idealize.ShloMosaic.StableHlo

attribute [local irreducible] Host.scatterAdd Host.scatter Host.gather Host.rsqrt in
set_option maxRecDepth 65536 in
set_option maxHeartbeats 8000000 in
/-- From contents that agree on the five arguments the first stretch reads, the two programs' first stretches leave the
    same node-feature array. -/
theorem features_eq (V : Valuation Cert.KernelIdeal.τ Cert.KernelIdeal.sig (Elt Ideal))
    (V' : Valuation Cert.ReferenceIdeal.τ Cert.ReferenceIdeal.sig (Elt Ideal))
    (h0 : V' (Cert.ReferenceIdeal.main_arg0 : DevRef Cert.ReferenceIdeal.τ Cert.ReferenceIdeal.sig)
        = V (Cert.KernelIdeal.main_arg0 : DevRef Cert.KernelIdeal.τ Cert.KernelIdeal.sig))
    (h1 : V' (Cert.ReferenceIdeal.main_arg1 : DevRef Cert.ReferenceIdeal.τ Cert.ReferenceIdeal.sig)
        = V (Cert.KernelIdeal.main_arg1 : DevRef Cert.KernelIdeal.τ Cert.KernelIdeal.sig))
    (h2 : V' (Cert.ReferenceIdeal.main_arg2 : DevRef Cert.ReferenceIdeal.τ Cert.ReferenceIdeal.sig)
        = V (Cert.KernelIdeal.main_arg2 : DevRef Cert.KernelIdeal.τ Cert.KernelIdeal.sig))
    (h3 : V' (Cert.ReferenceIdeal.main_arg3 : DevRef Cert.ReferenceIdeal.τ Cert.ReferenceIdeal.sig)
        = V (Cert.KernelIdeal.main_arg3 : DevRef Cert.KernelIdeal.τ Cert.KernelIdeal.sig))
    (h4 : V' (Cert.ReferenceIdeal.main_arg4 : DevRef Cert.ReferenceIdeal.τ Cert.ReferenceIdeal.sig)
        = V (Cert.KernelIdeal.main_arg4 : DevRef Cert.KernelIdeal.τ Cert.KernelIdeal.sig)) :
    (after (Cert.ReferenceIdeal.RefRun.preOps (F := Ideal)) V'
        (Cert.ReferenceIdeal.main_v146 : DevRef Cert.ReferenceIdeal.τ Cert.ReferenceIdeal.sig)
          : (⟨2, ![100000, 128]⟩ : Shape).Idx → EReal)
      = after (Cert.KernelIdeal.Gen.hostOps0 (F := Ideal)) V
          (Cert.KernelIdeal.main_v146 : DevRef Cert.KernelIdeal.τ Cert.KernelIdeal.sig) := by
  simp only [Cert.ReferenceIdeal.RefRun.preOps, Cert.ReferenceIdeal.RefRun.pre0, Cert.ReferenceIdeal.RefRun.pre1,
    Cert.ReferenceIdeal.RefRun.pre2, Cert.ReferenceIdeal.RefRun.pre3, Cert.KernelIdeal.Gen.hostOps0, List.cons_append,
    List.nil_append]
  after_results_simp
  rw [h0, h1, h2, h3, h4]
  rfl

end Cert.Features

end
-- ==== Proof.lean ====
/-
  The certificate: a sparse graph propagation on the host followed by a dense prediction head, the head fused into one
  kernel on one side and written as plain host operations on the other.

  Both programs first compute the node-feature array by the same 186 host operations of the same arguments, so that
  array is the same in both (Proof/Features.lean: the two folds read back as one composed term, never opened). The kernel
  then runs the head block by block: 50 grid points, point `t` taking rows `2000·t … 2000·t + 1999` through four
  matrix products into zero accumulators, three biases, three leaky rectifiers and a logistic, each format change the
  identity at the exact values (Proof/KernelHead.lean), the 50 stored blocks covering the `100000 × 1` result
  (Proof/KernelBlocks.lean to Proof/KernelArray.lean: the grid's index facts, each window's block read off its array, the
  stored block as a block of one whole-array function, the cover). The reference runs the same head on the whole array by general products, broadcast biases, an
  outlined rectifier and the logistic spelt `1 / (1 + exp (−z))` (Proof/RefRun.lean, Proof/RefHead.lean). Entry `(r, 0)` of
  either result is row `r` of the feature array through one function (Proof/HeadSpec.lean); no law that needs finite
  values is used, only the definitions of the operations on the extended reals.

  The three frames: the two kernel programs' are the generated frame runs; the reference's is its run with the result
  dropped, its operations writing no argument (Proof/RefKept.lean). The idealization rewrote no operation, so
  `preserves` has nothing to state.
-/
import proofs.«106774_j69793218560048_1_alg».proof.Defs
import proofs.«106774_j69793218560048_1_alg».proof.Proof.Gen.Kernel
import proofs.«106774_j69793218560048_1_alg».proof.Proof.Gen.Kernel.Skeleton
import proofs.«106774_j69793218560048_1_alg».proof.Proof.Gen.Kernel.Launch
import proofs.«106774_j69793218560048_1_alg».proof.Proof.Gen.Kernel.Points
import proofs.«106774_j69793218560048_1_alg».proof.Proof.Gen.Kernel.Frame
import proofs.«106774_j69793218560048_1_alg».proof.Proof.Gen.KernelIdeal
import proofs.«106774_j69793218560048_1_alg».proof.Proof.Gen.KernelIdeal.Skeleton
import proofs.«106774_j69793218560048_1_alg».proof.Proof.Gen.KernelIdeal.Launch
import proofs.«106774_j69793218560048_1_alg».proof.Proof.Gen.KernelIdeal.Points
import proofs.«106774_j69793218560048_1_alg».proof.Proof.Gen.KernelIdeal.Frame
import proofs.«106774_j69793218560048_1_alg».proof.Proof.Gen.KernelIdeal.Value
import proofs.«106774_j69793218560048_1_alg».proof.Proof.Gen.ReferenceIdeal
import proofs.«106774_j69793218560048_1_alg».proof.Proof.Gen.Pre_finite_inputs
import proofs.«106774_j69793218560048_1_alg».proof.Proof.KernelArray
import proofs.«106774_j69793218560048_1_alg».proof.Proof.RefHead
import proofs.«106774_j69793218560048_1_alg».proof.Proof.RefKept
import proofs.«106774_j69793218560048_1_alg».proof.Proof.Features
import Idealize.ShloMosaic.Adequacy
import Idealize.ShloMosaic.Init

noncomputable section

namespace Cert.Proof

open Idealize.ShloMosaic Idealize.ShloMosaic.TcCoe Idealize.SL.Sem Idealize.ShloMosaic.StableHlo

theorem frame_kernel : Cert.frame_Kernel := fun m ρ _ => Cert.Kernel.Gen.frame m ρ

theorem frame_kernelIdeal : Cert.frame_KernelIdeal := fun m ρ _ => Cert.KernelIdeal.Gen.frame m ρ

/-- The reference terminates without a fault and no operation of it writes an argument. -/
theorem frame_referenceIdeal : Cert.frame_ReferenceIdeal := fun m ρ _ =>
  (θ_run Cert.ReferenceIdeal.defs _ _).mono (fun _ h c =>
    ⟨(h c Cert.ReferenceIdeal.main_arg0).trans ((Cert.ReferenceIdeal.RefRun.head_kept_arg0 _).trans (Cert.ReferenceIdeal.RefRun.pre_kept_arg0 _)),
      (h c Cert.ReferenceIdeal.main_arg1).trans ((Cert.ReferenceIdeal.RefRun.head_kept_arg1 _).trans (Cert.ReferenceIdeal.RefRun.pre_kept_arg1 _)),
      (h c Cert.ReferenceIdeal.main_arg2).trans ((Cert.ReferenceIdeal.RefRun.head_kept_arg2 _).trans (Cert.ReferenceIdeal.RefRun.pre_kept_arg2 _)),
      (h c Cert.ReferenceIdeal.main_arg3).trans ((Cert.ReferenceIdeal.RefRun.head_kept_arg3 _).trans (Cert.ReferenceIdeal.RefRun.pre_kept_arg3 _)),
      (h c Cert.ReferenceIdeal.main_arg4).trans ((Cert.ReferenceIdeal.RefRun.head_kept_arg4 _).trans (Cert.ReferenceIdeal.RefRun.pre_kept_arg4 _)),
      (h c Cert.ReferenceIdeal.main_arg5).trans ((Cert.ReferenceIdeal.RefRun.head_kept_arg5 _).trans (Cert.ReferenceIdeal.RefRun.pre_kept_arg5 _)),
      (h c Cert.ReferenceIdeal.main_arg6).trans ((Cert.ReferenceIdeal.RefRun.head_kept_arg6 _).trans (Cert.ReferenceIdeal.RefRun.pre_kept_arg6 _)),
      (h c Cert.ReferenceIdeal.main_arg7).trans ((Cert.ReferenceIdeal.RefRun.head_kept_arg7 _).trans (Cert.ReferenceIdeal.RefRun.pre_kept_arg7 _)),
      (h c Cert.ReferenceIdeal.main_arg8).trans ((Cert.ReferenceIdeal.RefRun.head_kept_arg8 _).trans (Cert.ReferenceIdeal.RefRun.pre_kept_arg8 _)),
      (h c Cert.ReferenceIdeal.main_arg9).trans ((Cert.ReferenceIdeal.RefRun.head_kept_arg9 _).trans (Cert.ReferenceIdeal.RefRun.pre_kept_arg9 _)),
      (h c Cert.ReferenceIdeal.main_arg10).trans ((Cert.ReferenceIdeal.RefRun.head_kept_arg10 _).trans (Cert.ReferenceIdeal.RefRun.pre_kept_arg10 _)),
      (h c Cert.ReferenceIdeal.main_arg11).trans ((Cert.ReferenceIdeal.RefRun.head_kept_arg11 _).trans (Cert.ReferenceIdeal.RefRun.pre_kept_arg11 _))⟩)
    (Cert.ReferenceIdeal.RefRun.run (F := Ideal) m ρ)

/-- The ideal pass rewrote nothing. -/
theorem preserves : Cert.preserves_Kernel_KernelIdeal := trivial

/-- From memories that agree on the arguments both programs end with the same result array: the head (one function of
    the feature array and the weights) of the same feature array and the same weights. -/
theorem algebraic : Cert.algebraic_KernelIdeal_ReferenceIdeal := by
  intro m ρ m' ρ' _ hagree
  refine ⟨fun c => Cert.KernelIdeal.ArrayValue.out m c, Cert.KernelIdeal.ArrayValue.run m ρ, ?_⟩
  refine (θ_run Cert.ReferenceIdeal.defs _ _).mono (fun _ h c =>
    ⟨?_, (h c Cert.ReferenceIdeal.main_arg0).trans ((Cert.ReferenceIdeal.RefRun.head_kept_arg0 _).trans (Cert.ReferenceIdeal.RefRun.pre_kept_arg0 _)),
      (h c Cert.ReferenceIdeal.main_arg1).trans ((Cert.ReferenceIdeal.RefRun.head_kept_arg1 _).trans (Cert.ReferenceIdeal.RefRun.pre_kept_arg1 _)),
      (h c Cert.ReferenceIdeal.main_arg2).trans ((Cert.ReferenceIdeal.RefRun.head_kept_arg2 _).trans (Cert.ReferenceIdeal.RefRun.pre_kept_arg2 _)),
      (h c Cert.ReferenceIdeal.main_arg3).trans ((Cert.ReferenceIdeal.RefRun.head_kept_arg3 _).trans (Cert.ReferenceIdeal.RefRun.pre_kept_arg3 _)),
      (h c Cert.ReferenceIdeal.main_arg4).trans ((Cert.ReferenceIdeal.RefRun.head_kept_arg4 _).trans (Cert.ReferenceIdeal.RefRun.pre_kept_arg4 _)),
      (h c Cert.ReferenceIdeal.main_arg5).trans ((Cert.ReferenceIdeal.RefRun.head_kept_arg5 _).trans (Cert.ReferenceIdeal.RefRun.pre_kept_arg5 _)),
      (h c Cert.ReferenceIdeal.main_arg6).trans ((Cert.ReferenceIdeal.RefRun.head_kept_arg6 _).trans (Cert.ReferenceIdeal.RefRun.pre_kept_arg6 _)),
      (h c Cert.ReferenceIdeal.main_arg7).trans ((Cert.ReferenceIdeal.RefRun.head_kept_arg7 _).trans (Cert.ReferenceIdeal.RefRun.pre_kept_arg7 _)),
      (h c Cert.ReferenceIdeal.main_arg8).trans ((Cert.ReferenceIdeal.RefRun.head_kept_arg8 _).trans (Cert.ReferenceIdeal.RefRun.pre_kept_arg8 _)),
      (h c Cert.ReferenceIdeal.main_arg9).trans ((Cert.ReferenceIdeal.RefRun.head_kept_arg9 _).trans (Cert.ReferenceIdeal.RefRun.pre_kept_arg9 _)),
      (h c Cert.ReferenceIdeal.main_arg10).trans ((Cert.ReferenceIdeal.RefRun.head_kept_arg10 _).trans (Cert.ReferenceIdeal.RefRun.pre_kept_arg10 _)),
      (h c Cert.ReferenceIdeal.main_arg11).trans ((Cert.ReferenceIdeal.RefRun.head_kept_arg11 _).trans (Cert.ReferenceIdeal.RefRun.pre_kept_arg11 _))⟩)
    (Cert.ReferenceIdeal.RefRun.run (F := Ideal) m' ρ')
  obtain ⟨a0, a1, a2, a3, a4, a5, a6, a7, a8, a9, a10, a11⟩ := hagree c
  have b5 : launchContents m' c (Cert.ReferenceIdeal.main_arg5 : DevRef Cert.ReferenceIdeal.τ Cert.ReferenceIdeal.sig) = _ := a5
  have b6 : launchContents m' c (Cert.ReferenceIdeal.main_arg6 : DevRef Cert.ReferenceIdeal.τ Cert.ReferenceIdeal.sig) = _ := a6
  have b7 : launchContents m' c (Cert.ReferenceIdeal.main_arg7 : DevRef Cert.ReferenceIdeal.τ Cert.ReferenceIdeal.sig) = _ := a7
  have b8 : launchContents m' c (Cert.ReferenceIdeal.main_arg8 : DevRef Cert.ReferenceIdeal.τ Cert.ReferenceIdeal.sig) = _ := a8
  have b9 : launchContents m' c (Cert.ReferenceIdeal.main_arg9 : DevRef Cert.ReferenceIdeal.τ Cert.ReferenceIdeal.sig) = _ := a9
  have b10 : launchContents m' c (Cert.ReferenceIdeal.main_arg10 : DevRef Cert.ReferenceIdeal.τ Cert.ReferenceIdeal.sig) = _ := a10
  have b11 : launchContents m' c (Cert.ReferenceIdeal.main_arg11 : DevRef Cert.ReferenceIdeal.τ Cert.ReferenceIdeal.sig) = _ := a11
  rw [h c Cert.ReferenceIdeal.main_v168, Cert.ReferenceIdeal.HeadValue.after_head, Cert.ReferenceIdeal.HeadValue.hostHead_eq,
    Cert.ReferenceIdeal.RefRun.pre_kept_arg5, Cert.ReferenceIdeal.RefRun.pre_kept_arg6, Cert.ReferenceIdeal.RefRun.pre_kept_arg7, Cert.ReferenceIdeal.RefRun.pre_kept_arg8,
    Cert.ReferenceIdeal.RefRun.pre_kept_arg9, Cert.ReferenceIdeal.RefRun.pre_kept_arg10, Cert.ReferenceIdeal.RefRun.pre_kept_arg11,
    Cert.Features.features_eq (fun b => m (c, b)) (launchContents m' c) a0 a1 a2 a3 a4,
    b5, b6, b7, b8, b9, b10, b11]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
